-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x512x512 : Shape := ⟨4, ![8, 32, 512, 512]⟩
abbrev S8x512x512x2 : Shape := ⟨4, ![8, 512, 512, 2]⟩
abbrev S_ : Shape := ⟨0, ![]⟩

class Facts : Prop where
  bcast_S_S8x32x512x512 : S_.BroadcastsInDim S8x32x512x512 (![] : Fin 0 → Fin S8x32x512x512.rank)
  reducesTo_S8x32x512x512_S_d0_1_2_3 : S8x32x512x512.ReducesTo [0, 1, 2, 3] S_
  h_S_ : 0 < S_.numel
  bcast_S_S8x512x512x2 : S_.BroadcastsInDim S8x512x512x2 (![] : Fin 0 → Fin S8x512x512x2.rank)
  reducesTo_S8x512x512x2_S_d0_1_2_3 : S8x512x512x2.ReducesTo [0, 1, 2, 3] S_

variable [Facts]

def fn {F : FTy → Type} [FloatOps F] (main_arg0 : FVec F S8x32x512x512 .f32) (main_arg1 : FVec F S8x512x512x2 .f32) : IVec S_ 1 :=
  let main_v0 : FVec F S8x32x512x512 .f32 := Host.absf main_arg0
  let main_cst : FVec F S_ .f32 := constant S_ .f32 0x7F800000#32
  let main_v1 : FVec F S8x32x512x512 .f32 := broadcastInDim S8x32x512x512 ![] bcast_S_S8x32x512x512 main_cst
  let main_v2 : IVec S8x32x512x512 1 := cmpf .olt main_v0 main_v1
  let main_c : IVec S_ 1 := constantI S_ 1 1#1
  let main_v3 : IVec S_ 1 := (fun x v => Host.reduce IntOp.andi x v reducesTo_S8x32x512x512_S_d0_1_2_3 h_S_) main_v2 main_c
  let main_v4 : FVec F S8x512x512x2 .f32 := Host.absf main_arg1
  let main_cst_0 : FVec F S_ .f32 := constant S_ .f32 0x7F800000#32
  let main_v5 : FVec F S8x512x512x2 .f32 := broadcastInDim S8x512x512x2 ![] bcast_S_S8x512x512x2 main_cst_0
  let main_v6 : IVec S8x512x512x2 1 := cmpf .olt main_v4 main_v5
  let main_c_1 : IVec S_ 1 := constantI S_ 1 1#1
  let main_v7 : IVec S_ 1 := (fun x v => Host.reduce IntOp.andi x v reducesTo_S8x512x512x2_S_d0_1_2_3 h_S_) main_v6 main_c_1
  let main_v8 : IVec S_ 1 := andi main_v3 main_v7
  main_v8
-- ==== Kernel.lean ====
abbrev S8x32x512x512 : Shape := ⟨4, ![8, 32, 512, 512]⟩
abbrev S8x512x512x2 : Shape := ⟨4, ![8, 512, 512, 2]⟩
abbrev S8x262144x2 : Shape := ⟨3, ![8, 262144, 2]⟩
abbrev S8x512x512 : Shape := ⟨3, ![8, 512, 512]⟩
abbrev S1x2048x2 : Shape := ⟨3, ![1, 2048, 2]⟩
abbrev S1x512x512 : Shape := ⟨3, ![1, 512, 512]⟩
abbrev S512x512 : Shape := ⟨2, ![512, 512]⟩
abbrev S1x2048x1 : Shape := ⟨3, ![1, 2048, 1]⟩
abbrev S2048x1 : Shape := ⟨2, ![2048, 1]⟩
abbrev S2048x512 : Shape := ⟨2, ![2048, 512]⟩
abbrev S1x8x512x512 : Shape := ⟨4, ![1, 8, 512, 512]⟩

abbrev nBuf : Space → Nat
  | .hbm => 5
  | .vmem => 9
  | .smem => 0
  | _ => 0

abbrev bufTy : (tb : Table) → Fin (tcTables nBuf tb) → BufTy
  | .hbm, ⟨0, _⟩ => ⟨S8x32x512x512, .f32⟩
  | .hbm, ⟨1, _⟩ => ⟨S8x512x512x2, .f32⟩
  | .hbm, ⟨2, _⟩ => ⟨S8x262144x2, .f32⟩
  | .hbm, ⟨3, _⟩ => ⟨S8x512x512, .f32⟩
  | .hbm, ⟨4, _⟩ => ⟨S8x32x512x512, .f32⟩
  | .local _ .vmem, ⟨0, _⟩ => ⟨S1x2048x2, .f32⟩
  | .local _ .vmem, ⟨1, _⟩ => ⟨S1x2048x2, .f32⟩
  | .local _ .vmem, ⟨2, _⟩ => ⟨S1x512x512, .f32⟩
  | .local _ .vmem, ⟨3, _⟩ => ⟨S1x512x512, .f32⟩
  | .local _ .vmem, ⟨4, _⟩ => ⟨S512x512, .f32⟩
  | .local _ .vmem, ⟨5, _⟩ => ⟨S1x512x512, .f32⟩
  | .local _ .vmem, ⟨6, _⟩ => ⟨S1x512x512, .f32⟩
  | .local _ .vmem, ⟨7, _⟩ => ⟨S1x8x512x512, .f32⟩
  | .local _ .vmem, ⟨8, _⟩ => ⟨S1x8x512x512, .f32⟩
  | _, _ => ⟨S8x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![8, 128], ![false, false]⟩

def k0_cond2 (i : grid0.Coords) : BitVec 1 :=
  let arg1 : BitVec 32 := BitVec.ofNat 32 (i 1).val
  let c127_i32 : BitVec 32 := 127#32
  let v59 : BitVec 1 := Scalar.cmpi .eq arg1 c127_i32
  let v60 : BitVec 32 := Scalar.extui v59
  let c0_i32_27 : BitVec 32 := 0#32
  let v61 : BitVec 1 := Scalar.cmpi .ne v60 c0_i32_27
  v61

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x8x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  shapeCasts_S8x512x512x2_S8x262144x2 : S8x512x512x2.ShapeCasts S8x262144x2
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x2048x2_S1x2048x1_0_0_0 : ∀ a, (![0, 0, 0] : Fin 3 → Nat) a + S1x2048x1.size a ≤ S1x2048x2.size a
  h_S1x2048x1 : 0 < S1x2048x1.numel
  shapeCasts_S1x2048x1_S2048x1 : S1x2048x1.ShapeCasts S2048x1
  inb_S1x2048x2_S1x2048x1_0_0_1 : ∀ a, (![0, 0, 1] : Fin 3 → Nat) a + S1x2048x1.size a ≤ S1x2048x2.size a
  iota_S2048x512_d1_w32 : S2048x512.Iotas .tc 32 [1]
  broadcasts_S2048x1_S2048x512 : S2048x1.Broadcasts S2048x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  shapeCasts_S1x512x512_S1x512x512 : S1x512x512.ShapeCasts S1x512x512
  broadcasts_S1x512x512_S8x512x512 : S1x512x512.Broadcasts S8x512x512
  inb_S1x8x512x512_S1x8x512x512_0_0_0_0 : ∀ a, (![0, 0, 0, 0] : Fin 4 → Nat) a + S1x8x512x512.size a ≤ S1x8x512x512.size a
  h_S1x8x512x512 : 0 < S1x8x512x512.numel
  shapeCasts_S1x8x512x512_S8x512x512 : S1x8x512x512.ShapeCasts S8x512x512
  shapeCasts_S8x512x512_S1x8x512x512 : S8x512x512.ShapeCasts S1x8x512x512
  dot_S2048x512_S2048x512_S512x512_0_0_1_1_n_n_wf : DotDims.WF S2048x512 S2048x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2.size a ≤ S8x262144x2.size a
  hwx0_0 : ∀ i : grid0.Coords, EltTy.bits .f32 = 32 ∨ (Rect.block (s := S8x262144x2) S1x2048x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .f32 = 32 ∨ (Rect.block (s := S8x512x512) S1x512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S8x512x512.size a
  hwx1_0 : ∀ i : grid1.Coords, EltTy.bits .f32 = 32 ∨ (Rect.block (s := S8x512x512) S1x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x512x512.size a ≤ S8x32x512x512.size a
  hwx1_1 : ∀ i : grid1.Coords, EltTy.bits .f32 = 32 ∨ (Rect.block (s := S8x32x512x512) S1x8x512x512.size (cc1_transform_1 i) (hinb1_1 i)).WholeWords (EltTy.packing .f32)

variable [Facts₀]

def dot_S2048x512_S2048x512_S512x512_0_0_1_1_n_n : DotDims S2048x512 S2048x512 S512x512 where
  lhsContracting := [0]
  rhsContracting := [0]
  lhsNonContracting := [1]
  rhsNonContracting := [1]
  lhsBatch := []
  rhsBatch := []
  wf := dot_S2048x512_S2048x512_S512x512_0_0_1_1_n_n_wf

abbrev win0_0 : Pipeline.Window sig grid0 :=
  Pipeline.Window.ofSpec (Memref.whole main_v0) S1x2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v1) S1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x8x512x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8x32x512x512 : Shape := ⟨4, ![8, 32, 512, 512]⟩
abbrev S8x512x512x2 : Shape := ⟨4, ![8, 512, 512, 2]⟩
abbrev S_ : Shape := ⟨0, ![]⟩
abbrev S8x512x512x1 : Shape := ⟨4, ![8, 512, 512, 1]⟩
abbrev S8x512x512 : Shape := ⟨3, ![8, 512, 512]⟩
abbrev S8 : Shape := ⟨1, ![8]⟩
abbrev S8x1x1 : Shape := ⟨3, ![8, 1, 1]⟩
abbrev S8x515x515 : Shape := ⟨3, ![8, 515, 515]⟩
abbrev S8x512x512x3 : Shape := ⟨4, ![8, 512, 512, 3]⟩
abbrev S8x1x512x512 : Shape := ⟨4, ![8, 1, 512, 512]⟩

abbrev nBuf : Space → Nat
  | .hbm => 257
  | .vmem => 0
  | .smem => 0
  | _ => 0

abbrev hbmTy0_0 (i : Nat) : BufTy := match i % 128 with
  | 0 => ⟨S8x32x512x512, .f32⟩
  | 1 => ⟨S8x512x512x2, .f32⟩
  | 2 => ⟨S_, .f32⟩
  | 3 => ⟨S8x512x512x2, .f32⟩
  | 4 => ⟨S8x512x512x2, .f32⟩
  | 5 => ⟨S_, .f32⟩
  | 6 => ⟨S8x512x512x2, .f32⟩
  | 7 => ⟨S8x512x512x2, .f32⟩
  | 8 => ⟨S8x512x512x1, .f32⟩
  | 9 => ⟨S8x512x512, .f32⟩
  | 10 => ⟨S_, .f32⟩
  | 11 => ⟨S8x512x512, .f32⟩
  | 12 => ⟨S8x512x512, .f32⟩
  | 13 => ⟨S_, .f32⟩
  | 14 => ⟨S8x512x512, .f32⟩
  | 15 => ⟨S8x512x512, .f32⟩
  | 16 => ⟨S_, .f32⟩
  | 17 => ⟨S_, .f32⟩
  | 18 => ⟨S_, .f32⟩
  | 19 => ⟨S8x512x512, .f32⟩
  | 20 => ⟨S8x512x512, .f32⟩
  | 21 => ⟨S_, .f32⟩
  | 22 => ⟨S8x512x512, .f32⟩
  | 23 => ⟨S8x512x512, .f32⟩
  | 24 => ⟨S8x512x512x1, .f32⟩
  | 25 => ⟨S8x512x512, .f32⟩
  | 26 => ⟨S_, .f32⟩
  | 27 => ⟨S8x512x512, .f32⟩
  | 28 => ⟨S8x512x512, .f32⟩
  | 29 => ⟨S_, .f32⟩
  | 30 => ⟨S8x512x512, .f32⟩
  | 31 => ⟨S8x512x512, .f32⟩
  | 32 => ⟨S_, .f32⟩
  | 33 => ⟨S_, .f32⟩
  | 34 => ⟨S_, .f32⟩
  | 35 => ⟨S8x512x512, .f32⟩
  | 36 => ⟨S8x512x512, .f32⟩
  | 37 => ⟨S_, .f32⟩
  | 38 => ⟨S8x512x512, .f32⟩
  | 39 => ⟨S8x512x512, .f32⟩
  | 40 => ⟨S8x512x512, .i32⟩
  | 41 => ⟨S8x512x512, .i32⟩
  | 42 => ⟨S8, .i32⟩
  | 43 => ⟨S8x1x1, .i32⟩
  | 44 => ⟨S_, .f32⟩
  | 45 => ⟨S8x515x515, .f32⟩
  | 46 => ⟨S_, .i32⟩
  | 47 => ⟨S8x512x512, .i32⟩
  | 48 => ⟨S8x512x512, .i32⟩
  | 49 => ⟨S8x512x512, .f32⟩
  | 50 => ⟨S8x512x512, .f32⟩
  | 51 => ⟨S8x512x512, .f32⟩
  | 52 => ⟨S_, .f32⟩
  | 53 => ⟨S8x512x512, .f32⟩
  | 54 => ⟨S8x512x512, .f32⟩
  | 55 => ⟨S_, .f32⟩
  | 56 => ⟨S8x512x512, .f32⟩
  | 57 => ⟨S8x512x512, .f32⟩
  | 58 => ⟨S_, .i32⟩
  | 59 => ⟨S8x512x512, .i32⟩
  | 60 => ⟨S8x512x512, .i32⟩
  | 61 => ⟨S8x512x512, .f32⟩
  | 62 => ⟨S8x512x512, .f32⟩
  | 63 => ⟨S8x512x512, .f32⟩
  | 64 => ⟨S_, .f32⟩
  | 65 => ⟨S8x512x512, .f32⟩
  | 66 => ⟨S8x512x512, .f32⟩
  | 67 => ⟨S_, .f32⟩
  | 68 => ⟨S8x512x512, .f32⟩
  | 69 => ⟨S8x512x512, .f32⟩
  | 70 => ⟨S_, .i32⟩
  | 71 => ⟨S8x512x512, .i32⟩
  | 72 => ⟨S8x512x512, .i32⟩
  | 73 => ⟨S_, .i32⟩
  | 74 => ⟨S8x512x512, .i32⟩
  | 75 => ⟨S8x512x512, .i32⟩
  | 76 => ⟨S8x512x512, .f32⟩
  | 77 => ⟨S_, .i32⟩
  | 78 => ⟨S8x1x1, .i32⟩
  | 79 => ⟨S8x1x1, .i1⟩
  | 80 => ⟨S_, .i32⟩
  | 81 => ⟨S8x1x1, .i32⟩
  | 82 => ⟨S8x1x1, .i32⟩
  | 83 => ⟨S8x1x1, .i32⟩
  | 84 => ⟨S_, .i32⟩
  | 85 => ⟨S8x512x512, .i32⟩
  | 86 => ⟨S8x512x512, .i1⟩
  | 87 => ⟨S_, .i32⟩
  | 88 => ⟨S8x512x512, .i32⟩
  | 89 => ⟨S8x512x512, .i32⟩
  | 90 => ⟨S8x512x512, .i32⟩
  | 91 => ⟨S_, .i32⟩
  | 92 => ⟨S8x512x512, .i32⟩
  | 93 => ⟨S8x512x512, .i1⟩
  | 94 => ⟨S_, .i32⟩
  | 95 => ⟨S8x512x512, .i32⟩
  | 96 => ⟨S8x512x512, .i32⟩
  | 97 => ⟨S8x512x512, .i32⟩
  | 98 => ⟨S8x512x512, .i32⟩
  | 99 => ⟨S8x512x512x1, .i32⟩
  | 100 => ⟨S8x512x512x1, .i32⟩
  | 101 => ⟨S8x512x512x1, .i32⟩
  | 102 => ⟨S8x512x512x3, .i32⟩
  | 103 => ⟨S8x515x515, .f32⟩
  | 104 => ⟨S_, .i32⟩
  | 105 => ⟨S8x512x512, .i32⟩
  | 106 => ⟨S8x512x512, .i32⟩
  | 107 => ⟨S8x512x512, .f32⟩
  | 108 => ⟨S8x512x512, .f32⟩
  | 109 => ⟨S8x512x512, .f32⟩
  | 110 => ⟨S_, .f32⟩
  | 111 => ⟨S8x512x512, .f32⟩
  | 112 => ⟨S8x512x512, .f32⟩
  | 113 => ⟨S_, .f32⟩
  | 114 => ⟨S8x512x512, .f32⟩
  | 115 => ⟨S8x512x512, .f32⟩
  | 116 => ⟨S_, .i32⟩
  | 117 => ⟨S8x512x512, .i32⟩
  | 118 => ⟨S8x512x512, .i32⟩
  | 119 => ⟨S_, .i32⟩
  | 120 => ⟨S8x512x512, .i32⟩
  | 121 => ⟨S8x512x512, .i32⟩
  | 122 => ⟨S8x512x512, .f32⟩
  | 123 => ⟨S_, .i32⟩
  | 124 => ⟨S8x1x1, .i32⟩
  | 125 => ⟨S8x1x1, .i1⟩
  | 126 => ⟨S_, .i32⟩
  | 127 => ⟨S8x1x1, .i32⟩
  | _ => ⟨S8x32x512x512, .f32⟩

abbrev hbmTy0_1 (i : Nat) : BufTy := match i % 128 with
  | 0 => ⟨S8x1x1, .i32⟩
  | 1 => ⟨S8x1x1, .i32⟩
  | 2 => ⟨S_, .i32⟩
  | 3 => ⟨S8x512x512, .i32⟩
  | 4 => ⟨S8x512x512, .i1⟩
  | 5 => ⟨S_, .i32⟩
  | 6 => ⟨S8x512x512, .i32⟩
  | 7 => ⟨S8x512x512, .i32⟩
  | 8 => ⟨S8x512x512, .i32⟩
  | 9 => ⟨S_, .i32⟩
  | 10 => ⟨S8x512x512, .i32⟩
  | 11 => ⟨S8x512x512, .i1⟩
  | 12 => ⟨S_, .i32⟩
  | 13 => ⟨S8x512x512, .i32⟩
  | 14 => ⟨S8x512x512, .i32⟩
  | 15 => ⟨S8x512x512, .i32⟩
  | 16 => ⟨S8x512x512, .i32⟩
  | 17 => ⟨S8x512x512x1, .i32⟩
  | 18 => ⟨S8x512x512x1, .i32⟩
  | 19 => ⟨S8x512x512x1, .i32⟩
  | 20 => ⟨S8x512x512x3, .i32⟩
  | 21 => ⟨S8x515x515, .f32⟩
  | 22 => ⟨S_, .i32⟩
  | 23 => ⟨S8x512x512, .i32⟩
  | 24 => ⟨S8x512x512, .i32⟩
  | 25 => ⟨S8x512x512, .f32⟩
  | 26 => ⟨S8x512x512, .f32⟩
  | 27 => ⟨S8x512x512, .f32⟩
  | 28 => ⟨S_, .f32⟩
  | 29 => ⟨S8x512x512, .f32⟩
  | 30 => ⟨S8x512x512, .f32⟩
  | 31 => ⟨S_, .f32⟩
  | 32 => ⟨S8x512x512, .f32⟩
  | 33 => ⟨S8x512x512, .f32⟩
  | 34 => ⟨S_, .i32⟩
  | 35 => ⟨S8x512x512, .i32⟩
  | 36 => ⟨S8x512x512, .i32⟩
  | 37 => ⟨S8x512x512, .f32⟩
  | 38 => ⟨S8x512x512, .f32⟩
  | 39 => ⟨S8x512x512, .f32⟩
  | 40 => ⟨S_, .f32⟩
  | 41 => ⟨S8x512x512, .f32⟩
  | 42 => ⟨S8x512x512, .f32⟩
  | 43 => ⟨S_, .f32⟩
  | 44 => ⟨S8x512x512, .f32⟩
  | 45 => ⟨S8x512x512, .f32⟩
  | 46 => ⟨S_, .i32⟩
  | 47 => ⟨S8x512x512, .i32⟩
  | 48 => ⟨S8x512x512, .i32⟩
  | 49 => ⟨S_, .i32⟩
  | 50 => ⟨S8x512x512, .i32⟩
  | 51 => ⟨S8x512x512, .i32⟩
  | 52 => ⟨S8x512x512, .f32⟩
  | 53 => ⟨S_, .i32⟩
  | 54 => ⟨S8x1x1, .i32⟩
  | 55 => ⟨S8x1x1, .i1⟩
  | 56 => ⟨S_, .i32⟩
  | 57 => ⟨S8x1x1, .i32⟩
  | 58 => ⟨S8x1x1, .i32⟩
  | 59 => ⟨S8x1x1, .i32⟩
  | 60 => ⟨S_, .i32⟩
  | 61 => ⟨S8x512x512, .i32⟩
  | 62 => ⟨S8x512x512, .i1⟩
  | 63 => ⟨S_, .i32⟩
  | 64 => ⟨S8x512x512, .i32⟩
  | 65 => ⟨S8x512x512, .i32⟩
  | 66 => ⟨S8x512x512, .i32⟩
  | 67 => ⟨S_, .i32⟩
  | 68 => ⟨S8x512x512, .i32⟩
  | 69 => ⟨S8x512x512, .i1⟩
  | 70 => ⟨S_, .i32⟩
  | 71 => ⟨S8x512x512, .i32⟩
  | 72 => ⟨S8x512x512, .i32⟩
  | 73 => ⟨S8x512x512, .i32⟩
  | 74 => ⟨S8x512x512, .i32⟩
  | 75 => ⟨S8x512x512x1, .i32⟩
  | 76 => ⟨S8x512x512x1, .i32⟩
  | 77 => ⟨S8x512x512x1, .i32⟩
  | 78 => ⟨S8x512x512x3, .i32⟩
  | 79 => ⟨S8x515x515, .f32⟩
  | 80 => ⟨S_, .i32⟩
  | 81 => ⟨S8x512x512, .i32⟩
  | 82 => ⟨S8x512x512, .i32⟩
  | 83 => ⟨S8x512x512, .f32⟩
  | 84 => ⟨S8x512x512, .f32⟩
  | 85 => ⟨S8x512x512, .f32⟩
  | 86 => ⟨S_, .f32⟩
  | 87 => ⟨S8x512x512, .f32⟩
  | 88 => ⟨S8x512x512, .f32⟩
  | 89 => ⟨S_, .f32⟩
  | 90 => ⟨S8x512x512, .f32⟩
  | 91 => ⟨S8x512x512, .f32⟩
  | 92 => ⟨S_, .i32⟩
  | 93 => ⟨S8x512x512, .i32⟩
  | 94 => ⟨S8x512x512, .i32⟩
  | 95 => ⟨S_, .i32⟩
  | 96 => ⟨S8x512x512, .i32⟩
  | 97 => ⟨S8x512x512, .i32⟩
  | 98 => ⟨S8x512x512, .f32⟩
  | 99 => ⟨S_, .i32⟩
  | 100 => ⟨S8x1x1, .i32⟩
  | 101 => ⟨S8x1x1, .i1⟩
  | 102 => ⟨S_, .i32⟩
  | 103 => ⟨S8x1x1, .i32⟩
  | 104 => ⟨S8x1x1, .i32⟩
  | 105 => ⟨S8x1x1, .i32⟩
  | 106 => ⟨S_, .i32⟩
  | 107 => ⟨S8x512x512, .i32⟩
  | 108 => ⟨S8x512x512, .i1⟩
  | 109 => ⟨S_, .i32⟩
  | 110 => ⟨S8x512x512, .i32⟩
  | 111 => ⟨S8x512x512, .i32⟩
  | 112 => ⟨S8x512x512, .i32⟩
  | 113 => ⟨S_, .i32⟩
  | 114 => ⟨S8x512x512, .i32⟩
  | 115 => ⟨S8x512x512, .i1⟩
  | 116 => ⟨S_, .i32⟩
  | 117 => ⟨S8x512x512, .i32⟩
  | 118 => ⟨S8x512x512, .i32⟩
  | 119 => ⟨S8x512x512, .i32⟩
  | 120 => ⟨S8x512x512, .i32⟩
  | 121 => ⟨S8x512x512x1, .i32⟩
  | 122 => ⟨S8x512x512x1, .i32⟩
  | 123 => ⟨S8x512x512x1, .i32⟩
  | 124 => ⟨S8x512x512x3, .i32⟩
  | 125 => ⟨S8x515x515, .f32⟩
  | 126 => ⟨S8x512x512, .f32⟩
  | 127 => ⟨S8x1x512x512, .f32⟩
  | _ => ⟨S8x32x512x512, .f32⟩

abbrev hbmTy0_2 (i : Nat) : BufTy := match i % 128 with
  | 0 => ⟨S8x32x512x512, .f32⟩
  | _ => ⟨S8x32x512x512, .f32⟩

abbrev hbmTy (i : Nat) : BufTy := match i / 128 with
  | 0 => hbmTy0_0 i
  | 1 => hbmTy0_1 i
  | 2 => hbmTy0_2 i
  | _ => ⟨S8x32x512x512, .f32⟩

abbrev bufTy : (tb : Table) → Fin (tcTables nBuf tb) → BufTy
  | .hbm, ⟨i, _⟩ => hbmTy i
  | _, _ => ⟨S8x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_cst_4 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_cst_6 : Ref sig .tc := ⟨.hbm, 29, rfl⟩
abbrev main_v15 : Ref sig .tc := ⟨.hbm, 30, rfl⟩
abbrev main_v16 : Ref sig .tc := ⟨.hbm, 31, rfl⟩
abbrev main_cst_7 : Ref sig .tc := ⟨.hbm, 32, rfl⟩
abbrev main_cst_8 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_9 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_10 : Ref sig .tc := ⟨.hbm, 52, rfl⟩
abbrev main_v28 : Ref sig .tc := ⟨.hbm, 53, rfl⟩
abbrev main_v29 : Ref sig .tc := ⟨.hbm, 54, rfl⟩
abbrev main_call2_cst : Ref sig .tc := ⟨.hbm, 55, rfl⟩
abbrev main_call2_v0 : Ref sig .tc := ⟨.hbm, 56, rfl⟩
abbrev main_v30 : Ref sig .tc := ⟨.hbm, 57, rfl⟩
abbrev main_c_11 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_12 : Ref sig .tc := ⟨.hbm, 64, rfl⟩
abbrev main_v36 : Ref sig .tc := ⟨.hbm, 65, rfl⟩
abbrev main_v37 : Ref sig .tc := ⟨.hbm, 66, rfl⟩
abbrev main_call3_cst : Ref sig .tc := ⟨.hbm, 67, rfl⟩
abbrev main_call3_v0 : Ref sig .tc := ⟨.hbm, 68, rfl⟩
abbrev main_v38 : Ref sig .tc := ⟨.hbm, 69, rfl⟩
abbrev main_c_13 : Ref sig .tc := ⟨.hbm, 70, rfl⟩
abbrev main_v39 : Ref sig .tc := ⟨.hbm, 71, rfl⟩
abbrev main_v40 : Ref sig .tc := ⟨.hbm, 72, rfl⟩
abbrev main_c_14 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_15 : Ref sig .tc := ⟨.hbm, 77, rfl⟩
abbrev main_v44 : Ref sig .tc := ⟨.hbm, 78, rfl⟩
abbrev main_v45 : Ref sig .tc := ⟨.hbm, 79, rfl⟩
abbrev main_c_16 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_17 : Ref sig .tc := ⟨.hbm, 84, rfl⟩
abbrev main_v49 : Ref sig .tc := ⟨.hbm, 85, rfl⟩
abbrev main_v50 : Ref sig .tc := ⟨.hbm, 86, rfl⟩
abbrev main_c_18 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_19 : Ref sig .tc := ⟨.hbm, 91, rfl⟩
abbrev main_v54 : Ref sig .tc := ⟨.hbm, 92, rfl⟩
abbrev main_v55 : Ref sig .tc := ⟨.hbm, 93, rfl⟩
abbrev main_c_20 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_c_21 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_22 : Ref sig .tc := ⟨.hbm, 110, rfl⟩
abbrev main_v70 : Ref sig .tc := ⟨.hbm, 111, rfl⟩
abbrev main_v71 : Ref sig .tc := ⟨.hbm, 112, rfl⟩
abbrev main_call4_cst : Ref sig .tc := ⟨.hbm, 113, rfl⟩
abbrev main_call4_v0 : Ref sig .tc := ⟨.hbm, 114, rfl⟩
abbrev main_v72 : Ref sig .tc := ⟨.hbm, 115, rfl⟩
abbrev main_c_23 : Ref sig .tc := ⟨.hbm, 116, rfl⟩
abbrev main_v73 : Ref sig .tc := ⟨.hbm, 117, rfl⟩
abbrev main_v74 : Ref sig .tc := ⟨.hbm, 118, rfl⟩
abbrev main_c_24 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_c_25 : Ref sig .tc := ⟨.hbm, 123, rfl⟩
abbrev main_v78 : Ref sig .tc := ⟨.hbm, 124, rfl⟩
abbrev main_v79 : Ref sig .tc := ⟨.hbm, 125, rfl⟩
abbrev main_c_26 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_c_27 : Ref sig .tc := ⟨.hbm, 130, rfl⟩
abbrev main_v83 : Ref sig .tc := ⟨.hbm, 131, rfl⟩
abbrev main_v84 : Ref sig .tc := ⟨.hbm, 132, rfl⟩
abbrev main_c_28 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_c_29 : Ref sig .tc := ⟨.hbm, 137, rfl⟩
abbrev main_v88 : Ref sig .tc := ⟨.hbm, 138, rfl⟩
abbrev main_v89 : Ref sig .tc := ⟨.hbm, 139, rfl⟩
abbrev main_c_30 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_c_31 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_32 : Ref sig .tc := ⟨.hbm, 156, rfl⟩
abbrev main_v104 : Ref sig .tc := ⟨.hbm, 157, rfl⟩
abbrev main_v105 : Ref sig .tc := ⟨.hbm, 158, rfl⟩
abbrev main_call5_cst : Ref sig .tc := ⟨.hbm, 159, rfl⟩
abbrev main_call5_v0 : Ref sig .tc := ⟨.hbm, 160, rfl⟩
abbrev main_v106 : Ref sig .tc := ⟨.hbm, 161, rfl⟩
abbrev main_c_33 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_cst_34 : Ref sig .tc := ⟨.hbm, 168, rfl⟩
abbrev main_v112 : Ref sig .tc := ⟨.hbm, 169, rfl⟩
abbrev main_v113 : Ref sig .tc := ⟨.hbm, 170, rfl⟩
abbrev main_call6_cst : Ref sig .tc := ⟨.hbm, 171, rfl⟩
abbrev main_call6_v0 : Ref sig .tc := ⟨.hbm, 172, rfl⟩
abbrev main_v114 : Ref sig .tc := ⟨.hbm, 173, rfl⟩
abbrev main_c_35 : Ref sig .tc := ⟨.hbm, 174, rfl⟩
abbrev main_v115 : Ref sig .tc := ⟨.hbm, 175, rfl⟩
abbrev main_v116 : Ref sig .tc := ⟨.hbm, 176, rfl⟩
abbrev main_c_36 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_c_37 : Ref sig .tc := ⟨.hbm, 181, rfl⟩
abbrev main_v120 : Ref sig .tc := ⟨.hbm, 182, rfl⟩
abbrev main_v121 : Ref sig .tc := ⟨.hbm, 183, rfl⟩
abbrev main_c_38 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_c_39 : Ref sig .tc := ⟨.hbm, 188, rfl⟩
abbrev main_v125 : Ref sig .tc := ⟨.hbm, 189, rfl⟩
abbrev main_v126 : Ref sig .tc := ⟨.hbm, 190, rfl⟩
abbrev main_c_40 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_c_41 : Ref sig .tc := ⟨.hbm, 195, rfl⟩
abbrev main_v130 : Ref sig .tc := ⟨.hbm, 196, rfl⟩
abbrev main_v131 : Ref sig .tc := ⟨.hbm, 197, rfl⟩
abbrev main_c_42 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_c_43 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_cst_44 : Ref sig .tc := ⟨.hbm, 214, rfl⟩
abbrev main_v146 : Ref sig .tc := ⟨.hbm, 215, rfl⟩
abbrev main_v147 : Ref sig .tc := ⟨.hbm, 216, rfl⟩
abbrev main_call7_cst : Ref sig .tc := ⟨.hbm, 217, rfl⟩
abbrev main_call7_v0 : Ref sig .tc := ⟨.hbm, 218, rfl⟩
abbrev main_v148 : Ref sig .tc := ⟨.hbm, 219, rfl⟩
abbrev main_c_45 : Ref sig .tc := ⟨.hbm, 220, rfl⟩
abbrev main_v149 : Ref sig .tc := ⟨.hbm, 221, rfl⟩
abbrev main_v150 : Ref sig .tc := ⟨.hbm, 222, rfl⟩
abbrev main_c_46 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_c_47 : Ref sig .tc := ⟨.hbm, 227, rfl⟩
abbrev main_v154 : Ref sig .tc := ⟨.hbm, 228, rfl⟩
abbrev main_v155 : Ref sig .tc := ⟨.hbm, 229, rfl⟩
abbrev main_c_48 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_c_49 : Ref sig .tc := ⟨.hbm, 234, rfl⟩
abbrev main_v159 : Ref sig .tc := ⟨.hbm, 235, rfl⟩
abbrev main_v160 : Ref sig .tc := ⟨.hbm, 236, rfl⟩
abbrev main_c_50 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_c_51 : Ref sig .tc := ⟨.hbm, 241, rfl⟩
abbrev main_v164 : Ref sig .tc := ⟨.hbm, 242, rfl⟩
abbrev main_v165 : Ref sig .tc := ⟨.hbm, 243, rfl⟩
abbrev main_c_52 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩

abbrev nD : Nat := 1
abbrev τ : Topo := Topo.v7x

variable {F : FTy → Type} [FloatOps F]

class Facts₀ : Prop where
  bcast_S_S8x512x512x2 : S_.BroadcastsInDim S8x512x512x2 (![] : Fin 0 → Fin S8x512x512x2.rank)
  slices_S8x512x512x2_S8x512x512x1_0_0_0_0 : S8x512x512x2.Slices ![0, 0, 0, 0] S8x512x512x1
  shapeCasts_S8x512x512x1_S8x512x512 : S8x512x512x1.ShapeCasts S8x512x512
  bcast_S_S8x512x512 : S_.BroadcastsInDim S8x512x512 (![] : Fin 0 → Fin S8x512x512.rank)
  slices_S8x512x512x2_S8x512x512x1_0_0_0_1 : S8x512x512x2.Slices ![0, 0, 0, 1] S8x512x512x1
  bcast_S8_S8x1x1_0 : S8.BroadcastsInDim S8x1x1 (![0] : Fin 1 → Fin S8x1x1.rank)
  bcast_S_S8x515x515 : S_.BroadcastsInDim S8x515x515 (![] : Fin 0 → Fin S8x515x515.rank)
  bcast_S_S8x1x1 : S_.BroadcastsInDim S8x1x1 (![] : Fin 0 → Fin S8x1x1.rank)
  bcast_S8x1x1_S8x512x512_0_1_2 : S8x1x1.BroadcastsInDim S8x512x512 (![0, 1, 2] : Fin 3 → Fin S8x512x512.rank)
  bcast_S8x512x512_S8x512x512x1_0_1_2 : S8x512x512.BroadcastsInDim S8x512x512x1 (![0, 1, 2] : Fin 3 → Fin S8x512x512x1.rank)
  concatenates_S8x512x512x1_S8x512x512x1_S8x512x512x1_S8x512x512x3_d3 : Shape.Concatenates [S8x512x512x1, S8x512x512x1, S8x512x512x1] S8x512x512x3 3
  slices_S8x515x515_S8x512x512_0_1_1 : S8x515x515.Slices ![0, 1, 1] S8x512x512
  bcast_S8x512x512_S8x1x512x512_0_2_3 : S8x512x512.BroadcastsInDim S8x1x512x512 (![0, 2, 3] : Fin 3 → Fin S8x1x512x512.rank)
  bcast_S8x1x512x512_S8x32x512x512_0_1_2_3 : S8x1x512x512.BroadcastsInDim S8x32x512x512 (![0, 1, 2, 3] : Fin 4 → Fin S8x32x512x512.rank)
  scatter_S8x515x515_S8x512x512x3_S8x512x512_n_012_012_3_wf : ScatterDims.WF S8x515x515 S8x512x512x3 S8x512x512 [] [0, 1, 2] [0, 1, 2] 3

variable [Facts₀]

def scatter_S8x515x515_S8x512x512x3_S8x512x512_n_012_012_3 : ScatterDims S8x515x515 S8x512x512x3 S8x512x512 where
  updateWindowDims := []
  insertedWindowDims := [0, 1, 2]
  scatterDimsToOperandDims := [0, 1, 2]
  indexVectorDim := 3
  wf := scatter_S8x515x515_S8x512x512x3_S8x512x512_n_012_012_3_wf

class Facts : Prop extends Facts₀ where

variable [Facts]
-- ==== Proof.R0.Base.lean ====
/- The first pallas_call's region: what its three whole-body runs and its frame share. The accumulator's update at a
   point, the branch conditions of the body in closed form over the grid, where the output window is idle, and the
   region invariant of the class spelt out. -/
import proofs.«180036_j3066606649874_2_alg».proof.Proof.Gen.KernelIdeal.Launch
import proofs.«180036_j3066606649874_2_alg».proof.Proof.Gen.KernelIdeal.Skeleton
import proofs.«180036_j3066606649874_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is the
    region-entry contents and whose body leaves the block in place: the window is fetched whole and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Regions

/-- The two column loads of the input block: column 0 (row coordinates) and column 1 (column coordinates). -/
abbrev colRect0 : Rect S1x2048x2 := Rect.unit (s := S1x2048x2) ![0, 0, 0] S1x2048x1.size inb_S1x2048x2_S1x2048x1_0_0_0
abbrev colRect1 : Rect S1x2048x2 := Rect.unit (s := S1x2048x2) ![0, 0, 1] S1x2048x1.size inb_S1x2048x2_S1x2048x1_0_0_1

/-- The whole accumulator and the whole output block, as the rectangles the body's loads and stores name. -/
abbrev accRect : Rect S512x512 := Rect.unit (s := S512x512) ![0, 0] S512x512.size inb_S512x512_S512x512_0_0
abbrev outRect : Rect S1x512x512 := Rect.unit (s := S1x512x512) ![0, 0, 0] S1x512x512.size inb_S1x512x512_S1x512x512_0_0_0

/-- The offsets of a whole-buffer access, however spelt, are zero. -/
theorem hz2 : (![0, 0] : Fin 2 → Nat) = fun _ => 0 := funext fun a => by fin_cases a <;> rfl
theorem hz3 : (![0, 0, 0] : Fin 3 → Nat) = fun _ => 0 := funext fun a => by fin_cases a <;> rfl

/-- One store through the whole accumulator covers it; -/
theorem coverAcc (p : Vec F S512x512 .f32) (y : S512x512.Idx) :
    ∃ pc ∈ ([⟨accRect, p⟩] : List (View.Piece (Elt F) S512x512 .f32)), y ∈ pc.1.set :=
  ⟨_, List.mem_singleton_self _, View.mem_set_unit_zero hz2 inb_S512x512_S512x512_0_0 y⟩
/-- so does a later one over an earlier one; -/
theorem coverAcc2 (p q : Vec F S512x512 .f32) (y : S512x512.Idx) :
    ∃ pc ∈ ([⟨accRect, p⟩, ⟨accRect, q⟩] : List (View.Piece (Elt F) S512x512 .f32)), y ∈ pc.1.set :=
  ⟨_, List.mem_cons_self, View.mem_set_unit_zero hz2 inb_S512x512_S512x512_0_0 y⟩
/-- and one store through the whole output block covers it. -/
theorem coverOut (p : Vec F S1x512x512 .f32) (y : S1x512x512.Idx) :
    ∃ pc ∈ ([⟨outRect, p⟩] : List (View.Piece (Elt F) S1x512x512 .f32)), y ∈ pc.1.set :=
  ⟨_, List.mem_singleton_self _, View.mem_set_unit_zero hz3 inb_S1x512x512_S1x512x512_0_0_0 y⟩

/-- One point's update of the accumulator: the point's partial product (of its input block `x0`) added to `acc`. -/
def accStep (x0 : Vec F S1x2048x2 .f32) (acc : Vec F S512x512 .f32) : Vec F S512x512 .f32 :=
  k0_pay1 (k0_pay4 (View.ld x0 colRect1)) (k0_pay5 (F := F)) (k0_pay6 (F := F)) (k0_pay7 (View.ld x0 colRect0)) acc

/-! ## The body's branch conditions -/

/-- The condition of the body's first conditional (the reset), from the grid coordinates. -/
abbrev cond0_0 (i : grid0.Coords) : Prop := (Scalar.cmpi .ne (Scalar.extui (Scalar.cmpi .eq (BitVec.ofNat 32 (i 1).val) 0#32)) 0#32) = 1#1
/-- It holds at the first point of each batch entry. -/
theorem hcond0_0 : ∀ t : Fin cfg0.N, cond0_0 (grid0.coords t) ↔ t.val % 128 = 0 :=
  (by decide +kernel : ∀ t : Fin grid0.N, cond0_0 (grid0.coords t) ↔ t.val % 128 = 0)

/-- The condition of the body's second conditional (the copy to the output block). -/
abbrev cond0_1 (i : grid0.Coords) : Prop := k0_cond2 i = 1#1
/-- It holds at the last point of each batch entry. -/
theorem hcond0_1 : ∀ t : Fin cfg0.N, cond0_1 (grid0.coords t) ↔ t.val % 128 = 127 :=
  (by decide +kernel : ∀ t : Fin grid0.N, cond0_1 (grid0.coords t) ↔ t.val % 128 = 127)

/-! ## Where the windows are idle -/

/-- The input window is never idle. -/
theorem liveAt0_0 : ∀ t : Fin cfg0.N, cfg0.idle 0 (grid0.coords t) = false := fun _ => rfl
/-- Where the second conditional fails the output window is idle: the body stores nothing into it. -/
theorem idleAt0_1 (t : Fin cfg0.N) (h : ¬cond0_1 (grid0.coords t)) : cfg0.idle 1 (grid0.coords t) = true := by
  show (!(k0_cond2 (grid0.coords t) == 1#1)) = true
  rw [Bool.not_eq_true', beq_eq_false_iff_ne]; exact h
/-- Where it holds the output window is live. -/
theorem liveAt0_1 (t : Fin cfg0.N) (h : cond0_1 (grid0.coords t)) : cfg0.idle 1 (grid0.coords t) = false := by
  show (!(k0_cond2 (grid0.coords t) == 1#1)) = false
  rw [Bool.not_eq_false', beq_iff_eq]; exact h
/-- Where it fails the pipeline does not write the output block back. -/
theorem noFlush0_1 (t : Fin cfg0.N) (h : ¬cond0_1 (grid0.coords t)) : (cfg0.win 1).flush t = false := by
  cases hf : (cfg0.win 1).flush t
  · rfl
  · exact absurd ((hcond0_1 t).mpr ((flush0_1 t).mp hf)) h

/-! ## The staging memrefs the pipeline calls the body with -/

abbrev ms0_0 (t : Fin cfg0.N) : Memref sig .tc .vmem S1x2048x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .f32 := win0_1.stage (cfg0.slots t 1)
abbrev hs0_1 (t : Fin cfg0.N) : (ms0_1 t).IsWhole := hstage0_1 ((cfg0.slots t 1).cast nbuf0_1)
/-- The scratch accumulator: a whole scoped buffer of the kernel's own, passed beside the windows. -/
abbrev scM0 : Memref sig .tc .vmem S512x512 .f32 := Memref.whole cc0_scratch0

/-- The core's scoped buffers that belong to the other region, each whole at some contents: the region neither reads
    nor writes them, and hands them on. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The class's region invariant spelt out: the scratch accumulator owned at some contents, the other region's scoped
    buffers, the generator register at some state. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

end Cert.KernelIdeal.Hand

end
-- ==== Proof.R0.RunFirst.lean ====
/- The first pallas_call's body at the first point of a batch entry: the accumulator is zeroed, then takes the point's
   partial product; the output block is not touched. -/
import proofs.«180036_j3066606649874_2_alg».proof.Proof.R0.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The first point of a batch entry: on whole memrefs, the input block at `x0`, the idle output block at `xi1` and the
    accumulator at anything, the body zeroes the accumulator and runs to the continuation holding the input and the output
    block as they were and the accumulator at `accStep x0` of the zero block. -/
theorem run_first (c : Dev nD) (i : grid0.Coords) (arg2 : Memref sig .tc .vmem S1x2048x2 .f32) (harg2 : arg2.IsWhole) (arg3 : Memref sig .tc .vmem S1x512x512 .f32) (harg3 : arg3.IsWhole) (arg4 : Memref sig .tc .vmem S512x512 .f32) (harg4 : arg4.IsWhole) (hc0 : cond0_0 i) (hc1 : ¬cond0_1 i)
    (x0 : Vec F S1x2048x2 .f32) (xi1 : Vec F S1x512x512 .f32) (E : Set ℕ) (K : PUnit → sProp 𝕄) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1 ∗ owns (c : Thread nD τ) arg4 fullShare (accStep x0 (k0_pay3 (F := F)))) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_run_names
  rw [View.read_writes_eq_canon _ _ _ (coverAcc2 _ _), View.canon_cons_unit_zero (S := S512x512) hz2, View.readCov_unit_zero (S := S512x512) _ hz2]
  unfold accStep
  simp only [View.readAt_eq_ld, harg2.read_unread]

end Cert.KernelIdeal.Hand

end
-- ==== Proof.R0.RunMiddle.lean ====
/- The first pallas_call's body at a point that is neither first nor last in its batch entry: the accumulator takes the
   point's partial product; the output block is not touched. -/
import proofs.«180036_j3066606649874_2_alg».proof.Proof.R0.RunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A point that is neither the first nor the last of its batch entry: on whole memrefs, the input block at `x0`, the idle
    output block at `xi1` and the accumulator at `xs0`, the body runs to the continuation holding the input and the output
    block as they were and the accumulator at `accStep x0 xs0`. -/
theorem run_middle (c : Dev nD) (i : grid0.Coords) (arg2 : Memref sig .tc .vmem S1x2048x2 .f32) (harg2 : arg2.IsWhole) (arg3 : Memref sig .tc .vmem S1x512x512 .f32) (harg3 : arg3.IsWhole) (arg4 : Memref sig .tc .vmem S512x512 .f32) (harg4 : arg4.IsWhole) (hc0 : ¬cond0_0 i) (hc1 : ¬cond0_1 i)
    (x0 : Vec F S1x2048x2 .f32) (xs0 : Vec F S512x512 .f32) (xi1 : Vec F S1x512x512 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (accStep x0 xs0)) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_run_names
  rw [View.read_writes_eq_canon _ _ _ (coverAcc _), View.canon_unit_zero hz2]
  unfold accStep
  simp only [View.readAt_eq_ld, harg2.read_unread, harg4.read_unread, View.ld_unit_zero (S := S512x512) hz2]

end Cert.KernelIdeal.Hand

end
-- ==== Proof.R0.RunLast.lean ====
/- The first pallas_call's body at the last point of a batch entry: the accumulator takes the point's partial product and
   is copied into the output block. -/
import proofs.«180036_j3066606649874_2_alg».proof.Proof.R0.RunMiddle

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The last point of a batch entry: on whole memrefs, the input block at `x0`, the output block at anything and the
    accumulator at `xs0`, the body runs to the continuation holding the input block as it was, the accumulator at
    `accStep x0 xs0` and the output block at the copy of that. -/
theorem run_last (c : Dev nD) (i : grid0.Coords) (arg2 : Memref sig .tc .vmem S1x2048x2 .f32) (harg2 : arg2.IsWhole) (arg3 : Memref sig .tc .vmem S1x512x512 .f32) (harg3 : arg3.IsWhole) (arg4 : Memref sig .tc .vmem S512x512 .f32) (harg4 : arg4.IsWhole) (hc0 : ¬cond0_0 i) (hc1 : cond0_1 i)
    (x0 : Vec F S1x2048x2 .f32) (xs0 : Vec F S512x512 .f32) (E : Set ℕ) (K : PUnit → sProp 𝕄) :
    iprop(owns (c : Thread nD τ) arg2 fullShare x0 ∗ (∃ d, owns (c : Thread nD τ) arg3 fullShare d) ∗ owns (c : Thread nD τ) arg4 fullShare xs0
        ∗ (iprop(owns (c : Thread nD τ) arg2 fullShare x0 ∗ owns (c : Thread nD τ) arg3 fullShare (k0_pay2 (accStep x0 xs0)) ∗ owns (c : Thread nD τ) arg4 fullShare (accStep x0 xs0)) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    sl_unfold_run_names
    rw [View.read_writes_eq_canon _ _ _ (coverOut _), View.canon_unit_zero hz3, View.readCov_unit_zero (S := S512x512) _ hz2]
    unfold accStep
    simp only [View.readAt_eq_ld, harg2.read_unread, harg4.read_unread, View.ld_unit_zero (S := S512x512) hz2]
  iexists _; isplitr
  swap; · iexact HS0
  ipureintro
  sl_unfold_run_names
  rw [View.read_writes_eq_canon _ _ _ (coverAcc _), View.canon_unit_zero hz2]
  unfold accStep
  simp only [View.readAt_eq_ld, harg2.read_unread, harg4.read_unread, View.ld_unit_zero (S := S512x512) hz2]

end Cert.KernelIdeal.Hand

end
-- ==== Proof.R0.Frame.lean ====
/- The first pallas_call's region, at a parameter `V` (the TensorCore's buffer contents when the region is entered):
   the scratch accumulator is zeroed at the first point of each batch entry, every point adds its partial
   product, the last point of the batch entry copies the accumulator into the output block. -/
import proofs.«180036_j3066606649874_2_alg».proof.Proof.R0.RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after the body at position `n`: zero (the reset's payload) plus the partial products of the batch
    entry's points up to `n`. -/
def accAt (c : Dev nD) : (n : ℕ) → n < cfg0.N → Vec F S512x512 .f32
  | 0, hn => accStep (iblk0 V c 0 ⟨0, hn⟩) (k0_pay3 (F := F))
  | n + 1, hn => accStep (iblk0 V c 0 ⟨n + 1, hn⟩) (if (n + 1) % 128 = 0 then k0_pay3 (F := F) else accAt c n (Nat.lt_of_succ_lt hn))

/-- The region invariant before position `n`: before the first point the class's (every scratch at anything); afterwards the
    scratch at what the point before left in it, the other region's scoped buffers at anything, and the generator
    register at some state. -/
def PhiS (c : Dev nD) : (n : ℕ) → n ≤ cfg0.N → sProp 𝕄
  | 0, _ => Pipeline.ΦA spec0 c
  | n + 1, hn => iprop(iprop(owns (c : Thread nD τ) (Memref.whole cc0_scratch0 : Memref sig .tc .vmem S512x512 .f32) fullShare (accAt V c n hn) ∗ rest0 c) ∗ (∃ r, prngReg c r))

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay2 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay2 (accAt V c t.val t.isLt) := by dsimp only [dat0]

/-! ## The accumulator, case by case -/

/-- At the first point of a batch entry the accumulator restarts from the zero block. -/
theorem accAt_first (c : Dev nD) (t : Fin cfg0.N) (h0 : t.val % 128 = 0) :
    accAt V c t.val t.isLt = accStep (iblk0 V c 0 t) (k0_pay3 (F := F)) := by
  obtain ⟨n, hn⟩ := t
  cases n with
  | zero => rfl
  | succ n => exact congrArg (accStep (iblk0 V c 0 ⟨n + 1, hn⟩)) (if_pos h0)

/-- At any other point it continues from what the point before left. -/
theorem accAt_next (c : Dev nD) (t : Fin cfg0.N) (h0 : ¬t.val % 128 = 0) :
    accAt V c t.val t.isLt = accStep (iblk0 V c 0 t) (accAt V c (t.val - 1) (Nat.lt_of_le_of_lt (Nat.sub_le _ _) t.isLt)) := by
  obtain ⟨n, hn⟩ := t
  cases n with
  | zero => exact absurd (Nat.zero_mod _) h0
  | succ n => exact congrArg (accStep (iblk0 V c 0 ⟨n + 1, hn⟩)) (if_neg h0)

/-! ## The invariant, position by position -/

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) (Memref.whole cc0_scratch0 : Memref sig .tc .vmem S512x512 .f32) fullShare (accAt V c n hn) ∗ rest0 c) ∗ (∃ r, prngReg c r)) := rfl

theorem PhiS_pos (c : Dev nD) (n : ℕ) (h : n ≤ cfg0.N) (hz : n ≠ 0) :
    PhiS V c n h = iprop(iprop(owns (c : Thread nD τ) (Memref.whole cc0_scratch0 : Memref sig .tc .vmem S512x512 .f32) fullShare (accAt V c (n - 1) (by omega)) ∗ rest0 c) ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the closed forms of the conditions say which of the three
    cases the point is in, and that case's run applies; the invariant hands the body the accumulator at what the point
    before left (at anything at the very first point) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 1024 := lt_of_lt_of_eq t.isLt (show cfg0.N = 1024 from N_0)
  rw [show (dat0 V c).leavesExact 0 t = owns (c : Thread nD τ) (ms0_0 t) fullShare ((dat0 V c).after 0 t) from by
    unfold Dat.leavesExact; rw [liveAt0_0 t], after0_0]
  by_cases h0 : t.val % 128 = 0
  · by_cases h1 : t.val % 128 = 127
    · exfalso; omega
    · have hc0 : cond0_0 (grid0.coords t) := (hcond0_0 t).mpr h0
      have hc1 : ¬cond0_1 (grid0.coords t) := fun h => h1 ((hcond0_1 t).mp h)
      rw [Dat.leavesExact_idle (dat0 V c) 1 t (idleAt0_1 t hc1) (noFlush0_1 t hc1)]
      rw [accAt_first V c t h0]
      by_cases hz : t.val = 0
      · rw [PhiS_castSucc V c t, PhiS_zero V c _ _ hz, PhiA0_eq]
        iintro ⟨⟨⟨HS0, Hr⟩, Hg⟩, Ho, ⟨%d0, H0⟩, ⟨%d1, H1⟩⟩
        iapply (run_first c (grid0.coords t) _ _ _ _ _ _ hc0 hc1 (iblk0 V c 0 t) _ Set.univ _)
        isplitl [H0]; · iexact H0
        isplitl [H1]; · iexact H1
        isplitl [HS0]; · iexact HS0
        iintro ⟨H0, H1, HS0⟩
        isplitl [HS0 Hr Hg]
        · isplitl [HS0 Hr]
          · isplitl [HS0]; · iexact HS0
            iexact Hr
          iexact Hg
        isplitl [Ho]; · iexact Ho
        isplitl [H0]; · iexact H0
        iexists _; iexact H1
      · rw [PhiS_castSucc V c t, PhiS_pos V c _ _ hz]
        iintro ⟨⟨⟨HS0, Hr⟩, Hg⟩, Ho, ⟨%d0, H0⟩, ⟨%d1, H1⟩⟩
        iapply (run_first c (grid0.coords t) _ _ _ _ _ _ hc0 hc1 (iblk0 V c 0 t) _ Set.univ _)
        isplitl [H0]; · iexact H0
        isplitl [H1]; · iexact H1
        isplitl [HS0]; · iexists _; iexact HS0
        iintro ⟨H0, H1, HS0⟩
        isplitl [HS0 Hr Hg]
        · isplitl [HS0 Hr]
          · isplitl [HS0]; · iexact HS0
            iexact Hr
          iexact Hg
        isplitl [Ho]; · iexact Ho
        isplitl [H0]; · iexact H0
        iexists _; iexact H1
  · have hc0 : ¬cond0_0 (grid0.coords t) := fun h => h0 ((hcond0_0 t).mp h)
    have hz : t.val ≠ 0 := fun hz => h0 (by rw [hz])
    by_cases h1 : t.val % 128 = 127
    · have hc1 : cond0_1 (grid0.coords t) := (hcond0_1 t).mpr h1
      rw [show (dat0 V c).leavesExact 1 t = owns (c : Thread nD τ) (ms0_1 t) fullShare ((dat0 V c).after 1 t) from by
        unfold Dat.leavesExact; rw [liveAt0_1 t hc1], after0_1]
      rw [accAt_next V c t h0]
      rw [PhiS_castSucc V c t, PhiS_pos V c _ _ hz]
      iintro ⟨⟨⟨HS0, Hr⟩, Hg⟩, Ho, ⟨%d0, H0⟩, ⟨%d1, H1⟩⟩
      iapply (run_last c (grid0.coords t) _ _ _ _ _ _ hc0 hc1 (iblk0 V c 0 t) _ Set.univ _)
      isplitl [H0]; · iexact H0
      isplitl [H1]; · iexists _; iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexact H1
    · have hc1 : ¬cond0_1 (grid0.coords t) := fun h => h1 ((hcond0_1 t).mp h)
      rw [Dat.leavesExact_idle (dat0 V c) 1 t (idleAt0_1 t hc1) (noFlush0_1 t hc1)]
      rw [accAt_next V c t h0]
      rw [PhiS_castSucc V c t, PhiS_pos V c _ _ hz]
      iintro ⟨⟨⟨HS0, Hr⟩, Hg⟩, Ho, ⟨%d0, H0⟩, ⟨%d1, H1⟩⟩
      iapply (run_middle c (grid0.coords t) _ _ _ _ _ _ hc0 hc1 (iblk0 V c 0 t) _ _ Set.univ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- After the last point the invariant gives the class's back. -/
theorem hout0 (c : Dev nD) : (dat0 V c).Φ (Fin.last cfg0.N) ⊢ Pipeline.ΦA spec0 c :=
  Phi_out V c _ (by rw [Fin.val_last]; have : cfg0.N = 1024 := N_0; omega)

end Cert.KernelIdeal.Hand

end
-- ==== Proof.R1.Frame.lean ====
/- The second pallas_call's region, at a parameter `V` (the TensorCore's buffer contents when the region is entered):
   every point loads its whole input block and stores the block repeated along the new axis over its whole output block. -/
import proofs.«180036_j3066606649874_2_alg».proof.Proof.Gen.KernelIdeal.Launch
import proofs.«180036_j3066606649874_2_alg».proof.Proof.Gen.KernelIdeal.Skeleton
import proofs.«180036_j3066606649874_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: both whole buffers -/

abbrev r1_in : Rect S1x512x512 := Rect.unit (s := S1x512x512) ![0, 0, 0] S1x512x512.size inb_S1x512x512_S1x512x512_0_0_0
abbrev r1_out : Rect S1x8x512x512 := Rect.unit (s := S1x8x512x512) ![0, 0, 0, 0] S1x8x512x512.size inb_S1x8x512x512_S1x8x512x512_0_0_0_0

/-! ## What the body leaves in the output window's buffer -/

/-- The output staging buffer after the body, from the input block: its one store, over the whole buffer. -/
def out1_1 (x0 : Vec F S1x512x512 .f32) : Vec F S1x8x512x512 .f32 :=
  View.canon [⟨r1_out, k1_pay1 (View.ld x0 r1_in)⟩]

/-- The one store covers the buffer. -/
theorem cover1_1 (p0 : Vec F S1x8x512x512 .f32) (y : S1x8x512x512.Idx) :
    ∃ pc ∈ ([⟨r1_out, p0⟩] : List (View.Piece (Elt F) S1x8x512x512 .f32)), y ∈ pc.1.set :=
  View.cover_of_tiled [⟨r1_out, p0⟩] S1x8x512x512.size (by rfl) y

/-! ## The body's triple -/

set_option maxHeartbeats 1000000 in
/-- The kernel body on whole staging memrefs, the input's at contents `x0` and the output's at anything, runs to the
    continuation holding the input's as it was and the output's at `out1_1 x0`. -/
theorem sound_kernel1 (c : Dev nD) (E : Set ℕ) (i : grid1.Coords) (arg2 : Memref sig .tc .vmem S1x512x512 .f32) (harg2 : arg2.IsWhole)
    (arg3 : Memref sig .tc .vmem S1x8x512x512 .f32) (harg3 : arg3.IsWhole)
    (x0 : Vec F S1x512x512 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__bcast_kernel i arg2 harg2 arg3 harg3) K := by
  simp only [cc1__bcast_kernel_eq_skeleton]; unfold cc1__bcast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of the second pipeline on core `c`: the arrays as the region finds them; after the body at point `t`
    the input's buffer at its block and the output's at `out1_1` of it; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/- The run of the whole program: one reshape on the host, then the two pallas_call regions. The buffer contents at each
   boundary, the two regions as segments over them, and the final contents of the result array and of the arguments. -/
import proofs.«180036_j3066606649874_2_alg».proof.Proof.R0.Frame
import proofs.«180036_j3066606649874_2_alg».proof.Proof.R1.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- The launch state: memory `m`, every semaphore at zero, the generator registers `ρ`. -/
abbrev launchSt : MemSt nD τ sig (Elt F) := ⟨m, fun _ => 0, ρ⟩

/-- Core `c`'s buffers at launch. -/
abbrev W0 : Dev nD → Valuation τ sig (Elt F) := fun c b => (launchSt m ρ).mem ((c : Dev nD), b)
/-- After the reshape (the first region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first region's exit, the second region's entry). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (the second region's exit). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What the boundaries hold -/

/-- The first region is entered with the reshaped second argument in its input array. -/
theorem entry0_main_v0 (c : Dev nD) :
    (V1 m ρ c main_v0 : S8x262144x2.Idx → Elt F .f32)
      = shapeCast S8x262144x2 (m ((c : Thread nD τ).loc main_arg1)) shapeCasts_S8x512x512x2_S8x262144x2 := by
  dsimp only [V1, W1, hostOps0]
  after_results
  rfl

/-- The second region is entered with what the first region's write-backs leave in its output array. -/
theorem entry1_main_v1 (c : Dev nD) : V2 m ρ c main_v1 = (dat0 (V1 m ρ) c).arrAt 1 cfg0.N :=
  W2_arr m ρ c 1

/-- The result array at the end: what the second region's write-backs leave in it. -/
theorem W3_main_v2 (c : Dev nD) : W3 m ρ c (Proc.devRef .tc main_v2) = (dat1 (V2 m ρ) c).arrAt 1 cfg1.N :=
  W3_arr m ρ c 1

/-- No host operation and no region writes the first argument. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl

/-- The reshape reads the second argument and writes elsewhere; no region writes it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          exact StableHlo.devRef_ne_of_ne (by decide)))
    _ = m ((c : Thread nD τ).loc main_arg1) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debt, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at `W1`, left at `W2`. Its arrays split
    out of the unscoped buffers and put back at the exit contents; the generator register and the scoped rest into the
    region's invariant before the first point and out of it after the last; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine (show _ ⊢ Pipeline.ΦA spec0 c from ?_).trans (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3` (what the launch
    reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the reshape from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of the segments. -/
theorem main_run (c : Dev nD) : main (F := F) c = Pipeline.Seg.run (segs m ρ) := (main_chain c).trans (by chain_rfl)

set_option backward.isDefEq.respectTransparency.types false in
/-- From any memory with zero counters, every weakly fair execution of the program on the TensorCores terminates, nothing
    faulting, and every final state has the result array at what the second region's write-backs leave and the argument
    arrays as launched. -/
theorem run_value : θ_run defs (onTc (τ := τ) (main (F := F))) ⟨m, fun _ => 0, ρ⟩ (fun r => ∀ c : Dev nD,
      r.2.mem ((c.tc : Thread nD τ).loc main_v2) = (dat1 (V2 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_main_v2 m ρ c),
       (h c _ (mem_uc main_arg0 (by decide))).trans (W3_main_arg0 m ρ c),
       (h c _ (mem_uc main_arg1 (by decide))).trans (W3_main_arg1 m ρ c)⟩)

/-- The frame: the program runs and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).2.1, (h c).2.2⟩) (run_value m ρ)

end Cert.KernelIdeal.Hand

end
-- ==== Proof.W.R0.Base.lean ====
/- The first pallas_call's region: what its three whole-body runs and its frame share. The accumulator's update at a
   point, the branch conditions of the body in closed form over the grid, where the output window is idle, and the
   region invariant of the class spelt out. -/
import proofs.«180036_j3066606649874_2_alg».proof.Proof.Gen.Kernel.Launch
import proofs.«180036_j3066606649874_2_alg».proof.Proof.Gen.Kernel.Skeleton
import proofs.«180036_j3066606649874_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is the
    region-entry contents and whose body leaves the block in place: the window is fetched whole and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end Regions

/-- The two column loads of the input block: column 0 (row coordinates) and column 1 (column coordinates). -/
abbrev colRect0 : Rect S1x2048x2 := Rect.unit (s := S1x2048x2) ![0, 0, 0] S1x2048x1.size inb_S1x2048x2_S1x2048x1_0_0_0
abbrev colRect1 : Rect S1x2048x2 := Rect.unit (s := S1x2048x2) ![0, 0, 1] S1x2048x1.size inb_S1x2048x2_S1x2048x1_0_0_1

/-- The whole accumulator and the whole output block, as the rectangles the body's loads and stores name. -/
abbrev accRect : Rect S512x512 := Rect.unit (s := S512x512) ![0, 0] S512x512.size inb_S512x512_S512x512_0_0
abbrev outRect : Rect S1x512x512 := Rect.unit (s := S1x512x512) ![0, 0, 0] S1x512x512.size inb_S1x512x512_S1x512x512_0_0_0

/-- The offsets of a whole-buffer access, however spelt, are zero. -/
theorem hz2 : (![0, 0] : Fin 2 → Nat) = fun _ => 0 := funext fun a => by fin_cases a <;> rfl
theorem hz3 : (![0, 0, 0] : Fin 3 → Nat) = fun _ => 0 := funext fun a => by fin_cases a <;> rfl

/-- One store through the whole accumulator covers it; -/
theorem coverAcc (p : Vec F S512x512 .f32) (y : S512x512.Idx) :
    ∃ pc ∈ ([⟨accRect, p⟩] : List (View.Piece (Elt F) S512x512 .f32)), y ∈ pc.1.set :=
  ⟨_, List.mem_singleton_self _, View.mem_set_unit_zero hz2 inb_S512x512_S512x512_0_0 y⟩
/-- so does a later one over an earlier one; -/
theorem coverAcc2 (p q : Vec F S512x512 .f32) (y : S512x512.Idx) :
    ∃ pc ∈ ([⟨accRect, p⟩, ⟨accRect, q⟩] : List (View.Piece (Elt F) S512x512 .f32)), y ∈ pc.1.set :=
  ⟨_, List.mem_cons_self, View.mem_set_unit_zero hz2 inb_S512x512_S512x512_0_0 y⟩
/-- and one store through the whole output block covers it. -/
theorem coverOut (p : Vec F S1x512x512 .f32) (y : S1x512x512.Idx) :
    ∃ pc ∈ ([⟨outRect, p⟩] : List (View.Piece (Elt F) S1x512x512 .f32)), y ∈ pc.1.set :=
  ⟨_, List.mem_singleton_self _, View.mem_set_unit_zero hz3 inb_S1x512x512_S1x512x512_0_0_0 y⟩

/-- One point's update of the accumulator: the point's partial product (of its input block `x0`) added to `acc`. -/
def accStep (x0 : Vec F S1x2048x2 .f32) (acc : Vec F S512x512 .f32) : Vec F S512x512 .f32 :=
  k0_pay1 (k0_pay4 (View.ld x0 colRect1)) (k0_pay5 (F := F)) (k0_pay6 (F := F)) (k0_pay7 (View.ld x0 colRect0)) acc

/-! ## The body's branch conditions -/

/-- The condition of the body's first conditional (the reset), from the grid coordinates. -/
abbrev cond0_0 (i : grid0.Coords) : Prop := (Scalar.cmpi .ne (Scalar.extui (Scalar.cmpi .eq (BitVec.ofNat 32 (i 1).val) 0#32)) 0#32) = 1#1
/-- It holds at the first point of each batch entry. -/
theorem hcond0_0 : ∀ t : Fin cfg0.N, cond0_0 (grid0.coords t) ↔ t.val % 128 = 0 :=
  (by decide +kernel : ∀ t : Fin grid0.N, cond0_0 (grid0.coords t) ↔ t.val % 128 = 0)

/-- The condition of the body's second conditional (the copy to the output block). -/
abbrev cond0_1 (i : grid0.Coords) : Prop := k0_cond2 i = 1#1
/-- It holds at the last point of each batch entry. -/
theorem hcond0_1 : ∀ t : Fin cfg0.N, cond0_1 (grid0.coords t) ↔ t.val % 128 = 127 :=
  (by decide +kernel : ∀ t : Fin grid0.N, cond0_1 (grid0.coords t) ↔ t.val % 128 = 127)

/-! ## Where the windows are idle -/

/-- The input window is never idle. -/
theorem liveAt0_0 : ∀ t : Fin cfg0.N, cfg0.idle 0 (grid0.coords t) = false := fun _ => rfl
/-- Where the second conditional fails the output window is idle: the body stores nothing into it. -/
theorem idleAt0_1 (t : Fin cfg0.N) (h : ¬cond0_1 (grid0.coords t)) : cfg0.idle 1 (grid0.coords t) = true := by
  show (!(k0_cond2 (grid0.coords t) == 1#1)) = true
  rw [Bool.not_eq_true', beq_eq_false_iff_ne]; exact h
/-- Where it holds the output window is live. -/
theorem liveAt0_1 (t : Fin cfg0.N) (h : cond0_1 (grid0.coords t)) : cfg0.idle 1 (grid0.coords t) = false := by
  show (!(k0_cond2 (grid0.coords t) == 1#1)) = false
  rw [Bool.not_eq_false', beq_iff_eq]; exact h
/-- Where it fails the pipeline does not write the output block back. -/
theorem noFlush0_1 (t : Fin cfg0.N) (h : ¬cond0_1 (grid0.coords t)) : (cfg0.win 1).flush t = false := by
  cases hf : (cfg0.win 1).flush t
  · rfl
  · exact absurd ((hcond0_1 t).mpr ((flush0_1 t).mp hf)) h

/-! ## The staging memrefs the pipeline calls the body with -/

abbrev ms0_0 (t : Fin cfg0.N) : Memref sig .tc .vmem S1x2048x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .f32 := win0_1.stage (cfg0.slots t 1)
abbrev hs0_1 (t : Fin cfg0.N) : (ms0_1 t).IsWhole := hstage0_1 ((cfg0.slots t 1).cast nbuf0_1)
/-- The scratch accumulator: a whole scoped buffer of the kernel's own, passed beside the windows. -/
abbrev scM0 : Memref sig .tc .vmem S512x512 .f32 := Memref.whole cc0_scratch0

/-- The core's scoped buffers that belong to the other region, each whole at some contents: the region neither reads
    nor writes them, and hands them on. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The class's region invariant spelt out: the scratch accumulator owned at some contents, the other region's scoped
    buffers, the generator register at some state. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

end Cert.Kernel.Hand

end
-- ==== Proof.W.R0.RunFirst.lean ====
/- The first pallas_call's body at the first point of a batch entry: the accumulator is zeroed, then takes the point's
   partial product; the output block is not touched. -/
import proofs.«180036_j3066606649874_2_alg».proof.Proof.W.R0.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The first point of a batch entry: on whole memrefs, the input block at `x0`, the idle output block at `xi1` and the
    accumulator at anything, the body zeroes the accumulator and runs to the continuation holding the input and the output
    block as they were and the accumulator at `accStep x0` of the zero block. -/
theorem run_first (c : Dev nD) (i : grid0.Coords) (arg2 : Memref sig .tc .vmem S1x2048x2 .f32) (harg2 : arg2.IsWhole) (arg3 : Memref sig .tc .vmem S1x512x512 .f32) (harg3 : arg3.IsWhole) (arg4 : Memref sig .tc .vmem S512x512 .f32) (harg4 : arg4.IsWhole) (hc0 : cond0_0 i) (hc1 : ¬cond0_1 i)
    (x0 : Vec F S1x2048x2 .f32) (xi1 : Vec F S1x512x512 .f32) (E : Set ℕ) (K : PUnit → sProp 𝕄) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1 ∗ owns (c : Thread nD τ) arg4 fullShare (accStep x0 (k0_pay3 (F := F)))) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_run_names
  rw [View.read_writes_eq_canon _ _ _ (coverAcc2 _ _), View.canon_cons_unit_zero (S := S512x512) hz2, View.readCov_unit_zero (S := S512x512) _ hz2]
  unfold accStep
  simp only [View.readAt_eq_ld, harg2.read_unread]

end Cert.Kernel.Hand

end
-- ==== Proof.W.R0.RunMiddle.lean ====
/- The first pallas_call's body at a point that is neither first nor last in its batch entry: the accumulator takes the
   point's partial product; the output block is not touched. -/
import proofs.«180036_j3066606649874_2_alg».proof.Proof.W.R0.RunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A point that is neither the first nor the last of its batch entry: on whole memrefs, the input block at `x0`, the idle
    output block at `xi1` and the accumulator at `xs0`, the body runs to the continuation holding the input and the output
    block as they were and the accumulator at `accStep x0 xs0`. -/
theorem run_middle (c : Dev nD) (i : grid0.Coords) (arg2 : Memref sig .tc .vmem S1x2048x2 .f32) (harg2 : arg2.IsWhole) (arg3 : Memref sig .tc .vmem S1x512x512 .f32) (harg3 : arg3.IsWhole) (arg4 : Memref sig .tc .vmem S512x512 .f32) (harg4 : arg4.IsWhole) (hc0 : ¬cond0_0 i) (hc1 : ¬cond0_1 i)
    (x0 : Vec F S1x2048x2 .f32) (xs0 : Vec F S512x512 .f32) (xi1 : Vec F S1x512x512 .f32) (E : Set ℕ) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1 ∗ owns (c : Thread nD τ) arg4 fullShare (accStep x0 xs0)) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_run_names
  rw [View.read_writes_eq_canon _ _ _ (coverAcc _), View.canon_unit_zero hz2]
  unfold accStep
  simp only [View.readAt_eq_ld, harg2.read_unread, harg4.read_unread, View.ld_unit_zero (S := S512x512) hz2]

end Cert.Kernel.Hand

end
-- ==== Proof.W.R0.RunLast.lean ====
/- The first pallas_call's body at the last point of a batch entry: the accumulator takes the point's partial product and
   is copied into the output block. -/
import proofs.«180036_j3066606649874_2_alg».proof.Proof.W.R0.RunMiddle

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The last point of a batch entry: on whole memrefs, the input block at `x0`, the output block at anything and the
    accumulator at `xs0`, the body runs to the continuation holding the input block as it was, the accumulator at
    `accStep x0 xs0` and the output block at the copy of that. -/
theorem run_last (c : Dev nD) (i : grid0.Coords) (arg2 : Memref sig .tc .vmem S1x2048x2 .f32) (harg2 : arg2.IsWhole) (arg3 : Memref sig .tc .vmem S1x512x512 .f32) (harg3 : arg3.IsWhole) (arg4 : Memref sig .tc .vmem S512x512 .f32) (harg4 : arg4.IsWhole) (hc0 : ¬cond0_0 i) (hc1 : cond0_1 i)
    (x0 : Vec F S1x2048x2 .f32) (xs0 : Vec F S512x512 .f32) (E : Set ℕ) (K : PUnit → sProp 𝕄) :
    iprop(owns (c : Thread nD τ) arg2 fullShare x0 ∗ (∃ d, owns (c : Thread nD τ) arg3 fullShare d) ∗ owns (c : Thread nD τ) arg4 fullShare xs0
        ∗ (iprop(owns (c : Thread nD τ) arg2 fullShare x0 ∗ owns (c : Thread nD τ) arg3 fullShare (k0_pay2 (accStep x0 xs0)) ∗ owns (c : Thread nD τ) arg4 fullShare (accStep x0 xs0)) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    sl_unfold_run_names
    rw [View.read_writes_eq_canon _ _ _ (coverOut _), View.canon_unit_zero hz3, View.readCov_unit_zero (S := S512x512) _ hz2]
    unfold accStep
    simp only [View.readAt_eq_ld, harg2.read_unread, harg4.read_unread, View.ld_unit_zero (S := S512x512) hz2]
  iexists _; isplitr
  swap; · iexact HS0
  ipureintro
  sl_unfold_run_names
  rw [View.read_writes_eq_canon _ _ _ (coverAcc _), View.canon_unit_zero hz2]
  unfold accStep
  simp only [View.readAt_eq_ld, harg2.read_unread, harg4.read_unread, View.ld_unit_zero (S := S512x512) hz2]

end Cert.Kernel.Hand

end
-- ==== Proof.W.R0.Frame.lean ====
/- The first pallas_call's region, at a parameter `V` (the TensorCore's buffer contents when the region is entered):
   the scratch accumulator is zeroed at the first point of each batch entry, every point adds its partial
   product, the last point of the batch entry copies the accumulator into the output block. -/
import proofs.«180036_j3066606649874_2_alg».proof.Proof.W.R0.RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after the body at position `n`: zero (the reset's payload) plus the partial products of the batch
    entry's points up to `n`. -/
def accAt (c : Dev nD) : (n : ℕ) → n < cfg0.N → Vec F S512x512 .f32
  | 0, hn => accStep (iblk0 V c 0 ⟨0, hn⟩) (k0_pay3 (F := F))
  | n + 1, hn => accStep (iblk0 V c 0 ⟨n + 1, hn⟩) (if (n + 1) % 128 = 0 then k0_pay3 (F := F) else accAt c n (Nat.lt_of_succ_lt hn))

/-- The region invariant before position `n`: before the first point the class's (every scratch at anything); afterwards the
    scratch at what the point before left in it, the other region's scoped buffers at anything, and the generator
    register at some state. -/
def PhiS (c : Dev nD) : (n : ℕ) → n ≤ cfg0.N → sProp 𝕄
  | 0, _ => Pipeline.ΦA spec0 c
  | n + 1, hn => iprop(iprop(owns (c : Thread nD τ) (Memref.whole cc0_scratch0 : Memref sig .tc .vmem S512x512 .f32) fullShare (accAt V c n hn) ∗ rest0 c) ∗ (∃ r, prngReg c r))

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay2 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay2 (accAt V c t.val t.isLt) := by dsimp only [dat0]

/-! ## The accumulator, case by case -/

/-- At the first point of a batch entry the accumulator restarts from the zero block. -/
theorem accAt_first (c : Dev nD) (t : Fin cfg0.N) (h0 : t.val % 128 = 0) :
    accAt V c t.val t.isLt = accStep (iblk0 V c 0 t) (k0_pay3 (F := F)) := by
  obtain ⟨n, hn⟩ := t
  cases n with
  | zero => rfl
  | succ n => exact congrArg (accStep (iblk0 V c 0 ⟨n + 1, hn⟩)) (if_pos h0)

/-- At any other point it continues from what the point before left. -/
theorem accAt_next (c : Dev nD) (t : Fin cfg0.N) (h0 : ¬t.val % 128 = 0) :
    accAt V c t.val t.isLt = accStep (iblk0 V c 0 t) (accAt V c (t.val - 1) (Nat.lt_of_le_of_lt (Nat.sub_le _ _) t.isLt)) := by
  obtain ⟨n, hn⟩ := t
  cases n with
  | zero => exact absurd (Nat.zero_mod _) h0
  | succ n => exact congrArg (accStep (iblk0 V c 0 ⟨n + 1, hn⟩)) (if_neg h0)

/-! ## The invariant, position by position -/

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) (Memref.whole cc0_scratch0 : Memref sig .tc .vmem S512x512 .f32) fullShare (accAt V c n hn) ∗ rest0 c) ∗ (∃ r, prngReg c r)) := rfl

theorem PhiS_pos (c : Dev nD) (n : ℕ) (h : n ≤ cfg0.N) (hz : n ≠ 0) :
    PhiS V c n h = iprop(iprop(owns (c : Thread nD τ) (Memref.whole cc0_scratch0 : Memref sig .tc .vmem S512x512 .f32) fullShare (accAt V c (n - 1) (by omega)) ∗ rest0 c) ∗ (∃ r, prngReg c r)) := by
  cases n with
  | zero => exact absurd rfl hz
  | succ n => rfl

theorem PhiS_castSucc (c : Dev nD) (t : Fin cfg0.N) :
    (dat0 V c).Φ t.castSucc = PhiS V c t.val (Nat.le_of_lt t.isLt) := by
  dsimp only [dat0]; simp only [Fin.coe_castSucc]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the closed forms of the conditions say which of the three
    cases the point is in, and that case's run applies; the invariant hands the body the accumulator at what the point
    before left (at anything at the very first point) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 1024 := lt_of_lt_of_eq t.isLt (show cfg0.N = 1024 from N_0)
  rw [show (dat0 V c).leavesExact 0 t = owns (c : Thread nD τ) (ms0_0 t) fullShare ((dat0 V c).after 0 t) from by
    unfold Dat.leavesExact; rw [liveAt0_0 t], after0_0]
  by_cases h0 : t.val % 128 = 0
  · by_cases h1 : t.val % 128 = 127
    · exfalso; omega
    · have hc0 : cond0_0 (grid0.coords t) := (hcond0_0 t).mpr h0
      have hc1 : ¬cond0_1 (grid0.coords t) := fun h => h1 ((hcond0_1 t).mp h)
      rw [Dat.leavesExact_idle (dat0 V c) 1 t (idleAt0_1 t hc1) (noFlush0_1 t hc1)]
      rw [accAt_first V c t h0]
      by_cases hz : t.val = 0
      · rw [PhiS_castSucc V c t, PhiS_zero V c _ _ hz, PhiA0_eq]
        iintro ⟨⟨⟨HS0, Hr⟩, Hg⟩, Ho, ⟨%d0, H0⟩, ⟨%d1, H1⟩⟩
        iapply (run_first c (grid0.coords t) _ _ _ _ _ _ hc0 hc1 (iblk0 V c 0 t) _ Set.univ _)
        isplitl [H0]; · iexact H0
        isplitl [H1]; · iexact H1
        isplitl [HS0]; · iexact HS0
        iintro ⟨H0, H1, HS0⟩
        isplitl [HS0 Hr Hg]
        · isplitl [HS0 Hr]
          · isplitl [HS0]; · iexact HS0
            iexact Hr
          iexact Hg
        isplitl [Ho]; · iexact Ho
        isplitl [H0]; · iexact H0
        iexists _; iexact H1
      · rw [PhiS_castSucc V c t, PhiS_pos V c _ _ hz]
        iintro ⟨⟨⟨HS0, Hr⟩, Hg⟩, Ho, ⟨%d0, H0⟩, ⟨%d1, H1⟩⟩
        iapply (run_first c (grid0.coords t) _ _ _ _ _ _ hc0 hc1 (iblk0 V c 0 t) _ Set.univ _)
        isplitl [H0]; · iexact H0
        isplitl [H1]; · iexact H1
        isplitl [HS0]; · iexists _; iexact HS0
        iintro ⟨H0, H1, HS0⟩
        isplitl [HS0 Hr Hg]
        · isplitl [HS0 Hr]
          · isplitl [HS0]; · iexact HS0
            iexact Hr
          iexact Hg
        isplitl [Ho]; · iexact Ho
        isplitl [H0]; · iexact H0
        iexists _; iexact H1
  · have hc0 : ¬cond0_0 (grid0.coords t) := fun h => h0 ((hcond0_0 t).mp h)
    have hz : t.val ≠ 0 := fun hz => h0 (by rw [hz])
    by_cases h1 : t.val % 128 = 127
    · have hc1 : cond0_1 (grid0.coords t) := (hcond0_1 t).mpr h1
      rw [show (dat0 V c).leavesExact 1 t = owns (c : Thread nD τ) (ms0_1 t) fullShare ((dat0 V c).after 1 t) from by
        unfold Dat.leavesExact; rw [liveAt0_1 t hc1], after0_1]
      rw [accAt_next V c t h0]
      rw [PhiS_castSucc V c t, PhiS_pos V c _ _ hz]
      iintro ⟨⟨⟨HS0, Hr⟩, Hg⟩, Ho, ⟨%d0, H0⟩, ⟨%d1, H1⟩⟩
      iapply (run_last c (grid0.coords t) _ _ _ _ _ _ hc0 hc1 (iblk0 V c 0 t) _ Set.univ _)
      isplitl [H0]; · iexact H0
      isplitl [H1]; · iexists _; iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexact H1
    · have hc1 : ¬cond0_1 (grid0.coords t) := fun h => h1 ((hcond0_1 t).mp h)
      rw [Dat.leavesExact_idle (dat0 V c) 1 t (idleAt0_1 t hc1) (noFlush0_1 t hc1)]
      rw [accAt_next V c t h0]
      rw [PhiS_castSucc V c t, PhiS_pos V c _ _ hz]
      iintro ⟨⟨⟨HS0, Hr⟩, Hg⟩, Ho, ⟨%d0, H0⟩, ⟨%d1, H1⟩⟩
      iapply (run_middle c (grid0.coords t) _ _ _ _ _ _ hc0 hc1 (iblk0 V c 0 t) _ _ Set.univ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- After the last point the invariant gives the class's back. -/
theorem hout0 (c : Dev nD) : (dat0 V c).Φ (Fin.last cfg0.N) ⊢ Pipeline.ΦA spec0 c :=
  Phi_out V c _ (by rw [Fin.val_last]; have : cfg0.N = 1024 := N_0; omega)

end Cert.Kernel.Hand

end
-- ==== Proof.W.R1.Frame.lean ====
/- The second pallas_call's region, at a parameter `V` (the TensorCore's buffer contents when the region is entered):
   every point loads its whole input block and stores the block repeated along the new axis over its whole output block. -/
import proofs.«180036_j3066606649874_2_alg».proof.Proof.Gen.Kernel.Launch
import proofs.«180036_j3066606649874_2_alg».proof.Proof.Gen.Kernel.Skeleton
import proofs.«180036_j3066606649874_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: both whole buffers -/

abbrev r1_in : Rect S1x512x512 := Rect.unit (s := S1x512x512) ![0, 0, 0] S1x512x512.size inb_S1x512x512_S1x512x512_0_0_0
abbrev r1_out : Rect S1x8x512x512 := Rect.unit (s := S1x8x512x512) ![0, 0, 0, 0] S1x8x512x512.size inb_S1x8x512x512_S1x8x512x512_0_0_0_0

/-! ## What the body leaves in the output window's buffer -/

/-- The output staging buffer after the body, from the input block: its one store, over the whole buffer. -/
def out1_1 (x0 : Vec F S1x512x512 .f32) : Vec F S1x8x512x512 .f32 :=
  View.canon [⟨r1_out, k1_pay1 (View.ld x0 r1_in)⟩]

/-- The one store covers the buffer. -/
theorem cover1_1 (p0 : Vec F S1x8x512x512 .f32) (y : S1x8x512x512.Idx) :
    ∃ pc ∈ ([⟨r1_out, p0⟩] : List (View.Piece (Elt F) S1x8x512x512 .f32)), y ∈ pc.1.set :=
  View.cover_of_tiled [⟨r1_out, p0⟩] S1x8x512x512.size (by rfl) y

/-! ## The body's triple -/

set_option maxHeartbeats 1000000 in
/-- The kernel body on whole staging memrefs, the input's at contents `x0` and the output's at anything, runs to the
    continuation holding the input's as it was and the output's at `out1_1 x0`. -/
theorem sound_kernel1 (c : Dev nD) (E : Set ℕ) (i : grid1.Coords) (arg2 : Memref sig .tc .vmem S1x512x512 .f32) (harg2 : arg2.IsWhole)
    (arg3 : Memref sig .tc .vmem S1x8x512x512 .f32) (harg3 : arg3.IsWhole)
    (x0 : Vec F S1x512x512 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__bcast_kernel i arg2 harg2 arg3 harg3) K := by
  simp only [cc1__bcast_kernel_eq_skeleton]; unfold cc1__bcast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of the second pipeline on core `c`: the arrays as the region finds them; after the body at point `t`
    the input's buffer at its block and the output's at `out1_1` of it; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.W.Run.lean ====
/- The run of the whole program: one reshape on the host, then the two pallas_call regions. The buffer contents at each
   boundary, the two regions as segments over them, and the final contents of the result array and of the arguments. -/
import proofs.«180036_j3066606649874_2_alg».proof.Proof.W.R0.Frame
import proofs.«180036_j3066606649874_2_alg».proof.Proof.W.R1.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- The launch state: memory `m`, every semaphore at zero, the generator registers `ρ`. -/
abbrev launchSt : MemSt nD τ sig (Elt F) := ⟨m, fun _ => 0, ρ⟩

/-- Core `c`'s buffers at launch. -/
abbrev W0 : Dev nD → Valuation τ sig (Elt F) := fun c b => (launchSt m ρ).mem ((c : Dev nD), b)
/-- After the reshape (the first region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first region's exit, the second region's entry). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (the second region's exit). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What the boundaries hold -/

/-- The first region is entered with the reshaped second argument in its input array. -/
theorem entry0_main_v0 (c : Dev nD) :
    (V1 m ρ c main_v0 : S8x262144x2.Idx → Elt F .f32)
      = shapeCast S8x262144x2 (m ((c : Thread nD τ).loc main_arg1)) shapeCasts_S8x512x512x2_S8x262144x2 := by
  dsimp only [V1, W1, hostOps0]
  after_results
  rfl

/-- The second region is entered with what the first region's write-backs leave in its output array. -/
theorem entry1_main_v1 (c : Dev nD) : V2 m ρ c main_v1 = (dat0 (V1 m ρ) c).arrAt 1 cfg0.N :=
  W2_arr m ρ c 1

/-- The result array at the end: what the second region's write-backs leave in it. -/
theorem W3_main_v2 (c : Dev nD) : W3 m ρ c (Proc.devRef .tc main_v2) = (dat1 (V2 m ρ) c).arrAt 1 cfg1.N :=
  W3_arr m ρ c 1

/-- No host operation and no region writes the first argument. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl

/-- The reshape reads the second argument and writes elsewhere; no region writes it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          exact StableHlo.devRef_ne_of_ne (by decide)))
    _ = m ((c : Thread nD τ).loc main_arg1) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debt, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region over the thread state: entered from every unscoped buffer at `W1`, left at `W2`. Its arrays split
    out of the unscoped buffers and put back at the exit contents; the generator register and the scoped rest into the
    region's invariant before the first point and out of it after the last; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine (show _ ⊢ Pipeline.ΦA spec0 c from ?_).trans (hin0 (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3` (what the launch
    reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the reshape from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program is the run of the segments. -/
theorem main_run (c : Dev nD) : main (F := F) c = Pipeline.Seg.run (segs m ρ) := (main_chain c).trans (by chain_rfl)

set_option backward.isDefEq.respectTransparency.types false in
/-- From any memory with zero counters, every weakly fair execution of the program on the TensorCores terminates, nothing
    faulting, and every final state has the result array at what the second region's write-backs leave and the argument
    arrays as launched. -/
theorem run_value : θ_run defs (onTc (τ := τ) (main (F := F))) ⟨m, fun _ => 0, ρ⟩ (fun r => ∀ c : Dev nD,
      r.2.mem ((c.tc : Thread nD τ).loc main_v2) = (dat1 (V2 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_main_v2 m ρ c),
       (h c _ (mem_uc main_arg0 (by decide))).trans (W3_main_arg0 m ρ c),
       (h c _ (mem_uc main_arg1 (by decide))).trans (W3_main_arg1 m ρ c)⟩)

/-- The frame: the program runs and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).2.1, (h c).2.2⟩) (run_value m ρ)

end Cert.Kernel.Hand

end
-- ==== Proof.Spec.lean ====
/-
  The mathematics both programs compute, stated once over the extended reals.

  A grid entry `x` (nominally in [-1, 1]) becomes a pixel coordinate `g = clamp₀⁵¹³((x + 1)·½·512 + 1)`
  (the coordinate shifted by one for a one-pixel border and clamped to `[0, 513]`).  A source pixel with
  coordinates `(gᵢ, gⱼ)` deposits bilinear weight on the integer nodes around it: on node `n` along one
  axis it deposits the tent weight `max(1 − |g − n|, 0)`, which vanishes unless `|g − n| < 1`.  The
  deposit on the output pixel `(r, c)` (node `(r + 1, c + 1)` once the border is cropped) is the product
  of the two tent weights, and the output is the sum of the deposits of all 512 × 512 source pixels of
  the batch entry, the same map for every channel.
-/
import Idealize.ShloMosaic.PureOps.Ideal
import Idealize.ShloMosaic.Lib.ValueIdx

noncomputable section

open scoped BigOperators

namespace Cert.Splat

open Idealize.ShloMosaic Idealize.ShloMosaic.ValueIdx

/-- The literals the two programs share, as the extended reals their patterns denote. -/
def c0 : EReal := Ideal.ofBits .f32 0x00000000#32
def c1 : EReal := Ideal.ofBits .f32 0x3F800000#32
def chalf : EReal := Ideal.ofBits .f32 0x3F000000#32
def c512 : EReal := Ideal.ofBits .f32 0x44000000#32
def c513 : EReal := Ideal.ofBits .f32 0x44004000#32

/-- A grid entry as a clamped, border-shifted pixel coordinate: `min 513 (max 0 ((x + 1)·½·512 + 1))`. -/
def coord (x : EReal) : EReal := min c513 (max c0 ((x + c1) * chalf * c512 + c1))

/-- The tent weight of coordinate `g` on node `n`: `max (1 − |g − n|) 0`, with `|y| = max y (−y)`. -/
def tent (g n : EReal) : EReal := max (c1 - max (g - n) (-(g - n))) c0

/-- Output row (or column) `r` is node `r + 1` of the bordered accumulator. -/
def node (r : ℕ) : EReal := (((r + 1 : ℕ) : ℝ) : EReal)

/-- The deposit map: for batch entry `b` and output pixel `(r, c)`, the sum over all source pixels
    `(h, w)` of the product of the two tent weights. -/
def splat (x : (⟨4, ![8, 512, 512, 2]⟩ : Shape).Idx → EReal) (b : Fin 8) (r c : Fin 512) : EReal :=
  ∑ p : Fin 512 × Fin 512,
    tent (coord (x (ix4 b p.1 p.2 (0 : Fin 2)))) (node r.val) * tent (coord (x (ix4 b p.1 p.2 (1 : Fin 2)))) (node c.val)

/-- The result array: the deposit map of the batch entry, repeated over the 32 channels. -/
def result (x : (⟨4, ![8, 512, 512, 2]⟩ : Shape).Idx → EReal) : (⟨4, ![8, 32, 512, 512]⟩ : Shape).Idx → EReal :=
  fun i => splat x (i 0) (i 2) (i 3)

end Cert.Splat

end
-- ==== Proof.Ker.Payload.lean ====
/-
  The kernel bodies' vector arithmetic, read at an index.

  One point of the first kernel holds a block of 2048 source pixels, each a pair of grid entries.  Column 0 of the
  block becomes the row coordinates `gᵢ = coord x`, column 1 the column coordinates `gⱼ`.  Against the node numbers
  `1, …, 512` (the column number of a 2048 × 512 array, plus one) each coordinate gives a row of tent weights, and the
  product of the two 2048 × 512 weight matrices, contracted over the 2048 pixels, is added to the accumulator:
  at `(r, c)` the accumulator gains `∑ₜ tent gᵢ(t) (r + 1) · tent gⱼ(t) (c + 1)`.  Rounding the weights to a
  narrower format does nothing over the extended reals.  The remaining payloads only re-index: a zero array, a leading
  unit axis added, and one matrix repeated eight times.
-/
import proofs.«180036_j3066606649874_2_alg».proof.Proof.R0.Base
import proofs.«180036_j3066606649874_2_alg».proof.Proof.Spec
import Idealize.ShloMosaic.Lib.ValueLayout
import Idealize.ShloMosaic.PureOps.Ideal.Laws

noncomputable section

open scoped BigOperators

namespace Cert.KernelIdeal.Hand

open Cert.KernelIdeal Cert.KernelIdeal.Gen Cert.Splat Idealize.ShloMosaic Idealize.ShloMosaic.ValueIdx

/-! ## Two broadcasts read at an index -/

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One matrix `[1, a, b]` broadcast to a stack `[m, a, b]` reads, at `(k, i, j)`, the matrix at `(i, j)`. -/
theorem broadcastTo_1ab_mab_apply {α : Type} {m a b : ℕ} (v : (⟨3, ![1, a, b]⟩ : Shape).Idx → α)
    (h : (⟨3, ![1, a, b]⟩ : Shape).Broadcasts ⟨3, ![m, a, b]⟩) (k : Fin m) (i : Fin a) (j : Fin b) :
    broadcastTo ⟨3, ![m, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-! ## The payloads that only re-index -/

/-- The reset's payload is zero everywhere. -/
theorem pay3_apply (i : S512x512.Idx) : k0_pay3 (F := Ideal) i = 0 := by
  unfold k0_pay3
  rw [shapeCast_self]
  exact Ideal.ofBits_zero_f32

/-- The output block is the accumulator under a leading unit axis. -/
theorem pay2_apply (v : Vec Ideal S512x512 .f32) (r c : Fin 512) : k0_pay2 (F := Ideal) v (ix3 (0 : Fin 1) r c) = v (ix2 r c) := by
  unfold k0_pay2
  exact shapeCast_ab_1ab_apply v _ (0 : Fin 1) r c

/-- The second kernel repeats its one matrix over the eight channels of its block. -/
theorem bcast_apply (v0 : Vec Ideal S1x512x512 .f32) (k : Fin 8) (r c : Fin 512) : k1_pay1 (F := Ideal) v0 (ix4 (0 : Fin 1) k r c) = v0 (ix3 (0 : Fin 1) r c) := by
  unfold k1_pay1
  refine (shapeCast_abc_1abc_apply _ _ (0 : Fin 1) k r c).trans ?_
  refine (broadcastTo_1ab_mab_apply _ _ k r c).trans ?_
  rw [shapeCast_self]
  refine (shapeCast_ab_1ab_apply _ _ (0 : Fin 1) r c).trans ?_
  exact shapeCast_1ab_ab_apply v0 _ r c

/-! ## The two columns of the block -/

/-- Column 0 of the block, read as a `[1, 2048, 1]` array, is the block's entries `(0, t, 0)`. -/
theorem ld_col0 (x0 : Vec Ideal S1x2048x2 .f32) (t : Fin 2048) :
    (View.ld x0 colRect0 : Vec Ideal S1x2048x1 .f32) (ix3 (0 : Fin 1) t (0 : Fin 1)) = x0 (ix3 (0 : Fin 1) t (0 : Fin 2)) := by
  show x0 (colRect0.idx _) = _
  refine congrArg x0 (funext fun a => Fin.ext ?_)
  match a with
  | ⟨0, _⟩ => rfl
  | ⟨1, _⟩ => show 0 + 1 * t.val = t.val; omega
  | ⟨2, _⟩ => rfl

/-- Column 1 of the block, read as a `[1, 2048, 1]` array, is the block's entries `(0, t, 1)`. -/
theorem ld_col1 (x0 : Vec Ideal S1x2048x2 .f32) (t : Fin 2048) :
    (View.ld x0 colRect1 : Vec Ideal S1x2048x1 .f32) (ix3 (0 : Fin 1) t (0 : Fin 1)) = x0 (ix3 (0 : Fin 1) t (1 : Fin 2)) := by
  show x0 (colRect1.idx _) = _
  refine congrArg x0 (funext fun a => Fin.ext ?_)
  match a with
  | ⟨0, _⟩ => rfl
  | ⟨1, _⟩ => show 0 + 1 * t.val = t.val; omega
  | ⟨2, _⟩ => rfl

/-! ## The literal one, and the column number as a real -/

/-- The literal `1.0` denotes one. -/
theorem c1_eq_one : c1 = 1 := by
  unfold c1; simp [Ideal.ofBits, Ideal.ieee, -EReal.coe_mul]; norm_num

/-- A column number plus one is the node it stands for. -/
theorem natCast_add_c1 (n : ℕ) : ((n : ℝ) : EReal) + c1 = node n := by
  rw [c1_eq_one]; unfold node
  rw [← EReal.coe_one, ← EReal.coe_add]; push_cast; rfl

/-- A number below 512, as a 32-bit word read signed, is itself. -/
theorem toInt_ofNat_lt512 (n : ℕ) (h : n < 512) : (BitVec.ofNat 32 n).toInt = (n : ℤ) := by
  have h1 : (BitVec.ofNat 32 n).toNat = n := by rw [BitVec.toNat_ofNat]; omega
  rw [BitVec.toInt_eq_toNat_of_lt (by rw [h1]; omega), h1]

/-- The column number of a `2048 × 512` array, as a real. -/
theorem pay5_apply (t : Fin 2048) (r : Fin 512) : k0_pay5 (F := Ideal) (ix2 t r) = ((r.val : ℝ) : EReal) := by
  unfold k0_pay5
  rw [sitofp_apply, iota_single_apply]
  show (((BitVec.ofNat 32 r.val).toInt : ℝ) : EReal) = _
  rw [toInt_ofNat_lt512 r.val r.isLt, Int.cast_natCast]

/-- The column number plus one: the node. -/
theorem pay6_apply (t : Fin 2048) (r : Fin 512) : k0_pay6 (F := Ideal) (ix2 t r) = node r.val := by
  unfold k0_pay6
  show k0_pay5 (F := Ideal) (ix2 t r) + c1 = node r.val
  rw [pay5_apply, natCast_add_c1]

/-! ## A column of the block as a clamped coordinate -/

/-- The column coordinates: `coord` of the column's entries. -/
theorem pay4_apply (v5 : Vec Ideal S1x2048x1 .f32) (t : Fin 2048) :
    k0_pay4 (F := Ideal) v5 (ix2 t (0 : Fin 1)) = coord (v5 (ix3 (0 : Fin 1) t (0 : Fin 1))) := by
  unfold k0_pay4
  show min c513 (max c0 ((shapeCast S2048x1 v5 shapeCasts_S1x2048x1_S2048x1 (ix2 t (0 : Fin 1)) + c1) * chalf * c512 + c1)) = _
  rw [shapeCast_1ab_ab_apply]; rfl

/-- The row coordinates, repeated along the 512 nodes: `coord` of the column's entries. -/
theorem pay7_apply (v3 : Vec Ideal S1x2048x1 .f32) (t : Fin 2048) (r : Fin 512) :
    k0_pay7 (F := Ideal) v3 (ix2 t r) = coord (v3 (ix3 (0 : Fin 1) t (0 : Fin 1))) := by
  unfold k0_pay7
  refine (broadcastTo_a1_ab_apply _ _ t r).trans ?_
  show min c513 (max c0 ((shapeCast S2048x1 v3 shapeCasts_S1x2048x1_S2048x1 (ix2 t (0 : Fin 1)) + c1) * chalf * c512 + c1)) = _
  rw [shapeCast_1ab_ab_apply]; rfl

/-! ## The product of the two weight matrices, contracted over the block's rows -/

/-- Both operands are contracted over their rows: at `(r, c)` the product into a zero accumulator is `∑ₜ A(t, r) · B(t, c)`. -/
theorem mm_apply (A B : FVec Ideal S2048x512 .bf16) (r c : Fin 512) :
    matmul dot_S2048x512_S2048x512_S512x512_0_0_1_1_n_n none A B (constant (F := Ideal) S512x512 .f32 0x00000000#32) (ix2 r c)
      = ∑ t : Fin 2048, A (ix2 t r) * B (ix2 t c) := by
  show FloatOps.matmul dot_S2048x512_S2048x512_S512x512_0_0_1_1_n_n none A B (constant (F := Ideal) S512x512 .f32 0x00000000#32) (ix2 r c) = _
  rw [Ideal.matmul_constant_zero_apply, ← Equiv.sum_comp (contrEquiv1 dot_S2048x512_S2048x512_S512x512_0_0_1_1_n_n 2048 rfl rfl).symm]
  refine Finset.sum_congr rfl fun t _ => ?_
  have ct := contrEquiv1_symm_val dot_S2048x512_S2048x512_S512x512_0_0_1_1_n_n 2048 rfl rfl t
  have l2 : (dot_S2048x512_S2048x512_S512x512_0_0_1_1_n_n).lhsIdx (ix2 r c) ((contrEquiv1 dot_S2048x512_S2048x512_S512x512_0_0_1_1_n_n 2048 rfl rfl).symm t) = ix2 t r := by
    funext ax; apply Fin.ext
    match ax with
    | ⟨0, _⟩ => simp [DotDims.lhsIdx, dot_S2048x512_S2048x512_S512x512_0_0_1_1_n_n]; exact ct
    | ⟨1, _⟩ => simp [DotDims.lhsIdx, dot_S2048x512_S2048x512_S512x512_0_0_1_1_n_n]; rfl
  have r2 : (dot_S2048x512_S2048x512_S512x512_0_0_1_1_n_n).rhsIdx (ix2 r c) ((contrEquiv1 dot_S2048x512_S2048x512_S512x512_0_0_1_1_n_n 2048 rfl rfl).symm t) = ix2 t c := by
    funext ax; apply Fin.ext
    match ax with
    | ⟨0, _⟩ => simp [DotDims.rhsIdx, dot_S2048x512_S2048x512_S512x512_0_0_1_1_n_n]; exact ct
    | ⟨1, _⟩ => simp [DotDims.rhsIdx, dot_S2048x512_S2048x512_S512x512_0_0_1_1_n_n]; rfl
  rw [l2, r2]

/-! ## The accumulator update -/

/-- The update over any coordinate and node arrays: the accumulator plus the contracted product of the two tent-weight
    matrices. -/
theorem pay1_apply (v30 : FVec Ideal S2048x1 .f32) (v32 v34 v35 : FVec Ideal S2048x512 .f32) (v54 : Vec Ideal S512x512 .f32)
    (r c : Fin 512) :
    k0_pay1 (F := Ideal) v30 v32 v34 v35 v54 (ix2 r c)
      = v54 (ix2 r c) + ∑ t : Fin 2048, tent (v35 (ix2 t r)) (v34 (ix2 t r)) * tent (v30 (ix2 t (0 : Fin 1))) (v32 (ix2 t c) + c1) := by
  unfold k0_pay1
  rw [shapeCast_self]
  refine congrArg (v54 (ix2 r c) + ·) ?_
  refine (mm_apply _ _ r c).trans ?_
  refine Finset.sum_congr rfl fun t _ => ?_
  show tent (v35 (ix2 t r)) (v34 (ix2 t r)) * tent (broadcastTo S2048x512 v30 broadcasts_S2048x1_S2048x512 (ix2 t c)) (v32 (ix2 t c) + c1) = _
  rw [broadcastTo_a1_ab_apply]

/-- One point's update of the accumulator, in the specification's words. -/
theorem accStep_apply (x0 : Vec Ideal S1x2048x2 .f32) (acc : Vec Ideal S512x512 .f32) (r c : Fin 512) :
    accStep (F := Ideal) x0 acc (ix2 r c) = acc (ix2 r c) + ∑ t : Fin 2048, tent (coord (x0 (ix3 (0 : Fin 1) t (0 : Fin 2)))) (node r.val) * tent (coord (x0 (ix3 (0 : Fin 1) t (1 : Fin 2)))) (node c.val) := by
  unfold accStep
  rw [pay1_apply]
  refine congrArg (acc (ix2 r c) + ·) (Finset.sum_congr rfl fun t _ => ?_)
  rw [pay7_apply, pay6_apply, pay4_apply, pay5_apply, natCast_add_c1, ld_col0, ld_col1]

end Cert.KernelIdeal.Hand

end
-- ==== Proof.Ker.Acc.lean ====
/- The accumulator in closed form: after the point at position `n` it holds, at every output pixel, the sum of the
   partial products of the points of the current batch entry up to `n`. -/
import proofs.«180036_j3066606649874_2_alg».proof.Proof.R0.Frame
import proofs.«180036_j3066606649874_2_alg».proof.Proof.Ker.Payload
import proofs.«180036_j3066606649874_2_alg».proof.Proof.Spec
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.Splat

variable (V : (c : Dev nD) → (b : Ref sig .tc) → Buf (Elt Ideal) ((c : Thread nD τ).loc b))

/-- The partial product of the point at position `k` on output pixel `(r, q)`: the sum over the 2048 source pixels of its
    input block of the product of the two tent weights (zero past the grid, where no point is). -/
def part (c : Dev nD) (r q : Fin 512) (k : ℕ) : EReal :=
  if h : k < cfg0.N then
    ∑ tt : Fin 2048, tent (coord ((iblk0 V c 0 ⟨k, h⟩ : Vec Ideal S1x2048x2 .f32) (ix3 (0 : Fin 1) tt (0 : Fin 2)))) (node r.val)
      * tent (coord ((iblk0 V c 0 ⟨k, h⟩ : Vec Ideal S1x2048x2 .f32) (ix3 (0 : Fin 1) tt (1 : Fin 2)))) (node q.val)
  else 0

theorem part_of_lt (c : Dev nD) (r q : Fin 512) (k : ℕ) (h : k < cfg0.N) :
    part V c r q k = ∑ tt : Fin 2048, tent (coord ((iblk0 V c 0 ⟨k, h⟩ : Vec Ideal S1x2048x2 .f32) (ix3 (0 : Fin 1) tt (0 : Fin 2)))) (node r.val)
      * tent (coord ((iblk0 V c 0 ⟨k, h⟩ : Vec Ideal S1x2048x2 .f32) (ix3 (0 : Fin 1) tt (1 : Fin 2)))) (node q.val) := by
  unfold part; rw [dif_pos h]

/-- The accumulator after position `n`, at pixel `(r, q)`: the partial products of positions `n - n % 128 … n`. -/
theorem accAt_apply (c : Dev nD) (r q : Fin 512) : ∀ (n : ℕ) (hn : n < cfg0.N),
    accAt V c n hn (ix2 r q) = ∑ s ∈ Finset.range (n % 128 + 1), part V c r q (n - n % 128 + s)
  | 0, hn => by
    rw [show accAt V c 0 hn = accStep (iblk0 V c 0 ⟨0, hn⟩) (k0_pay3 (F := Ideal)) from rfl, accStep_apply, pay3_apply, zero_add]
    rw [show (0 % 128 + 1) = 1 from rfl, Finset.sum_range_one, part_of_lt V c r q _ hn]
  | n + 1, hn => by
    by_cases h0 : (n + 1) % 128 = 0
    · have hs : ∑ s ∈ Finset.range ((n + 1) % 128 + 1), part V c r q (n + 1 - (n + 1) % 128 + s) = part V c r q (n + 1) := by
        rw [h0]; exact Finset.sum_range_one _
      rw [show accAt V c (n + 1) hn = accStep (iblk0 V c 0 ⟨n + 1, hn⟩) (if (n + 1) % 128 = 0 then k0_pay3 (F := Ideal) else accAt V c n (Nat.lt_of_succ_lt hn)) from rfl,
        if_pos h0, accStep_apply, pay3_apply, zero_add, hs, part_of_lt V c r q _ hn]
    · rw [show accAt V c (n + 1) hn = accStep (iblk0 V c 0 ⟨n + 1, hn⟩) (if (n + 1) % 128 = 0 then k0_pay3 (F := Ideal) else accAt V c n (Nat.lt_of_succ_lt hn)) from rfl,
        if_neg h0, accStep_apply, accAt_apply c r q n (Nat.lt_of_succ_lt hn)]
      have e1 : (n + 1) % 128 = n % 128 + 1 := by omega
      have e2 : n + 1 - (n % 128 + 1) = n - n % 128 := by omega
      have e3 : n - n % 128 + (n % 128 + 1) = n + 1 := by omega
      rw [e1, Finset.sum_range_succ _ (n % 128 + 1), e2, e3, part_of_lt V c r q _ hn]

/-- At the last point of batch entry `b` the accumulator holds the whole batch entry's sum. -/
theorem accAt_last (c : Dev nD) (r q : Fin 512) (b : ℕ) (hn : b * 128 + 127 < cfg0.N) :
    accAt V c (b * 128 + 127) hn (ix2 r q) = ∑ s ∈ Finset.range 128, part V c r q (b * 128 + s) := by
  rw [accAt_apply V c r q]
  have e1 : (b * 128 + 127) % 128 = 127 := by omega
  rw [e1, show b * 128 + 127 - 127 = b * 128 from by omega]

end Cert.KernelIdeal.Hand

end
-- ==== Proof.Ker.Block0.lean ====
/- A block of the first region's input window read at an index: the element sits in the reshaped argument at block
   index times block size plus its own coordinate, and the reshape keeps the row-major position. -/
import proofs.«180036_j3066606649874_2_alg».proof.Proof.R0.Frame
import proofs.«180036_j3066606649874_2_alg».proof.Proof.Run
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]

section Block
variable (V : (c : Dev nD) → (b : Ref sig .tc) → Buf (Elt F) ((c : Thread nD τ).loc b))

/-- The input window's block indices at point `t`: batch entry `t / 128`, row block `t % 128`, both columns. -/
theorem idx0_0 : ∀ t : Fin cfg0.N, win0_0.index t (0 : Fin 3) = t.val / 128 ∧ win0_0.index t (1 : Fin 3) = t.val % 128
    ∧ win0_0.index t (2 : Fin 3) = 0 :=
  (by decide +kernel : ∀ t : Fin grid0.N, _)

/-- Element `(0, tt, k)` of the block at point `t` is element `(t / 128, (t % 128)·2048 + tt, k)` of the array. -/
theorem iblk0_apply (c : Dev nD) (t : Fin cfg0.N) (tt : Fin 2048) (k : Fin 2) (b : Fin 8) (R : Fin 262144)
    (hb : b.val = t.val / 128) (hR : R.val = t.val % 128 * 2048 + tt.val) :
    (iblk0 V c 0 t : Vec F S1x2048x2 .f32) (ix3 (0 : Fin 1) tt k)
      = (V c main_v0 : S8x262144x2.Idx → Elt F .f32) (ix3 b R k) := by
  obtain ⟨e0, e1, e2⟩ := idx0_0 t
  show (V c main_v0 : S8x262144x2.Idx → Elt F .f32) (((cfg0.win 0).blk t).view.emb (ix3 (0 : Fin 1) tt k)) = _
  congr 1
  funext a; apply Fin.ext
  match a with
  | ⟨0, _⟩ => show win0_0.index t (0 : Fin 3) * 1 + 1 * 0 = b.val; omega
  | ⟨1, _⟩ => show win0_0.index t (1 : Fin 3) * 2048 + 1 * tt.val = R.val; omega
  | ⟨2, _⟩ => show win0_0.index t (2 : Fin 3) * 2 + 1 * k.val = k.val; omega

end Block

variable (m : (ℓ : Loc nD τ sig) → Buf (Elt F) ℓ) (ρ : Dev nD → PrngReg)

/-- The reshaped argument read at `(b, R, k)` is the argument at `(b, R / 512, R % 512, k)`. -/
theorem main_v0_apply (c : Dev nD) (b : Fin 8) (R : Fin 262144) (k : Fin 2) (h w : Fin 512)
    (hh : h.val = R.val / 512) (hw : w.val = R.val % 512) :
    (V1 m ρ c main_v0 : S8x262144x2.Idx → Elt F .f32) (ix3 b R k)
      = (m ((c : Thread nD τ).loc main_arg1) : S8x512x512x2.Idx → Elt F .f32) (ix4 b h w k) := by
  refine (congrFun (entry0_main_v0 m ρ c) _).trans ?_
  exact shapeCast_apply _ _ _ _ (by
    show ((⟨4, ![8, 512, 512, 2]⟩ : Shape).rowMajor (ix4 b h w k)).val = ((⟨3, ![8, 262144, 2]⟩ : Shape).rowMajor (ix3 b R k)).val
    rw [Shape.rowMajor_val_four, Shape.rowMajor_val_three]
    show ((b.val * 512 + h.val) * 512 + w.val) * 2 + k.val = (b.val * 262144 + R.val) * 2 + k.val
    omega)

/-- So element `(0, tt, k)` of the block at point `t` of the first region is the argument's source pixel
    `((t % 128)·2048 + tt) / 512, ((t % 128)·2048 + tt) % 512` of batch entry `t / 128`, coordinate `k`. -/
theorem iblk0_arg (c : Dev nD) (t : Fin cfg0.N) (tt : Fin 2048) (k : Fin 2) (b : Fin 8) (h w : Fin 512)
    (hb : b.val = t.val / 128) (hh : h.val = (t.val % 128 * 2048 + tt.val) / 512) (hw : w.val = (t.val % 128 * 2048 + tt.val) % 512) :
    (iblk0 (V1 m ρ) c 0 t : Vec F S1x2048x2 .f32) (ix3 (0 : Fin 1) tt k)
      = (m ((c : Thread nD τ).loc main_arg1) : S8x512x512x2.Idx → Elt F .f32) (ix4 b h w k) := by
  have hR : t.val % 128 * 2048 + tt.val < 262144 := by have := tt.isLt; omega
  exact (iblk0_apply (V1 m ρ) c t tt k b ⟨_, hR⟩ hb rfl).trans (main_v0_apply m ρ c b ⟨_, hR⟩ k h w hh hw)

end Cert.KernelIdeal.Hand

end
-- ==== Proof.Ker.Array0.lean ====
/- The first region's output array after the run: block `b` holds the accumulator as the last point of batch entry `b`
   leaves it. Each flushing point writes its block of that one array; the flushing points' blocks cover it. -/
import proofs.«180036_j3066606649874_2_alg».proof.Proof.R0.Frame
import proofs.«180036_j3066606649874_2_alg».proof.Proof.Ker.Payload
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The output window's block indices at point `t`: batch entry `t / 128`, the whole 512 x 512 plane. -/
theorem idx0_1 : ∀ t : Fin cfg0.N, win0_1.index t (0 : Fin 3) = t.val / 128 ∧ win0_1.index t (1 : Fin 3) = 0
    ∧ win0_1.index t (2 : Fin 3) = 0 :=
  (by decide +kernel : ∀ t : Fin grid0.N, _)

/-- The last point of batch entry `b` is a point of the grid. -/
theorem last_lt (b : ℕ) (hb : b < 8) : b * 128 + 127 < cfg0.N := by
  have hN : cfg0.N = 1024 := N_0
  omega

/-- The accumulator at equal positions and equal pixels. -/
theorem accAt_eq_of (c : Dev nD) {n n' : ℕ} (h : n < cfg0.N) (h' : n' < cfg0.N) (e : n = n') {x x' : S512x512.Idx} (ex : x = x') :
    accAt V c n h x = accAt V c n' h' x' := by
  subst e; subst ex; rfl

theorem ix2_congr {n0 n1 : ℕ} {a a' : Fin n0} {b b' : Fin n1} (ha : a.val = a'.val) (hb : b.val = b'.val) : ix2 a b = ix2 a' b' := by
  rw [Fin.ext ha, Fin.ext hb]

/-- What the output array ends holding: at `(b, r, q)` the accumulator after the last point of batch entry `b`, at `(r, q)`. -/
def G0 (c : Dev nD) : S8x512x512.Idx → Elt Ideal .f32 :=
  fun i => accAt V c ((i 0).val * 128 + 127) (last_lt _ (i 0).isLt) (ix2 (i 1) (i 2))

theorem G0_apply (c : Dev nD) (b : Fin 8) (r q : Fin 512) :
    G0 V c (ix3 b r q) = accAt V c (b.val * 128 + 127) (last_lt _ b.isLt) (ix2 r q) := rfl

/-- A flushing point's block, element by element. -/
theorem flushed0_aux (c : Dev nD) (t : Fin cfg0.N) (h127 : t.val % 128 = 127) (j0 : Fin 1) (j1 j2 : Fin 512) :
    k0_pay2 (F := Ideal) (accAt V c t.val t.isLt) (ix3 j0 j1 j2) = G0 V c (((cfg0.win 1).blk t).view.emb (ix3 j0 j1 j2)) := by
  obtain ⟨e0, e1, e2⟩ := idx0_1 t
  have hj0 : j0 = 0 := Fin.ext (by have := j0.isLt; show j0.val = 0; omega)
  subst hj0
  rw [pay2_apply]
  have hi0 : ((((cfg0.win 1).blk t).view.emb (ix3 (0 : Fin 1) j1 j2) : S8x512x512.Idx) 0).val = t.val / 128 := by
    show win0_1.index t (0 : Fin 3) * 1 + 1 * 0 = _; omega
  have hi1 : ((((cfg0.win 1).blk t).view.emb (ix3 (0 : Fin 1) j1 j2) : S8x512x512.Idx) 1).val = j1.val := by
    show win0_1.index t (1 : Fin 3) * 512 + 1 * j1.val = _; omega
  have hi2 : ((((cfg0.win 1).blk t).view.emb (ix3 (0 : Fin 1) j1 j2) : S8x512x512.Idx) 2).val = j2.val := by
    show win0_1.index t (2 : Fin 3) * 512 + 1 * j2.val = _; omega
  unfold G0
  exact accAt_eq_of V c _ _ (by rw [hi0]; omega) (ix2_congr hi1.symm hi2.symm)

/-- What a flushing point writes back is its block of `G0`. -/
theorem flushed0_eq (c : Dev nD) (t : Fin cfg0.N) (hf : (cfg0.win 1).flush t = true) :
    (dat0 V c).flushed 1 t = ((cfg0.win 1).blk t).view.read (Elt Ideal) (G0 V c) := by
  have h127 : t.val % 128 = 127 := (flush0_1 t).mp hf
  show (cfg0.win 1).cut (grid0.coords t) ((dat0 V c).after 1 t) = _
  rw [after0_1]
  funext j
  have hj : (j : S1x512x512.Idx) = ix3 (j 0) (j 1) (j 2) := eq_ix3 (n0 := 1) (n1 := 512) (n2 := 512) j
  rw [hj]
  exact flushed0_aux V c t h127 _ _ _

/-- Every element of the output array is in the block of the last point of its batch entry. -/
theorem cover0 (i : S8x512x512.Idx) : ∃ t : Fin cfg0.N, (cfg0.win 1).flush t = true ∧ i ∈ ((cfg0.win 1).blk t).view.set := by
  have h0 : (i 0).val < 8 := (i 0).isLt
  have h1 : (i 1).val < 512 := (i 1).isLt
  have h2 : (i 2).val < 512 := (i 2).isLt
  have hN : cfg0.N = 1024 := N_0
  have ht : (i 0).val * 128 + 127 < cfg0.N := by omega
  obtain ⟨e0, e1, e2⟩ := idx0_1 ⟨(i 0).val * 128 + 127, ht⟩
  refine ⟨⟨(i 0).val * 128 + 127, ht⟩, (flush0_1 _).mpr (by show ((i 0).val * 128 + 127) % 128 = 127; omega), ?_⟩
  show i ∈ ((View.whole main_v1).slice (win0_1.rect ⟨(i 0).val * 128 + 127, ht⟩)).set
  rw [View.set_slice_whole, Rect.mem_set_unit]
  have e0' : win0_1.index ⟨(i 0).val * 128 + 127, ht⟩ (0 : Fin 3) = ((i 0).val * 128 + 127) / 128 := e0
  intro a
  match a with
  | ⟨0, _⟩ => show win0_1.index ⟨(i 0).val * 128 + 127, ht⟩ (0 : Fin 3) * 1 ≤ (i 0).val ∧ (i 0).val < win0_1.index ⟨(i 0).val * 128 + 127, ht⟩ (0 : Fin 3) * 1 + 1; omega
  | ⟨1, _⟩ => show win0_1.index ⟨(i 0).val * 128 + 127, ht⟩ (1 : Fin 3) * 512 ≤ (i 1).val ∧ (i 1).val < win0_1.index ⟨(i 0).val * 128 + 127, ht⟩ (1 : Fin 3) * 512 + 512; omega
  | ⟨2, _⟩ => show win0_1.index ⟨(i 0).val * 128 + 127, ht⟩ (2 : Fin 3) * 512 ≤ (i 2).val ∧ (i 2).val < win0_1.index ⟨(i 0).val * 128 + 127, ht⟩ (2 : Fin 3) * 512 + 512; omega

/-- The first region's output array after the run. -/
theorem array0 (c : Dev nD) : (dat0 V c).arrAt 1 cfg0.N = G0 V c :=
  (dat0 V c).arrAt_eq_of_cover 1 (G0 V c) (flushed0_eq V c) cover0

/-- Read at an index: block `b` holds the accumulator after the last point of batch entry `b`. -/
theorem array0_apply (c : Dev nD) (b : Fin 8) (r q : Fin 512) :
    ((dat0 V c).arrAt 1 cfg0.N : S8x512x512.Idx → Elt Ideal .f32) (ix3 b r q)
      = accAt V c (b.val * 128 + 127) (last_lt _ b.isLt) (ix2 r q) := by
  rw [array0]; rfl

end Cert.KernelIdeal.Hand

end
-- ==== Proof.Ker.Array1.lean ====
/- The second region's final array: every channel of a batch entry holds that entry's plane of the region's input array. -/
import proofs.«180036_j3066606649874_2_alg».proof.Proof.R1.Frame
import proofs.«180036_j3066606649874_2_alg».proof.Proof.Ker.Payload
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The array that repeats each batch entry's plane over all the channels. -/
def repeatChannels (a : S8x512x512.Idx → Elt Ideal .f32) : S8x32x512x512.Idx → Elt Ideal .f32 :=
  fun i => a (ix3 (i 0 : Fin 8) (i 2 : Fin 512) (i 3 : Fin 512))

/-- The body's payload at any index of the output block: the input block's entry at the index's last two coordinates. -/
theorem bcast_at (x0 : Vec Ideal S1x512x512 .f32) (j : S1x8x512x512.Idx) :
    k1_pay1 (F := Ideal) x0 j = x0 (ix3 (0 : Fin 1) (j 2 : Fin 512) (j 3 : Fin 512)) := by
  have h0 : (j 0).val < 1 := (j 0).isLt
  have hj : j = ix4 (0 : Fin 1) (j 1 : Fin 8) (j 2 : Fin 512) (j 3 : Fin 512) := by
    funext a
    match a with
    | ⟨0, _⟩ => exact Fin.ext (by show (j 0).val = 0; omega)
    | ⟨1, _⟩ => rfl
    | ⟨2, _⟩ => rfl
    | ⟨3, _⟩ => rfl
  exact (congrArg (k1_pay1 (F := Ideal) x0) hj).trans (bcast_apply x0 _ _ _)

/-- The printed index maps, decided over the grid: the input block moves with the output block's batch coordinate, and the
    output's block indices stay in their ranges. -/
theorem idx_facts1 : ∀ t : Fin cfg1.N, win1_0.index t (0 : Fin 3) = win1_1.index t (0 : Fin 4)
    ∧ win1_0.index t (1 : Fin 3) = 0 ∧ win1_0.index t (2 : Fin 3) = 0
    ∧ win1_1.index t (0 : Fin 4) ≤ 7 ∧ win1_1.index t (1 : Fin 4) ≤ 3
    ∧ win1_1.index t (2 : Fin 4) = 0 ∧ win1_1.index t (3 : Fin 4) = 0 :=
  (by decide +kernel : ∀ t : Fin grid1.N, _)

/-- Every output block is some point's. -/
theorem idx_onto1 : ∀ (q0 : Fin 8) (q1 : Fin 4), ∃ t : Fin cfg1.N, win1_1.index t = ![q0.val, q1.val, 0, 0] :=
  (by decide +kernel : ∀ (q0 : Fin 8) (q1 : Fin 4), ∃ t : Fin grid1.N, win1_1.index t = ![q0.val, q1.val, 0, 0])

/-- What point `t` writes back is block `t` of the repeated input array. -/
theorem flushed1_eq (c : Dev nD) (t : Fin cfg1.N) :
    (dat1 (F := Ideal) V c).flushed 1 t = ((cfg1.win 1).blk t).view.read (Elt Ideal) (repeatChannels (V c main_v1)) := by
  show (cfg1.win 1).cut (grid1.coords t) ((dat1 V c).after 1 t) = _
  rw [after1_1]
  unfold out1_1
  rw [View.canon_unit_zero zeros4]
  simp only [View.ld_unit_zero (S := S1x512x512) zeros3]
  obtain ⟨e0, e1, e2, e3, e4, e5, e6⟩ := idx_facts1 t
  funext j
  refine (bcast_at (iblk1 V c 0 t) j).trans ?_
  have h0 : (j 0).val < 1 := (j 0).isLt
  show V c main_v1 (((cfg1.win 0).blk t).view.emb (ix3 (0 : Fin 1) (j 2 : Fin 512) (j 3 : Fin 512)))
    = V c main_v1 (ix3 ((((cfg1.win 1).blk t).view.emb j) 0 : Fin 8) ((((cfg1.win 1).blk t).view.emb j) 2 : Fin 512) ((((cfg1.win 1).blk t).view.emb j) 3 : Fin 512))
  refine congrArg (V c main_v1) ?_
  funext a; apply Fin.ext
  match a with
  | ⟨0, _⟩ => show win1_0.index t (0 : Fin 3) * 1 + 1 * 0 = win1_1.index t (0 : Fin 4) * 1 + 1 * (j 0).val; omega
  | ⟨1, _⟩ => show win1_0.index t (1 : Fin 3) * 512 + 1 * (j 2).val = win1_1.index t (2 : Fin 4) * 512 + 1 * (j 2).val; omega
  | ⟨2, _⟩ => show win1_0.index t (2 : Fin 3) * 512 + 1 * (j 3).val = win1_1.index t (3 : Fin 4) * 512 + 1 * (j 3).val; omega

/-- An index of the array is in point `t`'s block iff each coordinate is in the block's range on its axis. -/
theorem mem_blk1 (t : Fin cfg1.N) (i : S8x32x512x512.Idx) :
    i ∈ ((cfg1.win 1).blk t).view.set ↔ ∀ a : Fin 4, win1_1.index t a * S1x8x512x512.size a ≤ (i a).val ∧ (i a).val < win1_1.index t a * S1x8x512x512.size a + S1x8x512x512.size a := by
  show i ∈ ((View.whole main_v2).slice (win1_1.rect t)).set ↔ _
  rw [View.set_slice_whole, Rect.mem_set_unit]
  exact Iff.rfl

/-- Every index of the array is in the block of the point of its batch entry and its group of eight channels. -/
theorem covered1 (i : S8x32x512x512.Idx) :
    ∃ t : Fin cfg1.N, (cfg1.win 1).flush t = true ∧ i ∈ ((cfg1.win 1).blk t).view.set := by
  have hi0 : (i 0).val < 8 := (i 0).isLt
  have hi1 : (i 1).val < 32 := (i 1).isLt
  have hi2 : (i 2).val < 512 := (i 2).isLt
  have hi3 : (i 3).val < 512 := (i 3).isLt
  obtain ⟨t, ht⟩ := idx_onto1 ⟨(i 0).val, hi0⟩ ⟨(i 1).val / 8, by omega⟩
  have q0 : win1_1.index t (0 : Fin 4) = (i 0).val := congrFun ht 0
  have q1 : win1_1.index t (1 : Fin 4) = (i 1).val / 8 := congrFun ht 1
  have q2 : win1_1.index t (2 : Fin 4) = 0 := congrFun ht 2
  have q3 : win1_1.index t (3 : Fin 4) = 0 := congrFun ht 3
  refine ⟨t, flush1_1 t, ?_⟩
  rw [mem_blk1]
  intro a
  match a with
  | ⟨0, _⟩ => show win1_1.index t (0 : Fin 4) * 1 ≤ (i 0).val ∧ (i 0).val < win1_1.index t (0 : Fin 4) * 1 + 1; omega
  | ⟨1, _⟩ => show win1_1.index t (1 : Fin 4) * 8 ≤ (i 1).val ∧ (i 1).val < win1_1.index t (1 : Fin 4) * 8 + 8; omega
  | ⟨2, _⟩ => show win1_1.index t (2 : Fin 4) * 512 ≤ (i 2).val ∧ (i 2).val < win1_1.index t (2 : Fin 4) * 512 + 512; omega
  | ⟨3, _⟩ => show win1_1.index t (3 : Fin 4) * 512 ≤ (i 3).val ∧ (i 3).val < win1_1.index t (3 : Fin 4) * 512 + 512; omega

/-- The array after the region: the repeated input array. -/
theorem final1 (c : Dev nD) : (dat1 (F := Ideal) V c).arrAt 1 cfg1.N = repeatChannels (V c main_v1) :=
  (dat1 (F := Ideal) V c).arrAt_eq_of_cover 1 (repeatChannels (V c main_v1)) (fun t _ => flushed1_eq V c t) covered1

/-- Channel `ch` of batch entry `b` of the second region's final array is plane `b` of its input array as the region found it. -/
theorem array1 (c : Dev nD) (b : Fin 8) (ch : Fin 32) (r cc : Fin 512) :
    (dat1 (F := Ideal) V c).arrAt 1 cfg1.N (ix4 b ch r cc) = (V c main_v1 : S8x512x512.Idx → Elt Ideal .f32) (ix3 b r cc) := by
  rw [final1]
  rfl

end Cert.KernelIdeal.Hand

end
-- ==== Proof.Ker.Reindex.lean ====
/- Re-indexing the sum over (row block, pixel within the block) as the sum over (source row, source column): the 128
   row blocks of 2048 pixels are the 512 x 512 source pixels in row-major order. -/
import Mathlib.Algebra.BigOperators.Fin
import Mathlib.Algebra.BigOperators.Group.Finset.Basic
import Mathlib.Logic.Equiv.Fin.Basic

open scoped BigOperators

namespace Cert.KernelIdeal.Hand

/-- The source pixel at row-major position `n` of a batch entry: row `n / 512`, column `n % 512`. -/
def px (n : ℕ) : Fin 512 × Fin 512 :=
  (⟨n / 512 % 512, Nat.mod_lt _ (by decide)⟩, ⟨n % 512, Nat.mod_lt _ (by decide)⟩)

theorem px_fst (n : ℕ) : (px n).1.val = n / 512 % 512 := rfl
theorem px_snd (n : ℕ) : (px n).2.val = n % 512 := rfl

/-- A sum over pairs `(i, j)` of a function of the row-major position `i·n + j` is the sum over the positions. -/
theorem sum_pairs {M : Type*} [AddCommMonoid M] (a n : ℕ) (G : ℕ → M) :
    ∑ p : Fin a × Fin n, G (p.1.val * n + p.2.val) = ∑ k ∈ Finset.range (a * n), G k := by
  rw [Finset.sum_range]
  exact Fintype.sum_equiv finProdFinEquiv _ _ (fun p => by
    rw [finProdFinEquiv_apply_val, Nat.mul_comm, Nat.add_comm])

/-- The 128 row blocks of 2048 pixels each are the 512 x 512 pixels. -/
theorem sum_blocks {M : Type*} [AddCommMonoid M] (g : Fin 512 × Fin 512 → M) :
    ∑ s ∈ Finset.range 128, ∑ tt : Fin 2048, g (px (s * 2048 + tt.val)) = ∑ p : Fin 512 × Fin 512, g p := by
  have hL : ∑ s ∈ Finset.range 128, ∑ tt : Fin 2048, g (px (s * 2048 + tt.val))
      = ∑ k ∈ Finset.range (128 * 2048), g (px k) := by
    rw [Finset.sum_range, ← sum_pairs 128 2048 (fun k => g (px k)), Fintype.sum_prod_type]
  have hR : ∑ p : Fin 512 × Fin 512, g p = ∑ k ∈ Finset.range (512 * 512), g (px k) := by
    rw [← sum_pairs 512 512 (fun k => g (px k))]
    refine Fintype.sum_congr _ _ (fun p => congrArg g ?_)
    have h1 := p.1.isLt
    have h2 := p.2.isLt
    refine Prod.ext (Fin.ext ?_) (Fin.ext ?_)
    · show p.1.val = (p.1.val * 512 + p.2.val) / 512 % 512; omega
    · show p.2.val = (p.1.val * 512 + p.2.val) % 512; omega
  rw [hL, hR]

end Cert.KernelIdeal.Hand
-- ==== Proof.Ker.Array.lean ====
/- The kernel program's result array is the deposit map of the second argument: the second region repeats the first
   region's output over the channels, the first region's output block `b` is the accumulator after the last point of
   batch entry `b`, the accumulator there is the sum over the batch entry's 128 row blocks of 2048 source pixels, each
   read out of the reshaped argument, and the row blocks in order are the 512 x 512 source pixels. -/
import proofs.«180036_j3066606649874_2_alg».proof.Proof.Run
import proofs.«180036_j3066606649874_2_alg».proof.Proof.Spec
import proofs.«180036_j3066606649874_2_alg».proof.Proof.Ker.Acc
import proofs.«180036_j3066606649874_2_alg».proof.Proof.Ker.Block0
import proofs.«180036_j3066606649874_2_alg».proof.Proof.Ker.Array0
import proofs.«180036_j3066606649874_2_alg».proof.Proof.Ker.Array1
import proofs.«180036_j3066606649874_2_alg».proof.Proof.Ker.Reindex
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.Splat

variable (m : (ℓ : Loc nD τ sig) → Buf (Elt Ideal) ℓ) (ρ : Dev nD → PrngReg)

/-- The deposit of source pixel `p` of batch entry `b` of `x` on output pixel `(r, q)`. -/
def deposit (x : S8x512x512x2.Idx → EReal) (b : Fin 8) (r q : Fin 512) (p : Fin 512 × Fin 512) : EReal :=
  tent (coord (x (ix4 b p.1 p.2 (0 : Fin 2)))) (node r.val) * tent (coord (x (ix4 b p.1 p.2 (1 : Fin 2)))) (node q.val)

/-- The partial product of the point at row block `s` of batch entry `b` is the sum of the deposits of its 2048 source pixels. -/
theorem part_eq (c : Dev nD) (b : Fin 8) (r q : Fin 512) (s : ℕ) (hs : s < 128) :
    part (V1 m ρ) c r q (b.val * 128 + s)
      = ∑ tt : Fin 2048, deposit (m ((c : Thread nD τ).loc main_arg1)) b r q (px (s * 2048 + tt.val)) := by
  have hN : cfg0.N = 1024 := N_0
  have hb8 := b.isLt
  have hlt : b.val * 128 + s < cfg0.N := by omega
  rw [part_of_lt _ c r q _ hlt]
  refine Fintype.sum_congr _ _ (fun tt => ?_)
  have htt := tt.isLt
  have hb : b.val = (b.val * 128 + s) / 128 := by omega
  have hh : (px (s * 2048 + tt.val)).1.val = ((b.val * 128 + s) % 128 * 2048 + tt.val) / 512 := by rw [px_fst]; omega
  have hw : (px (s * 2048 + tt.val)).2.val = ((b.val * 128 + s) % 128 * 2048 + tt.val) % 512 := by rw [px_snd]; omega
  rw [iblk0_arg m ρ c ⟨b.val * 128 + s, hlt⟩ tt 0 b _ _ hb hh hw, iblk0_arg m ρ c ⟨b.val * 128 + s, hlt⟩ tt 1 b _ _ hb hh hw]
  rfl

/-- The result array read at an index. -/
theorem kernel_result_apply (c : Dev nD) (b : Fin 8) (ch : Fin 32) (r q : Fin 512) :
    ((dat1 (F := Ideal) (V2 m ρ) c).arrAt 1 cfg1.N : S8x32x512x512.Idx → Elt Ideal .f32) (ix4 b ch r q)
      = splat (m ((c : Thread nD τ).loc main_arg1)) b r q := by
  have hlast : b.val * 128 + 127 < cfg0.N := last_lt _ b.isLt
  calc ((dat1 (F := Ideal) (V2 m ρ) c).arrAt 1 cfg1.N : S8x32x512x512.Idx → Elt Ideal .f32) (ix4 b ch r q)
      = (V2 m ρ c main_v1 : S8x512x512.Idx → Elt Ideal .f32) (ix3 b r q) := array1 (V2 m ρ) c b ch r q
    _ = ((dat0 (V1 m ρ) c).arrAt 1 cfg0.N : S8x512x512.Idx → Elt Ideal .f32) (ix3 b r q) := congrFun (entry1_main_v1 m ρ c) _
    _ = accAt (V1 m ρ) c (b.val * 128 + 127) hlast (ix2 r q) := array0_apply (V1 m ρ) c b r q
    _ = ∑ s ∈ Finset.range 128, part (V1 m ρ) c r q (b.val * 128 + s) := accAt_last (V1 m ρ) c r q b.val hlast
    _ = ∑ s ∈ Finset.range 128, ∑ tt : Fin 2048, deposit (m ((c : Thread nD τ).loc main_arg1)) b r q (px (s * 2048 + tt.val)) :=
        Finset.sum_congr rfl (fun s hs => part_eq m ρ c b r q s (Finset.mem_range.mp hs))
    _ = ∑ p : Fin 512 × Fin 512, deposit (m ((c : Thread nD τ).loc main_arg1)) b r q p := sum_blocks _
    _ = splat (m ((c : Thread nD τ).loc main_arg1)) b r q := rfl

/-- The kernel program's result array is the specification's result of the second argument. -/
theorem kernel_result (c : Dev nD) :
    (dat1 (F := Ideal) (V2 m ρ) c).arrAt 1 cfg1.N = Cert.Splat.result (m ((c : Thread nD τ).loc main_arg1)) := by
  funext i
  have hi : (i : S8x32x512x512.Idx) = ix4 (i 0) (i 1) (i 2) (i 3) := eq_ix4 (n0 := 8) (n1 := 32) (n2 := 512) (n3 := 512) i
  rw [hi]
  exact kernel_result_apply m ρ c _ _ _ _

end Cert.KernelIdeal.Hand

end
-- ==== Proof.Pixel.lean ====
/-
  One source pixel against one output node, along one axis.

  A clamped coordinate `g = coord x` lies in `[0, 513]`, so it is a real number and its integer part
  `l = ⌊g⌋` (the conversion toward zero of a nonnegative number) lies in `[0, 513]`, with `l ≤ g < l + 1`.
  The two nodes the pixel deposits on are `l` and `l + 1`; on any other integer node `n` the distance
  `|g − n|` is at least one and the tent weight vanishes.  The integer words `l + 0` and `l + 1` never
  wrap, are distinct, and stay inside `[0, 515)`.
-/
import proofs.«180036_j3066606649874_2_alg».proof.Proof.Spec

noncomputable section

namespace Cert.Splat

open Idealize.ShloMosaic

/-- The integer word a coordinate converts to (toward zero; here the floor, the coordinate being nonnegative). -/
def cell (g : EReal) : BitVec 32 := Ideal.fptosi 32 g

theorem c0_eq : c0 = 0 := by
  simp [c0, Ideal.ofBits, Ideal.ieee]

theorem c1_eq : c1 = 1 := by
  simp [c1, Ideal.ofBits, Ideal.ieee, -EReal.coe_mul]; norm_num

theorem c513_eq : c513 = ((513 : ℝ) : EReal) := by
  simp [c513, Ideal.ofBits, Ideal.ieee, -EReal.coe_mul]; norm_num

/-- A clamped coordinate is a real number between 0 and 513. -/
theorem coord_real (x : EReal) : ∃ ρ : ℝ, coord x = (ρ : EReal) ∧ 0 ≤ ρ ∧ ρ ≤ 513 := by
  have h0 : (0 : EReal) ≤ coord x := by
    unfold coord
    rw [c0_eq, c513_eq]
    exact le_min (by exact_mod_cast (by norm_num : (0 : ℝ) ≤ 513)) (le_max_left _ _)
  have h1 : coord x ≤ ((513 : ℝ) : EReal) := by
    unfold coord
    rw [c513_eq]
    exact min_le_left _ _
  have hbot : coord x ≠ ⊥ := fun h => by rw [h] at h0; exact absurd h0 (by simp)
  have htop : coord x ≠ ⊤ := fun h => by rw [h] at h1; exact absurd h1 (by simp)
  refine ⟨(coord x).toReal, (EReal.coe_toReal htop hbot).symm, ?_, ?_⟩
  · have := EReal.toReal_le_toReal h0 (by simp) htop
    simpa using this
  · have := EReal.toReal_le_toReal h1 hbot (by simp)
    simpa using this

/-- The word of a clamped coordinate is its floor, a number between 0 and 513. -/
theorem cell_coord (x : EReal) : ∃ (ρ : ℝ) (n : ℕ), coord x = (ρ : EReal) ∧ n ≤ 513 ∧ ((n : ℤ) = ⌊ρ⌋) ∧ cell (coord x) = BitVec.ofNat 32 n := by
  obtain ⟨ρ, hρ, h0, h1⟩ := coord_real x
  have hf0 : 0 ≤ ⌊ρ⌋ := Int.floor_nonneg.mpr h0
  have hf1 : ⌊ρ⌋ ≤ 513 := by
    have : ⌊ρ⌋ ≤ ⌊(513 : ℝ)⌋ := Int.floor_le_floor h1
    simpa using this
  refine ⟨ρ, ⌊ρ⌋.toNat, hρ, by omega, by omega, ?_⟩
  rw [hρ]
  unfold cell Ideal.fptosi
  rw [Ideal.toIntClamped_coe]
  rw [if_pos h0]
  have : max (-((2 ^ (32 - 1) : ℕ) : ℤ)) (min (((2 ^ (32 - 1) : ℕ) : ℤ) - 1) ⌊ρ⌋) = ((⌊ρ⌋.toNat : ℕ) : ℤ) := by
    norm_num
    omega
  rw [this]
  exact BitVec.ofInt_natCast _ _

/-- The node words of a number up to 513 do not wrap. -/
theorem word_toInt (n : ℕ) (hn : n ≤ 513) (d : BitVec 32) (hd : d = 0#32 ∨ d = 1#32) :
    (BitVec.ofNat 32 n + d).toInt = (n : ℤ) + (d.toNat : ℤ) := by
  have hd' : d.toNat ≤ 1 := by rcases hd with rfl | rfl <;> decide
  have hnat : (BitVec.ofNat 32 n + d).toNat = n + d.toNat := by
    rw [BitVec.toNat_add, BitVec.toNat_ofNat]
    have : n % 2 ^ 32 = n := Nat.mod_eq_of_lt (by omega)
    rw [this]
    exact Nat.mod_eq_of_lt (by omega)
  rw [BitVec.toInt_eq_toNat_of_lt (by rw [hnat]; omega), hnat]
  push_cast
  rfl

/-- The node words are nonnegative: an index read signed never wraps around. -/
theorem word_nonneg (x : EReal) (d : BitVec 32) (hd : d = 0#32 ∨ d = 1#32) : 0 ≤ (cell (coord x) + d).toInt := by
  obtain ⟨ρ, n, -, hn, -, hc⟩ := cell_coord x
  rw [hc, word_toInt n hn d hd]
  omega

/-- The node words stay inside the bordered accumulator's extent. -/
theorem word_lt (x : EReal) (d : BitVec 32) (hd : d = 0#32 ∨ d = 1#32) : (cell (coord x) + d).toInt < 515 := by
  obtain ⟨ρ, n, -, hn, -, hc⟩ := cell_coord x
  have hd' : d.toNat ≤ 1 := by rcases hd with rfl | rfl <;> decide
  rw [hc, word_toInt n hn d hd]
  omega

/-- The two nodes of a pixel are different nodes. -/
theorem word_ne (x : EReal) : (cell (coord x) + 0#32).toInt ≠ (cell (coord x) + 1#32).toInt := by
  obtain ⟨ρ, n, -, hn, -, hc⟩ := cell_coord x
  rw [hc, word_toInt n hn _ (Or.inl rfl), word_toInt n hn _ (Or.inr rfl)]
  simp

/-- On the node a word names, the weight computed from the word is the tent weight of that output node. -/
theorem tent_word (x : EReal) (d : BitVec 32) (r : ℕ) (h : (cell (coord x) + d).toInt = (r : ℤ) + 1) :
    tent (coord x) ((((cell (coord x) + d).toInt : ℝ)) : EReal) = tent (coord x) (node r) := by
  rw [h]
  unfold node
  push_cast
  rfl

/-- The tent weight of a real coordinate on a real node, as a real number. -/
theorem tent_coe (ρ ν : ℝ) : tent (ρ : EReal) (ν : EReal) = ((max (1 - max (ρ - ν) (-(ρ - ν))) 0 : ℝ) : EReal) := by
  unfold tent
  rw [c1_eq, c0_eq]
  norm_cast

/-- An output node that is neither of the pixel's two nodes gets no weight from it. -/
theorem tent_off (x : EReal) (r : ℕ) (h0 : (cell (coord x) + 0#32).toInt ≠ (r : ℤ) + 1)
    (h1 : (cell (coord x) + 1#32).toInt ≠ (r : ℤ) + 1) : tent (coord x) (node r) = 0 := by
  obtain ⟨ρ, n, hρ, hn, hfl, hc⟩ := cell_coord x
  rw [hc, word_toInt n hn _ (Or.inl rfl)] at h0
  rw [hc, word_toInt n hn _ (Or.inr rfl)] at h1
  have e0 : ((0#32 : BitVec 32).toNat : ℤ) = 0 := rfl
  have e1 : ((1#32 : BitVec 32).toNat : ℤ) = 1 := rfl
  rw [e0] at h0
  rw [e1] at h1
  have hlo : ((n : ℤ) : ℝ) ≤ ρ := by rw [hfl]; exact Int.floor_le ρ
  have hhi : ρ < ((n : ℤ) : ℝ) + 1 := by rw [hfl]; exact Int.lt_floor_add_one ρ
  rw [hρ]
  unfold node
  rw [tent_coe]
  have key : 1 ≤ max (ρ - ((r + 1 : ℕ) : ℝ)) (-(ρ - ((r + 1 : ℕ) : ℝ))) := by
    rcases Nat.lt_or_ge n (r + 1) with hlt | hge
    · have hnr : n + 1 ≤ r := by omega
      have : ((n : ℤ) : ℝ) + 1 ≤ (r : ℝ) := by
        have : ((n + 1 : ℕ) : ℝ) ≤ (r : ℝ) := by exact_mod_cast hnr
        push_cast at this ⊢
        linarith
      refine le_max_of_le_right ?_
      push_cast
      linarith
    · have hnr : r + 2 ≤ n := by omega
      have : ((r : ℝ) + 2) ≤ ((n : ℤ) : ℝ) := by
        have : ((r + 2 : ℕ) : ℝ) ≤ (n : ℝ) := by exact_mod_cast hnr
        push_cast at this ⊢
        linarith
      refine le_max_of_le_left ?_
      push_cast
      linarith
  have : max (1 - max (ρ - ((r + 1 : ℕ) : ℝ)) (-(ρ - ((r + 1 : ℕ) : ℝ)))) 0 = (0 : ℝ) :=
    max_eq_right (by linarith)
  rw [this]
  rfl

end Cert.Splat

end
-- ==== Proof.Ref.Deposit.lean ====
/-
  One source pixel against one output node, on both axes at once.

  Along each axis a pixel names two distinct node words.  The four corner deposits of the pixel carry the
  products of the weights computed from those words, each placed on the node pair its words name.  Summed
  over the four corners, what lands on the node `(r + 1, c + 1)` is the product of the two tent weights of
  that node: a corner contributes only when both of its words name the node, at most one corner does, and
  when no word of an axis names the node the tent weight of that axis vanishes, and so does the product.
-/
import proofs.«180036_j3066606649874_2_alg».proof.Proof.Pixel

noncomputable section

open scoped BigOperators

namespace Cert.ReferenceIdeal.Hand

open Cert.Splat Idealize.ShloMosaic

/-- Four guarded products, at most one of them live, against the product they select.  No distributivity is
    used: only `0 + a = a`, `a + 0 = a`, `0 * a = 0` and `a * 0 = 0`. -/
theorem four_corners (pb p0 p1 q0 q1 : Prop) [Decidable pb] [Decidable p0] [Decidable p1] [Decidable q0] [Decidable q1]
    (A0 A1 B0 B1 A B : EReal) (hp : ¬(p0 ∧ p1)) (hq : ¬(q0 ∧ q1))
    (hA0 : p0 → A0 = A) (hA1 : p1 → A1 = A) (hA : ¬p0 → ¬p1 → A = 0)
    (hB0 : q0 → B0 = B) (hB1 : q1 → B1 = B) (hB : ¬q0 → ¬q1 → B = 0) :
    ((((if pb ∧ p0 ∧ q0 then A0 * B0 else 0) + (if pb ∧ p0 ∧ q1 then A0 * B1 else 0))
        + (if pb ∧ p1 ∧ q0 then A1 * B0 else 0)) + (if pb ∧ p1 ∧ q1 then A1 * B1 else 0))
      = if pb then A * B else 0 := by
  by_cases hb : pb
  · by_cases h0 : p0
    · have h1 : ¬p1 := fun h => hp ⟨h0, h⟩
      rw [hA0 h0]
      by_cases k0 : q0
      · have k1 : ¬q1 := fun h => hq ⟨k0, h⟩
        rw [hB0 k0]; simp [hb, h0, h1, k0, k1]
      · by_cases k1 : q1
        · rw [hB1 k1]; simp [hb, h0, h1, k0, k1]
        · rw [hB k0 k1]; simp [hb, h0, h1, k0, k1]
    · by_cases h1 : p1
      · rw [hA1 h1]
        by_cases k0 : q0
        · have k1 : ¬q1 := fun h => hq ⟨k0, h⟩
          rw [hB0 k0]; simp [hb, h0, h1, k0, k1]
        · by_cases k1 : q1
          · rw [hB1 k1]; simp [hb, h0, h1, k0, k1]
          · rw [hB k0 k1]; simp [hb, h0, h1, k0, k1]
      · rw [hA h0 h1]; simp [hb, h0, h1]
  · simp [hb]

/-- The weight a pixel's coordinate puts on the node its word names. -/
def wt (x : EReal) (d : BitVec 32) : EReal :=
  tent (coord x) ((((cell (coord x) + d).toInt : ℝ)) : EReal)

/-- The four corner deposits of a pixel with grid entries `(x, y)`, guarded by the batch condition `pb` and by
    landing on the node `(n, m) = (r + 1, c + 1)`, sum to the product of the node's two tent weights. -/
theorem deposit (pb : Prop) [Decidable pb] (x y : EReal) (r c : ℕ) (n m : ℤ) (hn : n = (r : ℤ) + 1) (hm : m = (c : ℤ) + 1) :
    ((((if pb ∧ (cell (coord x) + 0#32).toInt = n ∧ (cell (coord y) + 0#32).toInt = m then wt x 0#32 * wt y 0#32 else 0)
        + (if pb ∧ (cell (coord x) + 0#32).toInt = n ∧ (cell (coord y) + 1#32).toInt = m then wt x 0#32 * wt y 1#32 else 0))
        + (if pb ∧ (cell (coord x) + 1#32).toInt = n ∧ (cell (coord y) + 0#32).toInt = m then wt x 1#32 * wt y 0#32 else 0))
        + (if pb ∧ (cell (coord x) + 1#32).toInt = n ∧ (cell (coord y) + 1#32).toInt = m then wt x 1#32 * wt y 1#32 else 0))
      = if pb then tent (coord x) (node r) * tent (coord y) (node c) else 0 := by
  subst hn hm
  refine four_corners pb _ _ _ _ _ _ _ _ _ _ ?_ ?_ ?_ ?_ ?_ ?_ ?_ ?_
  · exact fun h => word_ne x (h.1.trans h.2.symm)
  · exact fun h => word_ne y (h.1.trans h.2.symm)
  · exact fun h => tent_word x 0#32 r h
  · exact fun h => tent_word x 1#32 r h
  · exact fun h0 h1 => tent_off x r h0 h1
  · exact fun h => tent_word y 0#32 c h
  · exact fun h => tent_word y 1#32 c h
  · exact fun h0 h1 => tent_off y c h0 h1

end Cert.ReferenceIdeal.Hand

end
-- ==== Proof.Ref.Coord.lean ====
/-
  The reference's two pixel coordinates, its eight tent weights and its eight node words, read at one
  source pixel `(b, h, w)`.

  The row coordinate of the pixel is `coord` of the grid entry `x (b, h, w, 0)`, the column coordinate is
  `coord` of `x (b, h, w, 1)`.  The node words are the integer part of the coordinate plus `0` or `1`, and
  each weight is the tent weight of the coordinate on the node its word names.
-/
import proofs.«180036_j3066606649874_2_alg».proof.Proof.Gen.ReferenceIdeal.Read
import proofs.«180036_j3066606649874_2_alg».proof.Proof.Ref.Deposit

noncomputable section

open scoped BigOperators

namespace Cert.ReferenceIdeal.Hand

open Cert.ReferenceIdeal Cert.ReferenceIdeal.Read Cert.Splat Idealize.ShloMosaic Idealize.ShloMosaic.ValueIdx

/-- The grid array: one extended real per `(b, h, w, axis)`. -/
abbrev Grid := (⟨S8x512x512x2, .f32⟩ : BufTy).Contents (Elt Ideal)

theorem idx_row (b : Fin 8) (h w : Fin 512) :
    idx_main_v4 (idx_main_v5 (ix3 b h w)) = ix4 b h w (0 : Fin 2) := by
  have hb := b.isLt; have hh := h.isLt; have hw := w.isLt
  funext a; apply Fin.ext
  match a with
  | ⟨0, _⟩ => show ((b.val * 512 + h.val) * 512 + w.val) / 262144 = b.val; omega
  | ⟨1, _⟩ => show ((b.val * 512 + h.val) * 512 + w.val) / 512 % 512 = h.val; omega
  | ⟨2, _⟩ => show ((b.val * 512 + h.val) * 512 + w.val) / 1 % 512 = w.val; omega
  | ⟨3, _⟩ => rfl

/-- The row coordinate of source pixel `(b, h, w)`. -/
theorem gi_at (x1 : Grid) (b : Fin 8) (h w : Fin 512) :
    val_main_v10 (F := Ideal) x1 (ix3 b h w) = coord (x1 (ix4 b h w (0 : Fin 2))) := by
  rw [val_main_v10_apply, val_main_call0_v4_apply, val_main_call0_v3_apply, val_main_cst_4_apply,
    val_main_call0_v2_apply, val_main_call0_v1_apply, val_main_call0_v0_apply, val_main_cst_3_apply,
    val_main_v9_apply, val_main_v7_apply, val_main_v8_apply, val_main_cst_2_apply, val_main_v5_apply,
    val_main_v4_apply, val_main_v3_apply, val_main_v1_apply, val_main_v0_apply, val_main_cst_apply,
    val_main_v2_apply, val_main_cst_0_apply, val_main_v6_apply, val_main_cst_1_apply, idx_row]
  rfl

theorem idx_col (b : Fin 8) (h w : Fin 512) :
    idx_main_v11 (idx_main_v12 (ix3 b h w)) = ix4 b h w (1 : Fin 2) := by
  have hb := b.isLt; have hh := h.isLt; have hw := w.isLt
  funext a; apply Fin.ext
  match a with
  | ⟨0, _⟩ => show ((b.val * 512 + h.val) * 512 + w.val) / 262144 = b.val; omega
  | ⟨1, _⟩ => show ((b.val * 512 + h.val) * 512 + w.val) / 512 % 512 = h.val; omega
  | ⟨2, _⟩ => show ((b.val * 512 + h.val) * 512 + w.val) / 1 % 512 = w.val; omega
  | ⟨3, _⟩ => rfl

/-- The column coordinate of source pixel `(b, h, w)`. -/
theorem gj_at (x1 : Grid) (b : Fin 8) (h w : Fin 512) :
    val_main_v17 (F := Ideal) x1 (ix3 b h w) = coord (x1 (ix4 b h w (1 : Fin 2))) := by
  rw [val_main_v17_apply, val_main_call1_v4_apply, val_main_call1_v3_apply, val_main_cst_8_apply, val_main_call1_v2_apply, val_main_call1_v1_apply, val_main_call1_v0_apply, val_main_cst_7_apply, val_main_v16_apply, val_main_v14_apply, val_main_v15_apply, val_main_cst_6_apply, val_main_v12_apply, val_main_v11_apply, val_main_v3_apply, val_main_v1_apply, val_main_v0_apply, val_main_cst_apply, val_main_v2_apply, val_main_cst_0_apply, val_main_v13_apply, val_main_cst_5_apply, idx_col]
  rfl

/-- The row weight on the lower node. -/
theorem wi0_at (x1 : Grid) (b : Fin 8) (h w : Fin 512) :
    val_main_v30 (F := Ideal) x1 (ix3 b h w) = wt (x1 (ix4 b h w (0 : Fin 2))) 0#32 := by
  rw [val_main_v30_apply, val_main_v29_apply, val_main_v28_apply, val_main_cst_10_apply, val_main_v27_apply, val_main_v26_apply, val_main_v25_apply, val_main_v24_apply, val_main_v18_apply, val_main_v23_apply, val_main_c_apply, val_main_call2_v0_apply, val_main_call2_cst_apply, gi_at]
  rfl

/-- The column weight on the lower node (first corner). -/
theorem wj0_at (x1 : Grid) (b : Fin 8) (h w : Fin 512) :
    val_main_v38 (F := Ideal) x1 (ix3 b h w) = wt (x1 (ix4 b h w (1 : Fin 2))) 0#32 := by
  rw [val_main_v38_apply, val_main_v37_apply, val_main_v36_apply, val_main_cst_12_apply, val_main_v35_apply, val_main_v34_apply, val_main_v33_apply, val_main_v32_apply, val_main_v19_apply, val_main_v31_apply, val_main_c_11_apply, val_main_call3_v0_apply, val_main_call3_cst_apply, gj_at]
  rfl

/-- The column weight on the upper node (second corner). -/
theorem wj1_at (x1 : Grid) (b : Fin 8) (h w : Fin 512) :
    val_main_v72 (F := Ideal) x1 (ix3 b h w) = wt (x1 (ix4 b h w (1 : Fin 2))) 1#32 := by
  rw [val_main_v72_apply, val_main_v71_apply, val_main_v70_apply, val_main_cst_22_apply, val_main_v69_apply, val_main_v68_apply, val_main_v67_apply, val_main_v66_apply, val_main_v19_apply, val_main_v65_apply, val_main_c_21_apply, val_main_call4_v0_apply, val_main_call4_cst_apply, gj_at]
  rfl

/-- The row weight on the upper node. -/
theorem wi1_at (x1 : Grid) (b : Fin 8) (h w : Fin 512) :
    val_main_v106 (F := Ideal) x1 (ix3 b h w) = wt (x1 (ix4 b h w (0 : Fin 2))) 1#32 := by
  rw [val_main_v106_apply, val_main_v105_apply, val_main_v104_apply, val_main_cst_32_apply, val_main_v103_apply, val_main_v102_apply, val_main_v101_apply, val_main_v100_apply, val_main_v18_apply, val_main_v99_apply, val_main_c_31_apply, val_main_call5_v0_apply, val_main_call5_cst_apply, gi_at]
  rfl

/-- The column weight on the lower node (third corner). -/
theorem wj0'_at (x1 : Grid) (b : Fin 8) (h w : Fin 512) :
    val_main_v114 (F := Ideal) x1 (ix3 b h w) = wt (x1 (ix4 b h w (1 : Fin 2))) 0#32 := by
  rw [val_main_v114_apply, val_main_v113_apply, val_main_v112_apply, val_main_cst_34_apply, val_main_v111_apply, val_main_v110_apply, val_main_v109_apply, val_main_v108_apply, val_main_v19_apply, val_main_v107_apply, val_main_c_33_apply, val_main_call6_v0_apply, val_main_call6_cst_apply, gj_at]
  rfl

/-- The column weight on the upper node (fourth corner). -/
theorem wj1'_at (x1 : Grid) (b : Fin 8) (h w : Fin 512) :
    val_main_v148 (F := Ideal) x1 (ix3 b h w) = wt (x1 (ix4 b h w (1 : Fin 2))) 1#32 := by
  rw [val_main_v148_apply, val_main_v147_apply, val_main_v146_apply, val_main_cst_44_apply, val_main_v145_apply, val_main_v144_apply, val_main_v143_apply, val_main_v142_apply, val_main_v19_apply, val_main_v141_apply, val_main_c_43_apply, val_main_call7_v0_apply, val_main_call7_cst_apply, gj_at]
  rfl

/-- First corner, row word. -/
theorem row1_at (x1 : Grid) (b : Fin 8) (h w : Fin 512) :
    val_main_v40 (F := Ideal) x1 (ix3 b h w) = cell (coord (x1 (ix4 b h w (0 : Fin 2)))) + 0#32 := by
  rw [val_main_v40_apply, val_main_v18_apply, val_main_v39_apply, val_main_c_13_apply, gi_at]
  rfl

/-- First corner, column word. -/
theorem col1_at (x1 : Grid) (b : Fin 8) (h w : Fin 512) :
    val_main_v42 (F := Ideal) x1 (ix3 b h w) = cell (coord (x1 (ix4 b h w (1 : Fin 2)))) + 0#32 := by
  rw [val_main_v42_apply, val_main_v19_apply, val_main_v41_apply, val_main_c_14_apply, gj_at]
  rfl

/-- Second corner, row word. -/
theorem row2_at (x1 : Grid) (b : Fin 8) (h w : Fin 512) :
    val_main_v74 (F := Ideal) x1 (ix3 b h w) = cell (coord (x1 (ix4 b h w (0 : Fin 2)))) + 0#32 := by
  rw [val_main_v74_apply, val_main_v18_apply, val_main_v73_apply, val_main_c_23_apply, gi_at]
  rfl

/-- Second corner, column word. -/
theorem col2_at (x1 : Grid) (b : Fin 8) (h w : Fin 512) :
    val_main_v76 (F := Ideal) x1 (ix3 b h w) = cell (coord (x1 (ix4 b h w (1 : Fin 2)))) + 1#32 := by
  rw [val_main_v76_apply, val_main_v19_apply, val_main_v75_apply, val_main_c_24_apply, gj_at]
  rfl

/-- Third corner, row word. -/
theorem row3_at (x1 : Grid) (b : Fin 8) (h w : Fin 512) :
    val_main_v116 (F := Ideal) x1 (ix3 b h w) = cell (coord (x1 (ix4 b h w (0 : Fin 2)))) + 1#32 := by
  rw [val_main_v116_apply, val_main_v18_apply, val_main_v115_apply, val_main_c_35_apply, gi_at]
  rfl

/-- Third corner, column word. -/
theorem col3_at (x1 : Grid) (b : Fin 8) (h w : Fin 512) :
    val_main_v118 (F := Ideal) x1 (ix3 b h w) = cell (coord (x1 (ix4 b h w (1 : Fin 2)))) + 0#32 := by
  rw [val_main_v118_apply, val_main_v19_apply, val_main_v117_apply, val_main_c_36_apply, gj_at]
  rfl

/-- Fourth corner, row word. -/
theorem row4_at (x1 : Grid) (b : Fin 8) (h w : Fin 512) :
    val_main_v150 (F := Ideal) x1 (ix3 b h w) = cell (coord (x1 (ix4 b h w (0 : Fin 2)))) + 1#32 := by
  rw [val_main_v150_apply, val_main_v18_apply, val_main_v149_apply, val_main_c_45_apply, gi_at]
  rfl

/-- Fourth corner, column word. -/
theorem col4_at (x1 : Grid) (b : Fin 8) (h w : Fin 512) :
    val_main_v152 (F := Ideal) x1 (ix3 b h w) = cell (coord (x1 (ix4 b h w (1 : Fin 2)))) + 1#32 := by
  rw [val_main_v152_apply, val_main_v19_apply, val_main_v151_apply, val_main_c_46_apply, gj_at]
  rfl

/-- First corner's deposit. -/
theorem upd1_at (x1 : Grid) (b : Fin 8) (h w : Fin 512) :
    val_main_v43 (F := Ideal) x1 (ix3 b h w)
      = wt (x1 (ix4 b h w (0 : Fin 2))) 0#32 * wt (x1 (ix4 b h w (1 : Fin 2))) 0#32 := by
  rw [val_main_v43_apply, wi0_at, wj0_at]
  rfl

/-- Second corner's deposit. -/
theorem upd2_at (x1 : Grid) (b : Fin 8) (h w : Fin 512) :
    val_main_v77 (F := Ideal) x1 (ix3 b h w)
      = wt (x1 (ix4 b h w (0 : Fin 2))) 0#32 * wt (x1 (ix4 b h w (1 : Fin 2))) 1#32 := by
  rw [val_main_v77_apply, wi0_at, wj1_at]
  rfl

/-- Third corner's deposit. -/
theorem upd3_at (x1 : Grid) (b : Fin 8) (h w : Fin 512) :
    val_main_v119 (F := Ideal) x1 (ix3 b h w)
      = wt (x1 (ix4 b h w (0 : Fin 2))) 1#32 * wt (x1 (ix4 b h w (1 : Fin 2))) 0#32 := by
  rw [val_main_v119_apply, wi1_at, wj0'_at]
  rfl

/-- Fourth corner's deposit. -/
theorem upd4_at (x1 : Grid) (b : Fin 8) (h w : Fin 512) :
    val_main_v153 (F := Ideal) x1 (ix3 b h w)
      = wt (x1 (ix4 b h w (0 : Fin 2))) 1#32 * wt (x1 (ix4 b h w (1 : Fin 2))) 1#32 := by
  rw [val_main_v153_apply, wi1_at, wj1'_at]
  rfl

end Cert.ReferenceIdeal.Hand

end
-- ==== Proof.Ref.Landing.lean ====
/-
  Where each of the reference's four accumulating scatters lands an update.

  The reference adds the four corner weights of a bilinear splat into an accumulator of shape [8, 515, 515]:
  `acc[b, li + di, lj + dj] += w` for (di, dj) in (0,0), (0,1), (1,0), (1,1). Each scatter reads its target from an
  index tensor of shape [8, 512, 512, 3] whose three components at update `j = (b, y, x)` are the batch number `b`,
  a row word and a column word, each passed through the wrap `w ↦ if w < 0 then w + size else w` of a negative
  index. The scatter has no window axes: update `j` lands at the accumulator index whose three coordinates are
  the three components read as signed integers, when every one of them is inside the accumulator, and is dropped
  otherwise.

  Here: with the row and column words in [0, 515) the wraps are the identity, the batch component is `b` itself
  (a number below 8 is not negative as a 32-bit word), so update `j` lands at `i` exactly when `i = (b, row, column)`.
  One lemma over an arbitrary index tensor (`landing_core`), the three components of a joined tensor read at an
  index (`cat_read0` … `cat_read2`), and the four instances `landing1` … `landing4`.
-/
import proofs.«180036_j3066606649874_2_alg».proof.Proof.Gen.ReferenceIdeal.Read
import Idealize.ShloMosaic.Lib.ValueIdx
import Idealize.ShloMosaic.Lib.ValueIdxCoords

noncomputable section

namespace Cert.ReferenceIdeal.Hand

open Cert.ReferenceIdeal Cert.ReferenceIdeal.Read Idealize.ShloMosaic Idealize.ShloMosaic.ValueIdx

/-! ## The scatter's start indices and window over an arbitrary index tensor -/

/-- The scatter's dimension numbers: no window axes, all three accumulator axes inserted, component `k` of the
    index vector (axis 3 of the index tensor) is the start on accumulator axis `k`. -/
abbrev sd := scatter_S8x515x515_S8x512x512x3_S8x512x512_n_012_012_3

/-- Component `k` of update `(a, b, c)`'s start index is read at `(a, b, c, k)` of the index tensor. -/
theorem sd_siIdx (a : Fin 8) (b c : Fin 512) (k : Fin 3) (h : k.val < sd.scatterDimsToOperandDims.length) :
    sd.siIdx (ix3 a b c : S8x512x512.Idx) ⟨k.val, h⟩ = (ix4 a b c k : S8x512x512x3.Idx) := by
  funext e
  match e with
  | ⟨0, _⟩ => rfl
  | ⟨1, _⟩ => rfl
  | ⟨2, _⟩ => rfl
  | ⟨3, _⟩ => rfl

/-- The start on the batch axis is component 0 of the index vector, read signed. -/
theorem sd_start0 (a : Fin 8) (b c : Fin 512) (idx : IVec S8x512x512x3 32) :
    sd.start (ix3 a b c : S8x512x512.Idx) idx 0 = (idx (ix4 a b c (0 : Fin 3))).toInt := by
  unfold ScatterDims.start
  rw [dif_pos (by decide)]
  congr 2
  exact sd_siIdx a b c 0 _

/-- The start on the row axis is component 1 of the index vector, read signed. -/
theorem sd_start1 (a : Fin 8) (b c : Fin 512) (idx : IVec S8x512x512x3 32) :
    sd.start (ix3 a b c : S8x512x512.Idx) idx 1 = (idx (ix4 a b c (1 : Fin 3))).toInt := by
  unfold ScatterDims.start
  rw [dif_pos (by decide)]
  congr 2
  exact sd_siIdx a b c 1 _

/-- The start on the column axis is component 2 of the index vector, read signed. -/
theorem sd_start2 (a : Fin 8) (b c : Fin 512) (idx : IVec S8x512x512x3 32) :
    sd.start (ix3 a b c : S8x512x512.Idx) idx 2 = (idx (ix4 a b c (2 : Fin 3))).toInt := by
  unfold ScatterDims.start
  rw [dif_pos (by decide)]
  congr 2
  exact sd_siIdx a b c 2 _

/-- Every accumulator axis is an inserted one: the window coordinate is 0 on each. -/
theorem sd_window (j : S8x512x512.Idx) (a : Fin S8x515x515.rank) : sd.window j a = 0 := by
  unfold ScatterDims.window
  rw [dif_neg (by revert a; decide)]

/-! ## Landing over an arbitrary index tensor -/

/-- Update `(a, b, c)` of a scatter whose index vector there is (a word that reads `a`, `r`, `cw`), with `r` and `cw`
    in [0, 515), lands at `i` exactly when `i = (a, r, cw)`. -/
theorem landing_core (idx : IVec S8x512x512x3 32) (a : Fin 8) (b c : Fin 512) (i : S8x515x515.Idx)
    (r cw : BitVec 32)
    (h0 : (idx (ix4 a b c (0 : Fin 3))).toInt = (a.val : ℤ))
    (h1 : idx (ix4 a b c (1 : Fin 3)) = r) (h2 : idx (ix4 a b c (2 : Fin 3)) = cw)
    (hr : 0 ≤ r.toInt ∧ r.toInt < 515) (hc : 0 ≤ cw.toInt ∧ cw.toInt < 515) :
    sd.resultIdx? (ix3 a b c : S8x512x512.Idx) idx = some i ↔
      (a.val = (i 0).val ∧ r.toInt = ((i 1).val : ℤ) ∧ cw.toInt = ((i 2).val : ℤ)) := by
  have s0 : sd.start (ix3 a b c : S8x512x512.Idx) idx 0 + ((sd.window (ix3 a b c : S8x512x512.Idx) 0 : ℕ) : ℤ) = (a.val : ℤ) := by
    rw [sd_start0, sd_window, h0]; simp
  have s1 : sd.start (ix3 a b c : S8x512x512.Idx) idx 1 + ((sd.window (ix3 a b c : S8x512x512.Idx) 1 : ℕ) : ℤ) = r.toInt := by
    rw [sd_start1, sd_window, h1]; simp
  have s2 : sd.start (ix3 a b c : S8x512x512.Idx) idx 2 + ((sd.window (ix3 a b c : S8x512x512.Idx) 2 : ℕ) : ℤ) = cw.toInt := by
    rw [sd_start2, sd_window, h2]; simp
  have hall : ∀ e : Fin S8x515x515.rank,
      0 ≤ sd.start (ix3 a b c : S8x512x512.Idx) idx e + ((sd.window (ix3 a b c : S8x512x512.Idx) e : ℕ) : ℤ) ∧
      sd.start (ix3 a b c : S8x512x512.Idx) idx e + ((sd.window (ix3 a b c : S8x512x512.Idx) e : ℕ) : ℤ) < ((S8x515x515.size e : ℕ) : ℤ) := by
    intro e
    match e with
    | ⟨0, _⟩ =>
      show 0 ≤ sd.start (ix3 a b c : S8x512x512.Idx) idx 0 + ((sd.window (ix3 a b c : S8x512x512.Idx) 0 : ℕ) : ℤ) ∧
        sd.start (ix3 a b c : S8x512x512.Idx) idx 0 + ((sd.window (ix3 a b c : S8x512x512.Idx) 0 : ℕ) : ℤ) < ((8 : ℕ) : ℤ)
      rw [s0]; have := a.isLt; omega
    | ⟨1, _⟩ =>
      show 0 ≤ sd.start (ix3 a b c : S8x512x512.Idx) idx 1 + ((sd.window (ix3 a b c : S8x512x512.Idx) 1 : ℕ) : ℤ) ∧
        sd.start (ix3 a b c : S8x512x512.Idx) idx 1 + ((sd.window (ix3 a b c : S8x512x512.Idx) 1 : ℕ) : ℤ) < ((515 : ℕ) : ℤ)
      rw [s1]; omega
    | ⟨2, _⟩ =>
      show 0 ≤ sd.start (ix3 a b c : S8x512x512.Idx) idx 2 + ((sd.window (ix3 a b c : S8x512x512.Idx) 2 : ℕ) : ℤ) ∧
        sd.start (ix3 a b c : S8x512x512.Idx) idx 2 + ((sd.window (ix3 a b c : S8x512x512.Idx) 2 : ℕ) : ℤ) < ((515 : ℕ) : ℤ)
      rw [s2]; omega
  unfold ScatterDims.resultIdx?
  rw [dif_pos hall, Option.some.injEq]
  constructor
  · intro h
    subst h
    refine ⟨?_, ?_, ?_⟩
    · show a.val = (sd.start (ix3 a b c : S8x512x512.Idx) idx 0 + ((sd.window (ix3 a b c : S8x512x512.Idx) 0 : ℕ) : ℤ)).toNat
      rw [s0]; simp
    · show r.toInt = (((sd.start (ix3 a b c : S8x512x512.Idx) idx 1 + ((sd.window (ix3 a b c : S8x512x512.Idx) 1 : ℕ) : ℤ)).toNat : ℕ) : ℤ)
      rw [s1]; omega
    · show cw.toInt = (((sd.start (ix3 a b c : S8x512x512.Idx) idx 2 + ((sd.window (ix3 a b c : S8x512x512.Idx) 2 : ℕ) : ℤ)).toNat : ℕ) : ℤ)
      rw [s2]; omega
  · rintro ⟨e0, e1, e2⟩
    funext e
    match e with
    | ⟨0, _⟩ =>
      apply Fin.ext
      show (sd.start (ix3 a b c : S8x512x512.Idx) idx 0 + ((sd.window (ix3 a b c : S8x512x512.Idx) 0 : ℕ) : ℤ)).toNat = (i 0).val
      rw [s0]; simpa using e0
    | ⟨1, _⟩ =>
      apply Fin.ext
      show (sd.start (ix3 a b c : S8x512x512.Idx) idx 1 + ((sd.window (ix3 a b c : S8x512x512.Idx) 1 : ℕ) : ℤ)).toNat = (i 1).val
      rw [s1]; omega
    | ⟨2, _⟩ =>
      apply Fin.ext
      show (sd.start (ix3 a b c : S8x512x512.Idx) idx 2 + ((sd.window (ix3 a b c : S8x512x512.Idx) 2 : ℕ) : ℤ)).toNat = (i 2).val
      rw [s2]; omega

/-! ## A joined index tensor read at an index, and the negative-index wrap -/

/-- Component 0 of three [8, 512, 512, 1] tensors joined along the last axis is the first tensor. -/
theorem cat_read0 (X0 X1 X2 : S8x512x512x1.Idx → BitVec 32)
    (h : Shape.Concatenates (([⟨S8x512x512x1, X0⟩, ⟨S8x512x512x1, X1⟩, ⟨S8x512x512x1, X2⟩] :
      List ((s : Shape) × (s.Idx → BitVec 32))).map (·.1)) S8x512x512x3 3)
    (a : Fin 8) (b c : Fin 512) :
    concatenate S8x512x512x3 3 [⟨S8x512x512x1, X0⟩, ⟨S8x512x512x1, X1⟩, ⟨S8x512x512x1, X2⟩] h (ix4 a b c (0 : Fin 3))
      = X0 (ix4 a b c (0 : Fin 1)) := by
  refine concatenate_apply_piece (3 : Fin S8x512x512x3.rank) _ h (ix4 a b c (0 : Fin 3) : S8x512x512x3.Idx) 0 (by simp)
    S8x512x512x1 X0 rfl rfl 0 rfl (ix4 a b c (0 : Fin 1) : S8x512x512x1.Idx) ?_ rfl
  intro e
  match e with
  | ⟨0, _⟩ => exact fun _ => rfl
  | ⟨1, _⟩ => exact fun _ => rfl
  | ⟨2, _⟩ => exact fun _ => rfl
  | ⟨3, _⟩ => exact fun h => absurd rfl h

/-- Component 1 of three [8, 512, 512, 1] tensors joined along the last axis is the second tensor. -/
theorem cat_read1 (X0 X1 X2 : S8x512x512x1.Idx → BitVec 32)
    (h : Shape.Concatenates (([⟨S8x512x512x1, X0⟩, ⟨S8x512x512x1, X1⟩, ⟨S8x512x512x1, X2⟩] :
      List ((s : Shape) × (s.Idx → BitVec 32))).map (·.1)) S8x512x512x3 3)
    (a : Fin 8) (b c : Fin 512) :
    concatenate S8x512x512x3 3 [⟨S8x512x512x1, X0⟩, ⟨S8x512x512x1, X1⟩, ⟨S8x512x512x1, X2⟩] h (ix4 a b c (1 : Fin 3))
      = X1 (ix4 a b c (0 : Fin 1)) := by
  refine concatenate_apply_piece (3 : Fin S8x512x512x3.rank) _ h (ix4 a b c (1 : Fin 3) : S8x512x512x3.Idx) 1 (by simp)
    S8x512x512x1 X1 rfl rfl 1 rfl (ix4 a b c (0 : Fin 1) : S8x512x512x1.Idx) ?_ rfl
  intro e
  match e with
  | ⟨0, _⟩ => exact fun _ => rfl
  | ⟨1, _⟩ => exact fun _ => rfl
  | ⟨2, _⟩ => exact fun _ => rfl
  | ⟨3, _⟩ => exact fun h => absurd rfl h

/-- Component 2 of three [8, 512, 512, 1] tensors joined along the last axis is the third tensor. -/
theorem cat_read2 (X0 X1 X2 : S8x512x512x1.Idx → BitVec 32)
    (h : Shape.Concatenates (([⟨S8x512x512x1, X0⟩, ⟨S8x512x512x1, X1⟩, ⟨S8x512x512x1, X2⟩] :
      List ((s : Shape) × (s.Idx → BitVec 32))).map (·.1)) S8x512x512x3 3)
    (a : Fin 8) (b c : Fin 512) :
    concatenate S8x512x512x3 3 [⟨S8x512x512x1, X0⟩, ⟨S8x512x512x1, X1⟩, ⟨S8x512x512x1, X2⟩] h (ix4 a b c (2 : Fin 3))
      = X2 (ix4 a b c (0 : Fin 1)) := by
  refine concatenate_apply_piece (3 : Fin S8x512x512x3.rank) _ h (ix4 a b c (2 : Fin 3) : S8x512x512x3.Idx) 2 (by simp)
    S8x512x512x1 X2 rfl rfl 2 rfl (ix4 a b c (0 : Fin 1) : S8x512x512x1.Idx) ?_ rfl
  intro e
  match e with
  | ⟨0, _⟩ => exact fun _ => rfl
  | ⟨1, _⟩ => exact fun _ => rfl
  | ⟨2, _⟩ => exact fun _ => rfl
  | ⟨3, _⟩ => exact fun h => absurd rfl h

/-- A batch number below 8 as a 32-bit word is not negative: its wrap `if w < 0 then w + 8 else w` reads the number. -/
theorem batch_word : ∀ a : Fin 8,
    (Scalar.select (IntOp.cmpi .slt (BitVec.ofNat 32 a.val) 0#32) (IntOp.addi (BitVec.ofNat 32 a.val) 8#32)
      (BitVec.ofNat 32 a.val)).toInt = (a.val : ℤ) := by
  decide

/-- The wrap `if w < 0 then y else w` of a word that is not negative is the word. -/
theorem wrap_eq (w y : BitVec 32) (h : 0 ≤ w.toInt) :
    Scalar.select (IntOp.cmpi .slt w 0#32) y w = w := by
  unfold Scalar.select IntOp.cmpi
  have hs : w.slt 0#32 = false := by
    rw [BitVec.slt]
    simp only [BitVec.toInt_zero]
    exact decide_eq_false (by omega)
  simp [hs]

/-! ## The four scatters -/

/-! ### Scatter 1: the index tensor read at its three components -/

/-- The batch component of scatter 1's index tensor is the batch number. -/
theorem batch1 (a : Fin 8) (b c : Fin 512) :
    (val_main_v60 (F := Ideal) (ix4 a b c (0 : Fin 1))).toInt = (a.val : ℤ) := by
  rw [val_main_v60_apply, val_main_v59_apply, val_main_v48_apply, val_main_v45_apply, val_main_v47_apply,
    val_main_v21_apply, val_main_v44_apply, val_main_c_15_apply, val_main_v46_apply, val_main_c_16_apply, val_main_v20_apply]
  exact batch_word a

/-- The row component of scatter 1's index tensor is the row word when that is not negative. -/
theorem row1 (x1 : (⟨S8x512x512x2, .f32⟩ : BufTy).Contents (Elt Ideal)) (a : Fin 8) (b c : Fin 512)
    (h : 0 ≤ (val_main_v40 (F := Ideal) x1 (ix3 a b c)).toInt) :
    val_main_v61 (F := Ideal) x1 (ix4 a b c (0 : Fin 1)) = val_main_v40 (F := Ideal) x1 (ix3 a b c) := by
  have e : idx_main_v61 (ix4 a b c (0 : Fin 1) : S8x512x512x1.Idx) = (ix3 a b c : S8x512x512.Idx) := by
    funext d
    match d with
    | ⟨0, _⟩ => rfl
    | ⟨1, _⟩ => rfl
    | ⟨2, _⟩ => rfl
  rw [val_main_v61_apply, e, val_main_v53_apply, val_main_v50_apply, val_main_v49_apply, val_main_c_17_apply]
  exact wrap_eq _ _ h

/-- The column component of scatter 1's index tensor is the column word when that is not negative. -/
theorem col1 (x1 : (⟨S8x512x512x2, .f32⟩ : BufTy).Contents (Elt Ideal)) (a : Fin 8) (b c : Fin 512)
    (h : 0 ≤ (val_main_v42 (F := Ideal) x1 (ix3 a b c)).toInt) :
    val_main_v62 (F := Ideal) x1 (ix4 a b c (0 : Fin 1)) = val_main_v42 (F := Ideal) x1 (ix3 a b c) := by
  have e : idx_main_v62 (ix4 a b c (0 : Fin 1) : S8x512x512x1.Idx) = (ix3 a b c : S8x512x512.Idx) := by
    funext d
    match d with
    | ⟨0, _⟩ => rfl
    | ⟨1, _⟩ => rfl
    | ⟨2, _⟩ => rfl
  rw [val_main_v62_apply, e, val_main_v58_apply, val_main_v55_apply, val_main_v54_apply, val_main_c_19_apply]
  exact wrap_eq _ _ h

/-- Where scatter 1 lands update `j`: batch `j 0`, row and column the two words, when these are inside the
    accumulator. -/
theorem landing1 (x1 : (⟨S8x512x512x2, .f32⟩ : BufTy).Contents (Elt Ideal)) (j : S8x512x512.Idx) (i : S8x515x515.Idx)
    (hr : 0 ≤ (val_main_v40 (F := Ideal) x1 j).toInt ∧ (val_main_v40 (F := Ideal) x1 j).toInt < 515)
    (hc : 0 ≤ (val_main_v42 (F := Ideal) x1 j).toInt ∧ (val_main_v42 (F := Ideal) x1 j).toInt < 515) :
    scatter_S8x515x515_S8x512x512x3_S8x512x512_n_012_012_3.resultIdx? j (val_main_v63 (F := Ideal) x1) = some i
      ↔ ((j 0).val = (i 0).val ∧ (val_main_v40 (F := Ideal) x1 j).toInt = ((i 1).val : ℤ) ∧ (val_main_v42 (F := Ideal) x1 j).toInt = ((i 2).val : ℤ)) := by
  obtain ⟨a, b, c, rfl⟩ : ∃ (a : Fin 8) (b c : Fin 512), j = ix3 a b c := ⟨j 0, j 1, j 2, eq_ix3 j⟩
  refine landing_core (val_main_v63 (F := Ideal) x1) a b c i _ _ ?_ ?_ ?_ hr hc
  · exact (congrArg BitVec.toInt (cat_read0 _ _ _ _ a b c)).trans (batch1 a b c)
  · exact (cat_read1 _ _ _ _ a b c).trans (row1 x1 a b c hr.1)
  · exact (cat_read2 _ _ _ _ a b c).trans (col1 x1 a b c hc.1)

/-! ### Scatter 2: the index tensor read at its three components -/

/-- The batch component of scatter 2's index tensor is the batch number. -/
theorem batch2 (a : Fin 8) (b c : Fin 512) :
    (val_main_v94 (F := Ideal) (ix4 a b c (0 : Fin 1))).toInt = (a.val : ℤ) := by
  rw [val_main_v94_apply, val_main_v93_apply, val_main_v82_apply, val_main_v79_apply, val_main_v81_apply,
    val_main_v21_apply, val_main_v78_apply, val_main_c_25_apply, val_main_v80_apply, val_main_c_26_apply, val_main_v20_apply]
  exact batch_word a

/-- The row component of scatter 2's index tensor is the row word when that is not negative. -/
theorem row2 (x1 : (⟨S8x512x512x2, .f32⟩ : BufTy).Contents (Elt Ideal)) (a : Fin 8) (b c : Fin 512)
    (h : 0 ≤ (val_main_v74 (F := Ideal) x1 (ix3 a b c)).toInt) :
    val_main_v95 (F := Ideal) x1 (ix4 a b c (0 : Fin 1)) = val_main_v74 (F := Ideal) x1 (ix3 a b c) := by
  have e : idx_main_v95 (ix4 a b c (0 : Fin 1) : S8x512x512x1.Idx) = (ix3 a b c : S8x512x512.Idx) := by
    funext d
    match d with
    | ⟨0, _⟩ => rfl
    | ⟨1, _⟩ => rfl
    | ⟨2, _⟩ => rfl
  rw [val_main_v95_apply, e, val_main_v87_apply, val_main_v84_apply, val_main_v83_apply, val_main_c_27_apply]
  exact wrap_eq _ _ h

/-- The column component of scatter 2's index tensor is the column word when that is not negative. -/
theorem col2 (x1 : (⟨S8x512x512x2, .f32⟩ : BufTy).Contents (Elt Ideal)) (a : Fin 8) (b c : Fin 512)
    (h : 0 ≤ (val_main_v76 (F := Ideal) x1 (ix3 a b c)).toInt) :
    val_main_v96 (F := Ideal) x1 (ix4 a b c (0 : Fin 1)) = val_main_v76 (F := Ideal) x1 (ix3 a b c) := by
  have e : idx_main_v96 (ix4 a b c (0 : Fin 1) : S8x512x512x1.Idx) = (ix3 a b c : S8x512x512.Idx) := by
    funext d
    match d with
    | ⟨0, _⟩ => rfl
    | ⟨1, _⟩ => rfl
    | ⟨2, _⟩ => rfl
  rw [val_main_v96_apply, e, val_main_v92_apply, val_main_v89_apply, val_main_v88_apply, val_main_c_29_apply]
  exact wrap_eq _ _ h

/-- Where scatter 2 lands update `j`: batch `j 0`, row and column the two words, when these are inside the
    accumulator. -/
theorem landing2 (x1 : (⟨S8x512x512x2, .f32⟩ : BufTy).Contents (Elt Ideal)) (j : S8x512x512.Idx) (i : S8x515x515.Idx)
    (hr : 0 ≤ (val_main_v74 (F := Ideal) x1 j).toInt ∧ (val_main_v74 (F := Ideal) x1 j).toInt < 515)
    (hc : 0 ≤ (val_main_v76 (F := Ideal) x1 j).toInt ∧ (val_main_v76 (F := Ideal) x1 j).toInt < 515) :
    scatter_S8x515x515_S8x512x512x3_S8x512x512_n_012_012_3.resultIdx? j (val_main_v97 (F := Ideal) x1) = some i
      ↔ ((j 0).val = (i 0).val ∧ (val_main_v74 (F := Ideal) x1 j).toInt = ((i 1).val : ℤ) ∧ (val_main_v76 (F := Ideal) x1 j).toInt = ((i 2).val : ℤ)) := by
  obtain ⟨a, b, c, rfl⟩ : ∃ (a : Fin 8) (b c : Fin 512), j = ix3 a b c := ⟨j 0, j 1, j 2, eq_ix3 j⟩
  refine landing_core (val_main_v97 (F := Ideal) x1) a b c i _ _ ?_ ?_ ?_ hr hc
  · exact (congrArg BitVec.toInt (cat_read0 _ _ _ _ a b c)).trans (batch2 a b c)
  · exact (cat_read1 _ _ _ _ a b c).trans (row2 x1 a b c hr.1)
  · exact (cat_read2 _ _ _ _ a b c).trans (col2 x1 a b c hc.1)

/-! ### Scatter 3: the index tensor read at its three components -/

/-- The batch component of scatter 3's index tensor is the batch number. -/
theorem batch3 (a : Fin 8) (b c : Fin 512) :
    (val_main_v136 (F := Ideal) (ix4 a b c (0 : Fin 1))).toInt = (a.val : ℤ) := by
  rw [val_main_v136_apply, val_main_v135_apply, val_main_v124_apply, val_main_v121_apply, val_main_v123_apply,
    val_main_v21_apply, val_main_v120_apply, val_main_c_37_apply, val_main_v122_apply, val_main_c_38_apply, val_main_v20_apply]
  exact batch_word a

/-- The row component of scatter 3's index tensor is the row word when that is not negative. -/
theorem row3 (x1 : (⟨S8x512x512x2, .f32⟩ : BufTy).Contents (Elt Ideal)) (a : Fin 8) (b c : Fin 512)
    (h : 0 ≤ (val_main_v116 (F := Ideal) x1 (ix3 a b c)).toInt) :
    val_main_v137 (F := Ideal) x1 (ix4 a b c (0 : Fin 1)) = val_main_v116 (F := Ideal) x1 (ix3 a b c) := by
  have e : idx_main_v137 (ix4 a b c (0 : Fin 1) : S8x512x512x1.Idx) = (ix3 a b c : S8x512x512.Idx) := by
    funext d
    match d with
    | ⟨0, _⟩ => rfl
    | ⟨1, _⟩ => rfl
    | ⟨2, _⟩ => rfl
  rw [val_main_v137_apply, e, val_main_v129_apply, val_main_v126_apply, val_main_v125_apply, val_main_c_39_apply]
  exact wrap_eq _ _ h

/-- The column component of scatter 3's index tensor is the column word when that is not negative. -/
theorem col3 (x1 : (⟨S8x512x512x2, .f32⟩ : BufTy).Contents (Elt Ideal)) (a : Fin 8) (b c : Fin 512)
    (h : 0 ≤ (val_main_v118 (F := Ideal) x1 (ix3 a b c)).toInt) :
    val_main_v138 (F := Ideal) x1 (ix4 a b c (0 : Fin 1)) = val_main_v118 (F := Ideal) x1 (ix3 a b c) := by
  have e : idx_main_v138 (ix4 a b c (0 : Fin 1) : S8x512x512x1.Idx) = (ix3 a b c : S8x512x512.Idx) := by
    funext d
    match d with
    | ⟨0, _⟩ => rfl
    | ⟨1, _⟩ => rfl
    | ⟨2, _⟩ => rfl
  rw [val_main_v138_apply, e, val_main_v134_apply, val_main_v131_apply, val_main_v130_apply, val_main_c_41_apply]
  exact wrap_eq _ _ h

/-- Where scatter 3 lands update `j`: batch `j 0`, row and column the two words, when these are inside the
    accumulator. -/
theorem landing3 (x1 : (⟨S8x512x512x2, .f32⟩ : BufTy).Contents (Elt Ideal)) (j : S8x512x512.Idx) (i : S8x515x515.Idx)
    (hr : 0 ≤ (val_main_v116 (F := Ideal) x1 j).toInt ∧ (val_main_v116 (F := Ideal) x1 j).toInt < 515)
    (hc : 0 ≤ (val_main_v118 (F := Ideal) x1 j).toInt ∧ (val_main_v118 (F := Ideal) x1 j).toInt < 515) :
    scatter_S8x515x515_S8x512x512x3_S8x512x512_n_012_012_3.resultIdx? j (val_main_v139 (F := Ideal) x1) = some i
      ↔ ((j 0).val = (i 0).val ∧ (val_main_v116 (F := Ideal) x1 j).toInt = ((i 1).val : ℤ) ∧ (val_main_v118 (F := Ideal) x1 j).toInt = ((i 2).val : ℤ)) := by
  obtain ⟨a, b, c, rfl⟩ : ∃ (a : Fin 8) (b c : Fin 512), j = ix3 a b c := ⟨j 0, j 1, j 2, eq_ix3 j⟩
  refine landing_core (val_main_v139 (F := Ideal) x1) a b c i _ _ ?_ ?_ ?_ hr hc
  · exact (congrArg BitVec.toInt (cat_read0 _ _ _ _ a b c)).trans (batch3 a b c)
  · exact (cat_read1 _ _ _ _ a b c).trans (row3 x1 a b c hr.1)
  · exact (cat_read2 _ _ _ _ a b c).trans (col3 x1 a b c hc.1)

/-! ### Scatter 4: the index tensor read at its three components -/

/-- The batch component of scatter 4's index tensor is the batch number. -/
theorem batch4 (a : Fin 8) (b c : Fin 512) :
    (val_main_v170 (F := Ideal) (ix4 a b c (0 : Fin 1))).toInt = (a.val : ℤ) := by
  rw [val_main_v170_apply, val_main_v169_apply, val_main_v158_apply, val_main_v155_apply, val_main_v157_apply,
    val_main_v21_apply, val_main_v154_apply, val_main_c_47_apply, val_main_v156_apply, val_main_c_48_apply, val_main_v20_apply]
  exact batch_word a

/-- The row component of scatter 4's index tensor is the row word when that is not negative. -/
theorem row4 (x1 : (⟨S8x512x512x2, .f32⟩ : BufTy).Contents (Elt Ideal)) (a : Fin 8) (b c : Fin 512)
    (h : 0 ≤ (val_main_v150 (F := Ideal) x1 (ix3 a b c)).toInt) :
    val_main_v171 (F := Ideal) x1 (ix4 a b c (0 : Fin 1)) = val_main_v150 (F := Ideal) x1 (ix3 a b c) := by
  have e : idx_main_v171 (ix4 a b c (0 : Fin 1) : S8x512x512x1.Idx) = (ix3 a b c : S8x512x512.Idx) := by
    funext d
    match d with
    | ⟨0, _⟩ => rfl
    | ⟨1, _⟩ => rfl
    | ⟨2, _⟩ => rfl
  rw [val_main_v171_apply, e, val_main_v163_apply, val_main_v160_apply, val_main_v159_apply, val_main_c_49_apply]
  exact wrap_eq _ _ h

/-- The column component of scatter 4's index tensor is the column word when that is not negative. -/
theorem col4 (x1 : (⟨S8x512x512x2, .f32⟩ : BufTy).Contents (Elt Ideal)) (a : Fin 8) (b c : Fin 512)
    (h : 0 ≤ (val_main_v152 (F := Ideal) x1 (ix3 a b c)).toInt) :
    val_main_v172 (F := Ideal) x1 (ix4 a b c (0 : Fin 1)) = val_main_v152 (F := Ideal) x1 (ix3 a b c) := by
  have e : idx_main_v172 (ix4 a b c (0 : Fin 1) : S8x512x512x1.Idx) = (ix3 a b c : S8x512x512.Idx) := by
    funext d
    match d with
    | ⟨0, _⟩ => rfl
    | ⟨1, _⟩ => rfl
    | ⟨2, _⟩ => rfl
  rw [val_main_v172_apply, e, val_main_v168_apply, val_main_v165_apply, val_main_v164_apply, val_main_c_51_apply]
  exact wrap_eq _ _ h

/-- Where scatter 4 lands update `j`: batch `j 0`, row and column the two words, when these are inside the
    accumulator. -/
theorem landing4 (x1 : (⟨S8x512x512x2, .f32⟩ : BufTy).Contents (Elt Ideal)) (j : S8x512x512.Idx) (i : S8x515x515.Idx)
    (hr : 0 ≤ (val_main_v150 (F := Ideal) x1 j).toInt ∧ (val_main_v150 (F := Ideal) x1 j).toInt < 515)
    (hc : 0 ≤ (val_main_v152 (F := Ideal) x1 j).toInt ∧ (val_main_v152 (F := Ideal) x1 j).toInt < 515) :
    scatter_S8x515x515_S8x512x512x3_S8x512x512_n_012_012_3.resultIdx? j (val_main_v173 (F := Ideal) x1) = some i
      ↔ ((j 0).val = (i 0).val ∧ (val_main_v150 (F := Ideal) x1 j).toInt = ((i 1).val : ℤ) ∧ (val_main_v152 (F := Ideal) x1 j).toInt = ((i 2).val : ℤ)) := by
  obtain ⟨a, b, c, rfl⟩ : ∃ (a : Fin 8) (b c : Fin 512), j = ix3 a b c := ⟨j 0, j 1, j 2, eq_ix3 j⟩
  refine landing_core (val_main_v173 (F := Ideal) x1) a b c i _ _ ?_ ?_ ?_ hr hc
  · exact (congrArg BitVec.toInt (cat_read0 _ _ _ _ a b c)).trans (batch4 a b c)
  · exact (cat_read1 _ _ _ _ a b c).trans (row4 x1 a b c hr.1)
  · exact (cat_read2 _ _ _ _ a b c).trans (col4 x1 a b c hc.1)

end Cert.ReferenceIdeal.Hand
-- ==== Proof.Ref.Sum3.lean ====
/-
  A sum over a rank-3 index is the iterated sum over its coordinates, and a sum that is guarded by the
  first coordinate being a given batch entry is the sum over the two remaining coordinates at that entry.
-/
import Idealize.ShloMosaic.PureOps.Ideal
import Idealize.ShloMosaic.Lib.ValueIdx

noncomputable section

open scoped BigOperators

namespace Cert.ReferenceIdeal.Hand

open Idealize.ShloMosaic Idealize.ShloMosaic.ValueIdx

/-- A rank-3 index is its first coordinate and the pair of the other two. -/
def idxEquiv3 {n0 n1 n2 : Nat} : (⟨3, ![n0, n1, n2]⟩ : Shape).Idx ≃ Fin n0 × (Fin n1 × Fin n2) where
  toFun i := (i 0, (i 1, i 2))
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ p : Fin n1 × Fin n2, f (ix3 a p.1 p.2) := by
  rw [← Equiv.sum_comp (idxEquiv3 (n0 := n0) (n1 := n1) (n2 := n2)).symm f, Fintype.sum_prod_type]
  rfl

/-- A sum over `(a, h, w)` whose terms vanish unless `a` is the batch entry `b` is the sum over `(h, w)` at `b`. -/
theorem sum_batch {M : Type*} [AddCommMonoid M] {n0 n1 n2 : Nat} (b : Fin n0)
    (f : (⟨3, ![n0, n1, n2]⟩ : Shape).Idx → M) (g : Fin n0 → Fin n1 × Fin n2 → M)
    (h : ∀ (a : Fin n0) (p : Fin n1 × Fin n2), f (ix3 a p.1 p.2) = if a.val = b.val then g a p else 0) :
    ∑ j, f j = ∑ p, g b p := by
  rw [sum_idx3, Finset.sum_eq_single b]
  · exact Finset.sum_congr rfl (fun p _ => by rw [h, if_pos rfl])
  · intro a _ hab
    exact Finset.sum_eq_zero (fun p _ => by rw [h, if_neg (fun e => hab (Fin.ext e))])
  · intro hb; exact absurd (Finset.mem_univ b) hb

end Cert.ReferenceIdeal.Hand

end
-- ==== Proof.Ref.Acc.lean ====
/-
  The accumulator after the four corner scatters, read at one node.

  Each accumulating scatter adds to every accumulator element the sum of the updates that land on it.  An
  update of source pixel `j` lands on the element whose batch coordinate is the pixel's and whose row and
  column are the corner's node words.  Starting from the zero array, the element of batch entry `b` at node
  `(r + 1, c + 1)` therefore ends as the sum over all source pixels of the four guarded corner deposits,
  which is the sum over the source pixels of batch entry `b` of the product of the two tent weights.
-/
import proofs.«180036_j3066606649874_2_alg».proof.Proof.Ref.Coord
import proofs.«180036_j3066606649874_2_alg».proof.Proof.Ref.Landing
import proofs.«180036_j3066606649874_2_alg».proof.Proof.Ref.Sum3

noncomputable section

open scoped BigOperators

namespace Cert.ReferenceIdeal.Hand

open Cert.ReferenceIdeal Cert.ReferenceIdeal.Read Cert.Splat Idealize.ShloMosaic Idealize.ShloMosaic.ValueIdx

/-- An accumulating scatter at one element: the element plus the updates landing on it, the landing
    condition spelled by any equivalent predicate. -/
theorem scatterAdd_at {s si su : Shape} (d : ScatterDims s si su) {w : Nat} (x : s.Idx → EReal) (idx : IVec si w)
    (upd : su.Idx → EReal) (i : s.Idx) (P : su.Idx → Prop) [DecidablePred P]
    (h : ∀ j, d.resultIdx? j idx = some i ↔ P j) :
    Ideal.hostScatterAdd d x idx upd i = x i + ∑ j, if P j then upd j else 0 := by
  simp only [Ideal.hostScatterAdd]
  rw [Finset.sum_filter]
  congr 1
  exact Finset.sum_congr rfl (fun j _ => if_congr (h j) rfl rfl)

theorem row1_bnd (x1 : Grid) (j : S8x512x512.Idx) :
    0 ≤ (val_main_v40 (F := Ideal) x1 j).toInt ∧ (val_main_v40 (F := Ideal) x1 j).toInt < 515 := by
  obtain ⟨b, h, w, rfl⟩ : ∃ (b : Fin 8) (h w : Fin 512), j = ix3 b h w := ⟨j 0, j 1, j 2, eq_ix3 j⟩
  rw [row1_at]
  exact ⟨word_nonneg _ _ (Or.inl rfl), word_lt _ _ (Or.inl rfl)⟩

theorem col1_bnd (x1 : Grid) (j : S8x512x512.Idx) :
    0 ≤ (val_main_v42 (F := Ideal) x1 j).toInt ∧ (val_main_v42 (F := Ideal) x1 j).toInt < 515 := by
  obtain ⟨b, h, w, rfl⟩ : ∃ (b : Fin 8) (h w : Fin 512), j = ix3 b h w := ⟨j 0, j 1, j 2, eq_ix3 j⟩
  rw [col1_at]
  exact ⟨word_nonneg _ _ (Or.inl rfl), word_lt _ _ (Or.inl rfl)⟩

theorem row2_bnd (x1 : Grid) (j : S8x512x512.Idx) :
    0 ≤ (val_main_v74 (F := Ideal) x1 j).toInt ∧ (val_main_v74 (F := Ideal) x1 j).toInt < 515 := by
  obtain ⟨b, h, w, rfl⟩ : ∃ (b : Fin 8) (h w : Fin 512), j = ix3 b h w := ⟨j 0, j 1, j 2, eq_ix3 j⟩
  rw [row2_at]
  exact ⟨word_nonneg _ _ (Or.inl rfl), word_lt _ _ (Or.inl rfl)⟩

theorem col2_bnd (x1 : Grid) (j : S8x512x512.Idx) :
    0 ≤ (val_main_v76 (F := Ideal) x1 j).toInt ∧ (val_main_v76 (F := Ideal) x1 j).toInt < 515 := by
  obtain ⟨b, h, w, rfl⟩ : ∃ (b : Fin 8) (h w : Fin 512), j = ix3 b h w := ⟨j 0, j 1, j 2, eq_ix3 j⟩
  rw [col2_at]
  exact ⟨word_nonneg _ _ (Or.inr rfl), word_lt _ _ (Or.inr rfl)⟩

theorem row3_bnd (x1 : Grid) (j : S8x512x512.Idx) :
    0 ≤ (val_main_v116 (F := Ideal) x1 j).toInt ∧ (val_main_v116 (F := Ideal) x1 j).toInt < 515 := by
  obtain ⟨b, h, w, rfl⟩ : ∃ (b : Fin 8) (h w : Fin 512), j = ix3 b h w := ⟨j 0, j 1, j 2, eq_ix3 j⟩
  rw [row3_at]
  exact ⟨word_nonneg _ _ (Or.inr rfl), word_lt _ _ (Or.inr rfl)⟩

theorem col3_bnd (x1 : Grid) (j : S8x512x512.Idx) :
    0 ≤ (val_main_v118 (F := Ideal) x1 j).toInt ∧ (val_main_v118 (F := Ideal) x1 j).toInt < 515 := by
  obtain ⟨b, h, w, rfl⟩ : ∃ (b : Fin 8) (h w : Fin 512), j = ix3 b h w := ⟨j 0, j 1, j 2, eq_ix3 j⟩
  rw [col3_at]
  exact ⟨word_nonneg _ _ (Or.inl rfl), word_lt _ _ (Or.inl rfl)⟩

theorem row4_bnd (x1 : Grid) (j : S8x512x512.Idx) :
    0 ≤ (val_main_v150 (F := Ideal) x1 j).toInt ∧ (val_main_v150 (F := Ideal) x1 j).toInt < 515 := by
  obtain ⟨b, h, w, rfl⟩ : ∃ (b : Fin 8) (h w : Fin 512), j = ix3 b h w := ⟨j 0, j 1, j 2, eq_ix3 j⟩
  rw [row4_at]
  exact ⟨word_nonneg _ _ (Or.inr rfl), word_lt _ _ (Or.inr rfl)⟩

theorem col4_bnd (x1 : Grid) (j : S8x512x512.Idx) :
    0 ≤ (val_main_v152 (F := Ideal) x1 j).toInt ∧ (val_main_v152 (F := Ideal) x1 j).toInt < 515 := by
  obtain ⟨b, h, w, rfl⟩ : ∃ (b : Fin 8) (h w : Fin 512), j = ix3 b h w := ⟨j 0, j 1, j 2, eq_ix3 j⟩
  rw [col4_at]
  exact ⟨word_nonneg _ _ (Or.inr rfl), word_lt _ _ (Or.inr rfl)⟩

/-- The accumulator after the first corner. -/
theorem acc1_at (x1 : Grid) (i : S8x515x515.Idx) :
    val_main_v64 (F := Ideal) x1 i = val_main_v22 (F := Ideal) i
      + ∑ j : S8x512x512.Idx, if (j 0).val = (i 0).val ∧ (val_main_v40 (F := Ideal) x1 j).toInt = ((i 1).val : ℤ) ∧ (val_main_v42 (F := Ideal) x1 j).toInt = ((i 2).val : ℤ) then val_main_v43 (F := Ideal) x1 j else 0 :=
  scatterAdd_at _ _ _ _ i (fun j : S8x512x512.Idx => (j 0).val = (i 0).val ∧ (val_main_v40 (F := Ideal) x1 j).toInt = ((i 1).val : ℤ) ∧ (val_main_v42 (F := Ideal) x1 j).toInt = ((i 2).val : ℤ))
    (fun j => landing1 x1 j i (row1_bnd x1 j) (col1_bnd x1 j))

/-- The accumulator after the second corner. -/
theorem acc2_at (x1 : Grid) (i : S8x515x515.Idx) :
    val_main_v98 (F := Ideal) x1 i = val_main_v64 (F := Ideal) x1 i
      + ∑ j : S8x512x512.Idx, if (j 0).val = (i 0).val ∧ (val_main_v74 (F := Ideal) x1 j).toInt = ((i 1).val : ℤ) ∧ (val_main_v76 (F := Ideal) x1 j).toInt = ((i 2).val : ℤ) then val_main_v77 (F := Ideal) x1 j else 0 :=
  scatterAdd_at _ _ _ _ i (fun j : S8x512x512.Idx => (j 0).val = (i 0).val ∧ (val_main_v74 (F := Ideal) x1 j).toInt = ((i 1).val : ℤ) ∧ (val_main_v76 (F := Ideal) x1 j).toInt = ((i 2).val : ℤ))
    (fun j => landing2 x1 j i (row2_bnd x1 j) (col2_bnd x1 j))

/-- The accumulator after the third corner. -/
theorem acc3_at (x1 : Grid) (i : S8x515x515.Idx) :
    val_main_v140 (F := Ideal) x1 i = val_main_v98 (F := Ideal) x1 i
      + ∑ j : S8x512x512.Idx, if (j 0).val = (i 0).val ∧ (val_main_v116 (F := Ideal) x1 j).toInt = ((i 1).val : ℤ) ∧ (val_main_v118 (F := Ideal) x1 j).toInt = ((i 2).val : ℤ) then val_main_v119 (F := Ideal) x1 j else 0 :=
  scatterAdd_at _ _ _ _ i (fun j : S8x512x512.Idx => (j 0).val = (i 0).val ∧ (val_main_v116 (F := Ideal) x1 j).toInt = ((i 1).val : ℤ) ∧ (val_main_v118 (F := Ideal) x1 j).toInt = ((i 2).val : ℤ))
    (fun j => landing3 x1 j i (row3_bnd x1 j) (col3_bnd x1 j))

/-- The accumulator after the fourth corner. -/
theorem acc4_at (x1 : Grid) (i : S8x515x515.Idx) :
    val_main_v174 (F := Ideal) x1 i = val_main_v140 (F := Ideal) x1 i
      + ∑ j : S8x512x512.Idx, if (j 0).val = (i 0).val ∧ (val_main_v150 (F := Ideal) x1 j).toInt = ((i 1).val : ℤ) ∧ (val_main_v152 (F := Ideal) x1 j).toInt = ((i 2).val : ℤ) then val_main_v153 (F := Ideal) x1 j else 0 :=
  scatterAdd_at _ _ _ _ i (fun j : S8x512x512.Idx => (j 0).val = (i 0).val ∧ (val_main_v150 (F := Ideal) x1 j).toInt = ((i 1).val : ℤ) ∧ (val_main_v152 (F := Ideal) x1 j).toInt = ((i 2).val : ℤ))
    (fun j => landing4 x1 j i (row4_bnd x1 j) (col4_bnd x1 j))

/-- The accumulator's element of batch entry `b` at node `(r + 1, c + 1)` is the deposit map there. -/
theorem acc_node (x1 : Grid) (b : Fin 8) (r c : Fin 512) (n m : Fin 515) (hn : n.val = 1 + r.val) (hm : m.val = 1 + c.val) :
    val_main_v174 (F := Ideal) x1 (ix3 b n m) = splat x1 b r c := by
  rw [acc4_at, acc3_at, acc2_at, acc1_at, val_main_v22_apply, val_main_cst_9_apply]
  have z : (FloatOps.ofBits (F := Ideal) .f32 0x00000000#32) = 0 := c0_eq
  rw [z, zero_add, ← Finset.sum_add_distrib, ← Finset.sum_add_distrib, ← Finset.sum_add_distrib]
  unfold splat
  refine sum_batch b _ (fun a p => tent (coord (x1 (ix4 a p.1 p.2 (0 : Fin 2)))) (node r.val)
      * tent (coord (x1 (ix4 a p.1 p.2 (1 : Fin 2)))) (node c.val)) (fun a p => ?_)
  rw [row1_at, col1_at, row2_at, col2_at, row3_at, col3_at, row4_at, col4_at, upd1_at, upd2_at, upd3_at, upd4_at]
  exact deposit (a.val = b.val) _ _ r.val c.val _ _
    (by show ((n.val : ℕ) : ℤ) = _; omega) (by show ((m.val : ℕ) : ℤ) = _; omega)

end Cert.ReferenceIdeal.Hand

end
-- ==== Proof.Ref.Value.lean ====
/-
  The reference's result is the deposit map.

  The result crops the one-pixel border of the accumulator (output pixel `(r, c)` is node `(r + 1, c + 1)`)
  and repeats the map of each batch entry over the 32 channels.
-/
import proofs.«180036_j3066606649874_2_alg».proof.Proof.Ref.Acc

noncomputable section

open scoped BigOperators

namespace Cert.ReferenceIdeal.Hand

open Cert.ReferenceIdeal Cert.ReferenceIdeal.Read Cert.Splat Idealize.ShloMosaic Idealize.ShloMosaic.ValueIdx

theorem idx_out (i : S8x32x512x512.Idx) (h2 : 1 + (i 2).val < 515) (h3 : 1 + (i 3).val < 515) :
    idx_main_v175 (idx_main_v176 (idx_main_v177 i)) = ix3 (i 0) ⟨1 + (i 2).val, h2⟩ ⟨1 + (i 3).val, h3⟩ := by
  funext a
  match a with
  | ⟨0, _⟩ => rfl
  | ⟨1, _⟩ => rfl
  | ⟨2, _⟩ => rfl

/-- The reference's result array is the deposit map of every batch entry, repeated over the channels. -/
theorem ref_result (x1 : (⟨Cert.ReferenceIdeal.S8x512x512x2, .f32⟩ : BufTy).Contents (Elt Ideal)) :
    Cert.ReferenceIdeal.Read.val_main_v177 (F := Ideal) x1 = Cert.Splat.result x1 := by
  funext i
  have h2 : 1 + (i 2).val < 515 := by have h : (i 2).val < 512 := (i 2).isLt; omega
  have h3 : 1 + (i 3).val < 515 := by have h : (i 3).val < 512 := (i 3).isLt; omega
  rw [val_main_v177_apply, val_main_v176_apply, val_main_v175_apply, idx_out i h2 h3]
  exact acc_node x1 (i 0) (i 2) (i 3) _ _ rfl rfl

end Cert.ReferenceIdeal.Hand

end
-- ==== Proof.Claims.lean ====
/-
  The five claims, assembled.

  Both programs compute the bilinear-splat denominator of `Proof/Spec.lean`: every source pixel of a batch
  entry deposits the product of two tent weights on the output pixels around its (clamped, border-shifted)
  coordinates, and the map is repeated over the channels.  The kernel program gets there by writing the
  deposits of 2048 source pixels at a time as a matrix product of the two weight matrices and accumulating
  the 128 products of a batch entry (`Proof/Ker`); the reference by four accumulating scatters, one per corner
  of the pixel's cell, cropped by the one-pixel border (`Proof/Ref`).  The two agree term by term because a
  tent weight vanishes on every node but the two corners (`Proof/Pixel.lean`); no precondition is used: a
  clamped coordinate is a real number whatever the grid entry is.
  The frames: each pallas_call's region keeps its invariant point by point (`Proof/R0`, `Proof/R1`), and the
  regions and the one reshape before them chain from the launch to the return (`Proof/Run.lean`); the word-level
  program's frame is the same argument at the other float instance (`Proof/W`).
-/
import proofs.«180036_j3066606649874_2_alg».proof.Defs
import proofs.«180036_j3066606649874_2_alg».proof.Proof.Run
import proofs.«180036_j3066606649874_2_alg».proof.Proof.W.Run
import proofs.«180036_j3066606649874_2_alg».proof.Proof.Ker.Array
import proofs.«180036_j3066606649874_2_alg».proof.Proof.Ref.Value
import proofs.«180036_j3066606649874_2_alg».proof.Proof.Gen.ReferenceIdeal.Read
import proofs.«180036_j3066606649874_2_alg».proof.Proof.Gen.Pre_finite_inputs

noncomputable section

namespace Cert.Proof.Claims

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the grid array, the kernel program's result array and the reference's are both the
    deposit map of that array. -/
theorem algebraic : Cert.algebraic_KernelIdeal_ReferenceIdeal := by
  intro m ρ m' ρ' _ hagree
  refine ⟨fun c => Cert.Splat.result (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Hand.kernel_result m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v177_eq, Cert.ReferenceIdeal.Hand.ref_result, (hagree c).2]

end Cert.Proof.Claims

end
-- ==== Proof.lean ====
/-
  `Cert.Claim`: the three frames, the (empty) idealization ledger and the equality of the two idealized
  programs' results over the extended reals, from `Proof/Claims.lean`.
-/
import proofs.«180036_j3066606649874_2_alg».proof.Defs
import proofs.«180036_j3066606649874_2_alg».proof.Proof.Gen.Kernel
import proofs.«180036_j3066606649874_2_alg».proof.Proof.Gen.KernelIdeal
import proofs.«180036_j3066606649874_2_alg».proof.Proof.Gen.ReferenceIdeal
import proofs.«180036_j3066606649874_2_alg».proof.Proof.Gen.Pre_finite_inputs
import proofs.«180036_j3066606649874_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
